-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S5x64x64 .f32) (main_arg4 : FVec F S5x64 .f32) (main_arg5 : FVec F S64x64 .f32) (main_arg6 : FVec F S64 .f32) (main_arg7 : FVec F S64x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x64x64 : Shape := ⟨3, ![1, 64, 64]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩
abbrev S512x64 : Shape := ⟨2, ![512, 64]⟩
abbrev S1x1 : Shape := ⟨2, ![1, 1]⟩
abbrev S512x1 : Shape := ⟨2, ![512, 1]⟩

abbrev nBuf : Space → Nat
  | .hbm => 127
  | .vmem => 62
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S5x64x64, .f32⟩
  | .hbm, ⟨4, _⟩ => ⟨S5x64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S1x64x64, .f32⟩
  | .hbm, ⟨25, _⟩ => ⟨S64x64, .f32⟩
  | .hbm, ⟨26, _⟩ => ⟨S50000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S1x64x64, .f32⟩
  | .hbm, ⟨44, _⟩ => ⟨S64x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S1x64, .f32⟩
  | .hbm, ⟨60, _⟩ => ⟨S64, .f32⟩
  | .hbm, ⟨61, _⟩ => ⟨S1x64, .f32⟩
  | .hbm, ⟨62, _⟩ => ⟨S1x64x64, .f32⟩
  | .hbm, ⟨63, _⟩ => ⟨S64x64, .f32⟩
  | .hbm, ⟨64, _⟩ => ⟨S50000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S1x64, .f32⟩
  | .hbm, ⟨79, _⟩ => ⟨S64, .f32⟩
  | .hbm, ⟨80, _⟩ => ⟨S1x64, .f32⟩
  | .hbm, ⟨81, _⟩ => ⟨S1x64x64, .f32⟩
  | .hbm, ⟨82, _⟩ => ⟨S64x64, .f32⟩
  | .hbm, ⟨83, _⟩ => ⟨S50000x64, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S_, .f32⟩
  | .hbm, ⟨94, _⟩ => ⟨S50000x64, .f32⟩
  | .hbm, ⟨95, _⟩ => ⟨S800000x1, .i32⟩
  | .hbm, ⟨96, _⟩ => ⟨S50000x64, .f32⟩
  | .hbm, ⟨97, _⟩ => ⟨S1x64, .f32⟩
  | .hbm, ⟨98, _⟩ => ⟨S64, .f32⟩
  | .hbm, ⟨99, _⟩ => ⟨S1x64, .f32⟩
  | .hbm, ⟨100, _⟩ => ⟨S1x64x64, .f32⟩
  | .hbm, ⟨101, _⟩ => ⟨S64x64, .f32⟩
  | .hbm, ⟨102, _⟩ => ⟨S50000x64, .f32⟩
  | .hbm, ⟨103, _⟩ => ⟨S_, .i32⟩
  | .hbm, ⟨104, _⟩ => ⟨S800000, .i32⟩
  | .hbm, ⟨105, _⟩ => ⟨S800000, .i1⟩
  | .hbm, ⟨106, _⟩ => ⟨S_, .i32⟩
  | .hbm, ⟨107, _⟩ => ⟨S800000, .i32⟩
  | .hbm, ⟨108, _⟩ => ⟨S800000, .i32⟩
  | .hbm, ⟨109, _⟩ => ⟨S800000, .i32⟩
  | .hbm, ⟨110, _⟩ => ⟨S800000x1, .i32⟩
  | .hbm, ⟨111, _⟩ => ⟨S800000x64, .f32⟩
  | .hbm, ⟨112, _⟩ => ⟨S_, .f32⟩
  | .hbm, ⟨113, _⟩ => ⟨S50000x64, .f32⟩
  | .hbm, ⟨114, _⟩ => ⟨S800000x1, .i32⟩
  | .hbm, ⟨115, _⟩ => ⟨S50000x64, .f32⟩
  | .hbm, ⟨116, _⟩ => ⟨S1x64, .f32⟩
  | .hbm, ⟨117, _⟩ => ⟨S64, .f32⟩
  | .hbm, ⟨118, _⟩ => ⟨S1x64, .f32⟩
  | .hbm, ⟨119, _⟩ => ⟨S50000x64, .f32⟩
  | .hbm, ⟨120, _⟩ => ⟨S_, .f32⟩
  | .hbm, ⟨121, _⟩ => ⟨S512x64, .f32⟩
  | .hbm, ⟨122, _⟩ => ⟨S50000x1, .i32⟩
  | .hbm, ⟨123, _⟩ => ⟨S512x64, .f32⟩
  | .hbm, ⟨124, _⟩ => ⟨S1x64, .f32⟩
  | .hbm, ⟨125, _⟩ => ⟨S1x1, .f32⟩
  | .hbm, ⟨126, _⟩ => ⟨S512x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S64x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x1, .f32⟩
  | .local _ .vmem, ⟨42, _⟩ => ⟨S5000x1, .f32⟩
  | .local _ .vmem, ⟨43, _⟩ => ⟨S1x64, .f32⟩
  | .local _ .vmem, ⟨44, _⟩ => ⟨S64x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S512x64, .f32⟩
  | .local _ .vmem, ⟨57, _⟩ => ⟨S64x64, .f32⟩
  | .local _ .vmem, ⟨58, _⟩ => ⟨S1x64, .f32⟩
  | .local _ .vmem, ⟨59, _⟩ => ⟨S64x1, .f32⟩
  | .local _ .vmem, ⟨60, _⟩ => ⟨S1x1, .f32⟩
  | .local _ .vmem, ⟨61, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_10 : Ref sig .tc := ⟨.hbm, 84, rfl⟩
abbrev main_v63 : Ref sig .tc := ⟨.hbm, 85, rfl⟩
abbrev main_v64 : Ref sig .tc := ⟨.hbm, 86, rfl⟩
abbrev main_c_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_13 : Ref sig .tc := ⟨.hbm, 103, rfl⟩
abbrev main_v79 : Ref sig .tc := ⟨.hbm, 104, rfl⟩
abbrev main_v80 : Ref sig .tc := ⟨.hbm, 105, rfl⟩
abbrev main_c_14 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_16 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg4_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem4_1 : DmaSem sig := 55
abbrev cc6_sem0_0 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S5x64x64_S1x64x64_0_0_0 : S5x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  slices_S5x64_S1x64_0_0 : S5x64.Slices ![0, 0] S1x64
  shapeCasts_S1x64_S64 : S1x64.ShapeCasts S64
  shapeCasts_S64_S1x64 : S64.ShapeCasts S1x64
  slices_S5x64x64_S1x64x64_1_0_0 : S5x64x64.Slices ![1, 0, 0] S1x64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S512x64 : S_.BroadcastsInDim S512x64 (![] : Fin 0 → Fin S512x64.rank)
  bcast_S50000_S50000x1_0 : S50000.BroadcastsInDim S50000x1 (![0] : Fin 1 → Fin S50000x1.rank)
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S512x1.size a
  hwx6_5 : ∀ i : grid6.Coords, EltTy.bits .f32 = 32 ∨ (Rect.block (s := S512x1) S512x1.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v88) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v95) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg7) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v98) S512x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S1x64 : Shape := ⟨2, ![1, 64]⟩
abbrev S800000x64 : Shape := ⟨2, ![800000, 64]⟩
abbrev S50000x1 : Shape := ⟨2, ![50000, 1]⟩
abbrev S512x64 : Shape := ⟨2, ![512, 64]⟩
abbrev S512x1 : Shape := ⟨2, ![512, 1]⟩
abbrev S1x1 : Shape := ⟨2, ![1, 1]⟩

abbrev nBuf : Space → Nat
  | .hbm => 210
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S5x64x64, .f32⟩
  | 4 => ⟨S5x64, .f32⟩
  | 5 => ⟨S64x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S1x64x64, .f32⟩
  | 44 => ⟨S64x64, .f32⟩
  | 45 => ⟨S1x64, .f32⟩
  | 46 => ⟨S64, .f32⟩
  | 47 => ⟨S50000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x1, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S1x64x64, .f32⟩
  | 75 => ⟨S64x64, .f32⟩
  | 76 => ⟨S1x64, .f32⟩
  | 77 => ⟨S64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x1, .f32⟩
  | 89 => ⟨S800000x64, .f32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S50000x1, .f32⟩
  | 96 => ⟨S50000x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S1x64x64, .f32⟩
  | 106 => ⟨S64x64, .f32⟩
  | 107 => ⟨S1x64, .f32⟩
  | 108 => ⟨S64, .f32⟩
  | 109 => ⟨S50000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x1, .f32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S50000x1, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S1x64x64, .f32⟩
  | 9 => ⟨S64x64, .f32⟩
  | 10 => ⟨S1x64, .f32⟩
  | 11 => ⟨S64, .f32⟩
  | 12 => ⟨S50000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x1, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x1, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S1x64x64, .f32⟩
  | 40 => ⟨S64x64, .f32⟩
  | 41 => ⟨S1x64, .f32⟩
  | 42 => ⟨S64, .f32⟩
  | 43 => ⟨S50000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x1, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x1, .f32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S512x64, .f32⟩
  | 69 => ⟨S50000x1, .i32⟩
  | 70 => ⟨S512x64, .f32⟩
  | 71 => ⟨S512x64, .f32⟩
  | 72 => ⟨S1x64, .f32⟩
  | 73 => ⟨S512x64, .f32⟩
  | 74 => ⟨S512x64, .f32⟩
  | 75 => ⟨S_, .f32⟩
  | 76 => ⟨S512x64, .f32⟩
  | 77 => ⟨S512x64, .f32⟩
  | 78 => ⟨S512x1, .f32⟩
  | 79 => ⟨S1x1, .f32⟩
  | 80 => ⟨S512x1, .f32⟩
  | 81 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call1_cst : Ref sig .tc := ⟨.hbm, 102, rfl⟩
abbrev main_call1_v0 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_11 : Ref sig .tc := ⟨.hbm, 110, rfl⟩
abbrev main_v84 : Ref sig .tc := ⟨.hbm, 111, rfl⟩
abbrev main_v85 : Ref sig .tc := ⟨.hbm, 112, rfl⟩
abbrev main_c_12 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_13 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call2_cst : Ref sig .tc := ⟨.hbm, 133, rfl⟩
abbrev main_call2_v0 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_14 : Ref sig .tc := ⟨.hbm, 141, rfl⟩
abbrev main_v110 : Ref sig .tc := ⟨.hbm, 142, rfl⟩
abbrev main_v111 : Ref sig .tc := ⟨.hbm, 143, rfl⟩
abbrev main_c_15 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_16 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_call3_cst : Ref sig .tc := ⟨.hbm, 164, rfl⟩
abbrev main_call3_v0 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_c_17 : Ref sig .tc := ⟨.hbm, 172, rfl⟩
abbrev main_v136 : Ref sig .tc := ⟨.hbm, 173, rfl⟩
abbrev main_v137 : Ref sig .tc := ⟨.hbm, 174, rfl⟩
abbrev main_c_18 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_19 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_20 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_call4_cst : Ref sig .tc := ⟨.hbm, 203, rfl⟩
abbrev main_call4_v0 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S512x64 : S_.BroadcastsInDim S512x64 (![] : Fin 0 → Fin S512x64.rank)
  bcast_S1x64_S512x64_0_1 : S1x64.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Algebra.lean ====
/-
  The arithmetic behind one graph-convolution layer, over the extended reals.

  A layer sends a node's projected feature `h` and its in-neighbours' projected features `a e` to
      Σ_e a e · (s e · d) + h · (d · d) + b,
  where `d` is the node's own normalisation factor and `s e` that of the neighbour along edge `e`.
  Scaling every projected feature by its node's factor first, summing, and scaling the sum by `d` afterwards,
      d · (Σ_e (a e · s e) + h · d) + b,
  is the same number as soon as `d` is a nonnegative REAL: multiplication by a finite nonnegative factor
  distributes over sums of extended reals, whatever infinities the summands hold.
-/
import Idealize.ShloMosaic.PureOps.Ideal

open scoped BigOperators

namespace Cert.GcnAlg

/-- A nonnegative real factor moves inside a finite sum of extended reals. -/
theorem coe_mul_sum {ι : Type*} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- One entry of a layer: factor scaled in before the neighbour sum and once after it, against the per-edge and
    self-loop products of factors. -/
theorem layer_point {ι : Type*} (r : ℝ) (hr : 0 ≤ r) (E : Finset ι) (a s : ι → EReal) (h b : EReal) :
    (r : EReal) * ((0 + ∑ e ∈ E, a e * s e) + h * (r : EReal)) + b
      = ((0 + ∑ e ∈ E, a e * (s e * (r : EReal))) + h * ((r : EReal) * (r : EReal))) + b := by
  rw [zero_add, zero_add,
    EReal.left_distrib_of_nonneg_of_ne_top (EReal.coe_nonneg.mpr hr) (EReal.coe_ne_top r), coe_mul_sum r hr]
  congr 1
  congr 1
  · refine Finset.sum_congr rfl fun e _ => ?_
    rw [mul_comm, mul_assoc]
  · rw [mul_comm, mul_assoc]

end Cert.GcnAlg
-- ==== Proof.Spec.lean ====
/-
  What the five-layer graph convolution network computes, entry by entry, over the extended reals.

  Nodes are `Fin 50000`, edges `Fin 800000`, features `Fin 64`, graphs `Fin 512`. An edge `e` carries a source
  row `src e` (already wrapped and clamped into the node range) and a destination WORD `dstw e`: the edge
  contributes to node `i` exactly when that word, read as a signed integer, is `i` (an out-of-range destination
  contributes to nobody).

  * `dinv i = (1 + #in-edges of i)^(-1/2)`, a positive real;
  * one layer sends features `h` to  Σ_{e into i} p(src e) · (dinv(src e) · dinv i) + p i · (dinv i · dinv i) + b
    with `p = h · W` (`convRef`); the same layer with the factors scaled in before and after the neighbour sum is
    `convKer`; they agree because `dinv i` is a nonnegative real (`conv_eq`);
  * arrays are functions on the index type of their literal shape; the closed forms of the seven on-chip stages
    (`projScale`, `combine`, `reluA`, `mlp`) are stated on those.
-/
import Idealize.ShloMosaic.Lib.ValueIdx
import Idealize.ShloMosaic.PureOps.Ideal
import proofs.«143766_j20229295964422_2_alg».proof.Proof.Algebra

noncomputable section

open scoped BigOperators

namespace Cert.Gcn

open Idealize.ShloMosaic Idealize.ShloMosaic.ValueIdx

/-- An array of extended reals of a literal shape. -/
abbrev Arr (s : Shape) : Type := s.Idx → EReal

abbrev sNC : Shape := ⟨2, ![50000, 64]⟩
abbrev sN1 : Shape := ⟨2, ![50000, 1]⟩
abbrev sN : Shape := ⟨1, ![50000]⟩
abbrev sCC : Shape := ⟨2, ![64, 64]⟩
abbrev s1C : Shape := ⟨2, ![1, 64]⟩
abbrev sC : Shape := ⟨1, ![64]⟩
abbrev sGC : Shape := ⟨2, ![512, 64]⟩
abbrev sC1 : Shape := ⟨2, ![64, 1]⟩
abbrev s11 : Shape := ⟨2, ![1, 1]⟩
abbrev sG1 : Shape := ⟨2, ![512, 1]⟩

/-! ## The on-chip stages, entry by entry -/

/-- Rows of `h` times `W`, each row then scaled by its node's factor (held as a column). -/
def projScale (h : Arr sNC) (W : Arr sCC) (d2 : Arr sN1) : Arr sNC :=
  fun j => (∑ q : Fin 64, h (ix2 (j 0) q) * W (ix2 q (j 1))) * d2 (ix2 (j 0) (0 : Fin 1))

/-- The neighbour sum and the node's own scaled features added, scaled by the node's factor, plus the bias row. -/
def combine (agg hs : Arr sNC) (d2 : Arr sN1) (b2 : Arr s1C) : Arr sNC :=
  fun j => d2 (ix2 (j 0) (0 : Fin 1)) * (agg j + hs j) + b2 (ix2 (0 : Fin 1) (j 1))

/-- The positive part, entry by entry. -/
def reluA {s : Shape} (x : Arr s) : Arr s := fun j => max (x j) 0

/-- The read-out: a hidden layer with positive part, then one output column. -/
def mlp (p : Arr sGC) (w1 : Arr sCC) (b1 : Arr s1C) (w2 : Arr sC1) (b2 : Arr s11) : Arr sG1 :=
  fun j => (∑ q : Fin 64, max ((∑ r : Fin 64, p (ix2 (j 0) r) * w1 (ix2 r q)) + b1 (ix2 (0 : Fin 1) q)) 0
      * w2 (ix2 q (j 1))) + b2 (ix2 (0 : Fin 1) (0 : Fin 1))

/-! ## The layer, in both arrangements -/

section Layer

variable (src : Fin 800000 → Fin 50000) (dstw : Fin 800000 → BitVec 32)

/-- The edges into node `i`. -/
def inE (i : Fin 50000) : Finset (Fin 800000) := Finset.univ.filter fun e => (dstw e).toInt = (i.val : ℤ)

/-- One plus the number of edges into `i`, as the sum the programs form: zero, plus a one per edge, plus one. -/
def deg (i : Fin 50000) : EReal := (0 + ∑ _e ∈ inE dstw i, (1 : EReal)) + 1

/-- The node's normalisation factor. -/
def dinv (i : Fin 50000) : EReal := Ideal.rsqrt (deg dstw i)

/-- A one per element sums to the number of elements. -/
theorem sum_one {ι : Type*} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha,
      show (1 : EReal) = ((1 : ℝ) : EReal) from rfl, ← EReal.coe_add]
    congr 1
    push_cast
    ring

/-- The degree is a real number, at least one. -/
theorem deg_eq (i : Fin 50000) : deg dstw i = ((((inE dstw i).card : ℝ) + 1 : ℝ) : EReal) := by
  unfold deg
  rw [zero_add, sum_one, show (1 : EReal) = ((1 : ℝ) : EReal) from rfl, ← EReal.coe_add]

/-- The factor is a nonnegative real. -/
theorem dinv_real (i : Fin 50000) : ∃ r : ℝ, 0 ≤ r ∧ dinv dstw i = (r : EReal) := by
  refine ⟨(Real.sqrt (((inE dstw i).card : ℝ) + 1))⁻¹, inv_nonneg.mpr (Real.sqrt_nonneg _), ?_⟩
  have hpos : (0 : ℝ) < ((inE dstw i).card : ℝ) + 1 := by positivity
  unfold dinv
  rw [deg_eq, Ideal.rsqrt_coe, if_neg (not_lt.mpr hpos.le), if_neg hpos.ne']

/-- The layer as the reference arranges it, from the projected features `p`. -/
def convRef (p : Fin 50000 → Fin 64 → EReal) (b : Fin 64 → EReal) (i : Fin 50000) (k : Fin 64) : EReal :=
  ((0 + ∑ e ∈ inE dstw i, p (src e) k * (dinv dstw (src e) * dinv dstw i)) + p i k * (dinv dstw i * dinv dstw i)) + b k

/-- The layer as the kernel arranges it, from the projected features already scaled by their nodes' factors. -/
def convKer (hs : Fin 50000 → Fin 64 → EReal) (b : Fin 64 → EReal) (i : Fin 50000) (k : Fin 64) : EReal :=
  dinv dstw i * ((0 + ∑ e ∈ inE dstw i, hs (src e) k) + hs i k) + b k

/-- The two arrangements agree. -/
theorem conv_eq (p : Fin 50000 → Fin 64 → EReal) (b : Fin 64 → EReal) (i : Fin 50000) (k : Fin 64) :
    convKer src dstw (fun n c => p n c * dinv dstw n) b i k = convRef src dstw p b i k := by
  obtain ⟨r, hr, hd⟩ := dinv_real dstw i
  unfold convKer convRef
  beta_reduce
  rw [hd]
  exact Cert.GcnAlg.layer_point r hr (inE dstw i) (fun e => p (src e) k) (fun e => dinv dstw (src e)) (p i k) (b k)

end Layer

/-! ## The whole network, on plain index functions -/

/-- Node features. -/
abbrev Feat : Type := Fin 50000 → Fin 64 → EReal

/-- Features times a weight matrix. -/
def proj (h : Feat) (W : Fin 64 → Fin 64 → EReal) : Feat := fun i k => ∑ q : Fin 64, h i q * W q k

/-- The positive part of every feature. -/
def reluF (h : Feat) : Feat := fun i k => max (h i k) 0

/-- One layer of the reference: project, then convolve. -/
def layerRef (src : Fin 800000 → Fin 50000) (dstw : Fin 800000 → BitVec 32) (h : Feat) (W : Fin 64 → Fin 64 → EReal)
    (b : Fin 64 → EReal) : Feat :=
  convRef src dstw (proj h W) b

/-- Five layers, the positive part between them. -/
def netRef (src : Fin 800000 → Fin 50000) (dstw : Fin 800000 → BitVec 32) (x : Feat)
    (Ws : Fin 5 → Fin 64 → Fin 64 → EReal) (bs : Fin 5 → Fin 64 → EReal) : Feat :=
  layerRef src dstw (reluF (layerRef src dstw (reluF (layerRef src dstw (reluF (layerRef src dstw
    (reluF (layerRef src dstw x (Ws 0) (bs 0))) (Ws 1) (bs 1))) (Ws 2) (bs 2))) (Ws 3) (bs 3))) (Ws 4) (bs 4)

/-- The sum of the node features of each graph: node `n` belongs to graph `g` when its batch word, read signed, is `g`. -/
def pool (batchw : Fin 50000 → BitVec 32) (h : Feat) (g : Fin 512) (k : Fin 64) : EReal :=
  0 + ∑ n ∈ Finset.univ.filter (fun n : Fin 50000 => (batchw n).toInt = (g.val : ℤ)), h n k

/-- The read-out on plain index functions. -/
def readout (p : Fin 512 → Fin 64 → EReal) (w1 : Fin 64 → Fin 64 → EReal) (b1 : Fin 64 → EReal) (w2 : Fin 64 → EReal)
    (b2 : EReal) (g : Fin 512) : EReal :=
  (∑ q : Fin 64, max ((∑ r : Fin 64, p g r * w1 r q) + b1 q) 0 * w2 q) + b2

/-! ## The arguments as index functions -/

/-- A negative index word counts from the end of the node range. -/
def wrapW (w : BitVec 32) : BitVec 32 := Scalar.select (IntOp.cmpi .slt w 0#32) (IntOp.addi w 50000#32) w

/-- An index word read signed and clamped into the node range. -/
def rowW (w : BitVec 32) : Fin 50000 := ⟨min w.toInt.toNat (50000 - 1), by omega⟩

/-- An edge's source row. -/
def srcOf (a1 : IVec ⟨2, ![2, 800000]⟩ 32) (e : Fin 800000) : Fin 50000 := rowW (wrapW (a1 (ix2 (0 : Fin 2) e)))

/-- An edge's destination word. -/
def dstwOf (a1 : IVec ⟨2, ![2, 800000]⟩ 32) (e : Fin 800000) : BitVec 32 := a1 (ix2 (1 : Fin 2) e)

/-- A word that reads, signed, as a node is that node after wrapping and clamping. -/
theorem rowW_wrapW_of_toInt (w : BitVec 32) (i : Fin 50000) (h : w.toInt = (i.val : ℤ)) : rowW (wrapW w) = i := by
  have hi := i.isLt
  have hnot : ¬ w.slt 0#32 = true := by
    rw [BitVec.slt_eq_decide]  -- signed comparison is comparison of the signed readings
    simp only [BitVec.toInt_zero, decide_eq_true_eq, not_lt]
    omega
  unfold wrapW rowW
  have hc : IntOp.cmpi .slt w 0#32 = 0#1 := by
    unfold IntOp.cmpi
    simp [hnot]
  rw [hc, select_zero]
  apply Fin.ext
  show min w.toInt.toNat (50000 - 1) = i.val
  omega

/-- THE RESULT both programs compute, from the nine argument arrays: entry `(g, 0)` of the output column. -/
def netOut (a0 : Arr sNC) (a1 : IVec ⟨2, ![2, 800000]⟩ 32) (a2 : IVec sN 32) (a3 : Arr ⟨3, ![5, 64, 64]⟩)
    (a4 : Arr ⟨2, ![5, 64]⟩) (a5 : Arr sCC) (a6 : Arr sC) (a7 : Arr sC1) (a8 : Arr ⟨1, ![1]⟩) : Arr sG1 :=
  fun j => readout
    (pool (fun n => a2 (ix1 n))
      (netRef (srcOf a1) (dstwOf a1) (fun i q => a0 (ix2 i q)) (fun l q c => a3 (ix3 l q c)) (fun l c => a4 (ix2 l c))))
    (fun r q => a5 (ix2 r q)) (fun q => a6 (ix1 q)) (fun q => a7 (ix2 q (0 : Fin 1))) (a8 (ix1 (0 : Fin 1))) (j 0)

end Cert.Gcn

end
-- ==== Proof.LibScatterRows.lean ====
/-
  Reading an accumulating scatter at an index.

  `x.at[idx].add(upd)` of a matrix `x : [N, C]` at an integer vector `idx : [E]` with updates `upd : [E, C]`
  (a segment sum of rows) lowers to a scatter whose body is an addition, with the scatter indices laid out as
  `[E, 1]`: update window axis 1, inserted window axis 0, the scatter-dims-to-operand-dims map `[0]`.
  Update element `(e, k)` lands on the operand's element `(r, k)`, where the row `r` is the scatter index
  `idx[e, 0]` read as a signed integer and NOT clamped: an update whose row is outside `[0, N - 1]` is dropped.
  So, over the extended reals, element `(i, k)` of the result is `x[i, k]` plus the sum of `upd[e, k]` over the
  edges `e` whose scatter index is exactly `i`. The same is shown for a vector operand `[N]` with updates `[E]`.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Any scatter -/

/-- An operand axis is kept exactly when it is not an inserted window axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- An update index lands on the operand index `r` exactly when, on every operand axis, the start (read signed)
    plus the window coordinate is `r`'s coordinate. -/
theorem resultIdx?_eq_some_iff {s si u : Shape} (d : ScatterDims s si u) {w : Nat} (j : u.Idx) (idx : IVec si w)
    (r : s.Idx) :
    d.resultIdx? j idx = some r ↔ ∀ a, d.start j idx a + (d.window j a : ℤ) = ((r a).val : ℤ) := by
  unfold ScatterDims.resultIdx?
  split
  · rename_i h
    rw [Option.some.injEq]
    constructor
    · intro hf a
      have hv : (d.start j idx a + (d.window j a : ℤ)).toNat = (r a).val := congrArg Fin.val (congrFun hf a)
      have hb := h a
      omega
    · intro hr
      funext a
      refine Fin.ext ?_
      have := hr a
      show (d.start j idx a + (d.window j a : ℤ)).toNat = (r a).val
      omega
  · rename_i h
    constructor
    · intro hf
      exact absurd hf (by simp)
    · intro hr
      refine absurd (fun a => ?_) h
      have := hr a
      have := (r a).isLt
      constructor <;> omega

/-! ## Rows of a matrix -/

/-- operand [N, C], scatter indices [E, 1], updates [E, C]: row e of the updates is added to row idx[e,0] of the operand -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window starts at the scatter index, read signed. -/
theorem rowDims_start_row {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowDims N E C wf).start (ix2 e k) idx (0 : Fin 2) = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e k) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the scatter-dims-to-operand-dims map does not name it. -/
theorem rowDims_start_col {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowDims N E C wf).start (ix2 e k) idx (1 : Fin 2) = 0 := by
  unfold ScatterDims.start
  rw [dif_neg (fun h => absurd (congrArg Fin.val (List.mem_singleton.mp h)) Nat.one_ne_zero)]

/-- The row axis is inserted: its window coordinate is zero. -/
theorem rowDims_window_row {N E C : Nat}
    (wf : ScatterDims.WF ⟨2, ![N, C]⟩ ⟨2, ![E, 1]⟩ ⟨2, ![E, C]⟩ [1] [0] [0] 1) (e : Fin E) (k : Fin C) :
    (rowDims N E C wf).window (ix2 e k) (0 : Fin 2) = 0 := by
  unfold ScatterDims.window
  rw [dif_neg (fun h => (mem_sKept _ _).mp h (List.mem_singleton.mpr rfl))]

/-- The window coordinate on the column axis is the update's column. -/
theorem rowDims_window_col {N E C : Nat}
    (wf : ScatterDims.WF ⟨2, ![N, C]⟩ ⟨2, ![E, 1]⟩ ⟨2, ![E, C]⟩ [1] [0] [0] 1) (e : Fin E) (k : Fin C) :
    (rowDims N E C wf).window (ix2 e k) (1 : Fin 2) = k.val := by
  unfold ScatterDims.window
  rw [dif_pos ((mem_sKept _ _).mpr
    (fun h => absurd (congrArg Fin.val (List.mem_singleton.mp h)) Nat.one_ne_zero))]
  rfl

/-- Update element `(e, k)` lands on operand element `(i, k')` exactly when the scatter index of `e` is `i` and
    the columns agree. -/
theorem rowDims_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k k' : Fin C) (i : Fin N) :
    (rowDims N E C wf).resultIdx? (ix2 e k) idx = some (ix2 i k')
      ↔ (idx (ix2 e (0 : Fin 1))).toInt = (i.val : ℤ) ∧ k = k' := by
  rw [resultIdx?_eq_some_iff]
  constructor
  · intro h
    have a0 : (rowDims N E C wf).start (ix2 e k) idx (0 : Fin 2)
        + ((rowDims N E C wf).window (ix2 e k) (0 : Fin 2) : ℤ) = (i.val : ℤ) := h (0 : Fin 2)
    have a1 : (rowDims N E C wf).start (ix2 e k) idx (1 : Fin 2)
        + ((rowDims N E C wf).window (ix2 e k) (1 : Fin 2) : ℤ) = (k'.val : ℤ) := h (1 : Fin 2)
    rw [rowDims_start_row, rowDims_window_row] at a0
    rw [rowDims_start_col, rowDims_window_col] at a1
    exact ⟨by omega, Fin.ext (by omega)⟩
  · rintro ⟨hi, hk⟩ a
    match a with
    | ⟨0, _⟩ =>
      show (rowDims N E C wf).start (ix2 e k) idx (0 : Fin 2)
        + ((rowDims N E C wf).window (ix2 e k) (0 : Fin 2) : ℤ) = (i.val : ℤ)
      rw [rowDims_start_row, rowDims_window_row, hi]
      omega
    | ⟨1, _⟩ =>
      show (rowDims N E C wf).start (ix2 e k) idx (1 : Fin 2)
        + ((rowDims N E C wf).window (ix2 e k) (1 : Fin 2) : ℤ) = (k'.val : ℤ)
      rw [rowDims_start_col, rowDims_window_col, hk]
      omega

/-- THE ROW SCATTER-ADD READ AT `(i, k)`: the operand's element plus the updates' elements `(e, k)` over the
    edges `e` whose scatter index is `i`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (i : Fin N) (k : Fin C) :
    Host.scatterAdd (F := Ideal) (rowDims N E C wf) x idx upd (ix2 i k)
      = x (ix2 i k) + ∑ e ∈ Finset.univ.filter (fun e : Fin E => (idx (ix2 e (0 : Fin 1))).toInt = (i.val : ℤ)),
          upd (ix2 e k) := by
  have key : ∀ j : (⟨2, ![E, C]⟩ : Shape).Idx, (rowDims N E C wf).resultIdx? j idx = some (ix2 i k) →
      (idx (ix2 (n0 := E) (j 0) (0 : Fin 1))).toInt = (i.val : ℤ) ∧ (j 1 : Fin C) = k := by
    intro j h
    rw [eq_ix2 (n0 := E) (n1 := C) j] at h
    exact (rowDims_resultIdx?_eq_some_iff wf idx _ _ _ _).mp h
  unfold Host.scatterAdd
  rw [Ideal.hostScatterAdd_def]
  unfold Ideal.hostScatterAdd
  congr 1
  refine Finset.sum_nbij' (fun j => (j 0 : Fin E)) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowDims_resultIdx?_eq_some_iff wf idx e k k i).mpr ⟨(Finset.mem_filter.mp he).2, rfl⟩⟩
  · intro j hj
    have h2 := (key j (Finset.mem_filter.mp hj).2).2
    show ix2 (n0 := E) (n1 := C) (j 0) k = j
    rw [← h2]
    exact (eq_ix2 (n0 := E) (n1 := C) j).symm
  · intro e _
    rfl
  · intro j hj
    have h2 := (key j (Finset.mem_filter.mp hj).2).2
    have hjk : ix2 (n0 := E) (n1 := C) (j 0) k = j := by
      rw [← h2]
      exact (eq_ix2 (n0 := E) (n1 := C) j).symm
    exact (congrArg upd hjk).symm

/-! ## A vector -/

/-- operand [N], scatter indices [E, 1], updates [E]: update e is added to element idx[e,0] of the operand -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the operand's one axis the window starts at the scatter index, read signed. -/
theorem vecDims_start {N E w : Nat} (wf : ScatterDims.WF ⟨1, ![N]⟩ ⟨2, ![E, 1]⟩ ⟨1, ![E]⟩ [] [0] [0] 1)
    (idx : IVec ⟨2, ![E, 1]⟩ w) (e : Fin E) :
    (vecDims N E wf).start (ix1 e) idx (0 : Fin 1) = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is zero. -/
theorem vecDims_window {N E : Nat} (wf : ScatterDims.WF ⟨1, ![N]⟩ ⟨2, ![E, 1]⟩ ⟨1, ![E]⟩ [] [0] [0] 1) (e : Fin E) :
    (vecDims N E wf).window (ix1 e) (0 : Fin 1) = 0 := by
  unfold ScatterDims.window
  rw [dif_neg (fun h => (mem_sKept _ _).mp h (List.mem_singleton.mpr rfl))]

/-- Update element `e` lands on operand element `i` exactly when the scatter index of `e` is `i`. -/
theorem vecDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (vecDims N E wf).resultIdx? (ix1 e) idx = some (ix1 i) ↔ (idx (ix2 e (0 : Fin 1))).toInt = (i.val : ℤ) := by
  rw [resultIdx?_eq_some_iff]
  constructor
  · intro h
    have a0 : (vecDims N E wf).start (ix1 e) idx (0 : Fin 1)
        + ((vecDims N E wf).window (ix1 e) (0 : Fin 1) : ℤ) = (i.val : ℤ) := h (0 : Fin 1)
    rw [vecDims_start, vecDims_window] at a0
    omega
  · intro hi a
    match a with
    | ⟨0, _⟩ =>
      show (vecDims N E wf).start (ix1 e) idx (0 : Fin 1)
        + ((vecDims N E wf).window (ix1 e) (0 : Fin 1) : ℤ) = (i.val : ℤ)
      rw [vecDims_start, vecDims_window, hi]
      omega

/-- THE VECTOR SCATTER-ADD READ AT `i`: the operand's element plus the updates' elements `e` over the edges `e`
    whose scatter index is `i`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : Fin N) :
    Host.scatterAdd (F := Ideal) (vecDims N E wf) x idx upd (ix1 i)
      = x (ix1 i) + ∑ e ∈ Finset.univ.filter (fun e : Fin E => (idx (ix2 e (0 : Fin 1))).toInt = (i.val : ℤ)),
          upd (ix1 e) := by
  have key : ∀ j : (⟨1, ![E]⟩ : Shape).Idx, (vecDims N E wf).resultIdx? j idx = some (ix1 i) →
      (idx (ix2 (n0 := E) (j 0) (0 : Fin 1))).toInt = (i.val : ℤ) := by
    intro j h
    rw [eq_ix1 (n := E) j] at h
    exact (vecDims_resultIdx?_eq_some_iff wf idx _ _).mp h
  unfold Host.scatterAdd
  rw [Ideal.hostScatterAdd_def]
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _, key j (Finset.mem_filter.mp hj).2⟩
  · intro e he
    exact Finset.mem_filter.mpr ⟨Finset.mem_univ _,
      (vecDims_resultIdx?_eq_some_iff wf idx e i).mpr (Finset.mem_filter.mp he).2⟩
  · intro j _
    exact (eq_ix1 (n := E) j).symm
  · intro e _
    rfl
  · intro j _
    exact congrArg upd (eq_ix1 (n := E) j)

end Idealize.ShloMosaic.ScatterRows

end
-- ==== Proof.LibGatherRows.lean ====
/-
  Reading a row gather at an index.

  `x[idx]` of a matrix `x : [N, C]` at an integer vector `idx : [E]` lowers to a gather with the start indices
  laid out as `[E, 1]`: offset axis 1, collapsed axis 0, the start index map `[0]`, slices of one whole row.
  The element `(e, k)` of the result is the operand's element `(r, k)`, where the row `r` is the start index
  `idx[e, 0]` read as a signed integer and clamped into `[0, N - 1]`. In particular the row depends on `e` only and
  the column is kept, which is what a row-wise reduction of gathered rows needs.
-/
import Idealize.ShloMosaic.Lib.ValueIdx

noncomputable section

namespace Idealize.ShloMosaic.GatherRows

open Idealize.ShloMosaic Idealize.ShloMosaic.ValueIdx

variable {α : Type}

/-- The dimension numbers of a row gather: operand `[N, C]`, start indices `[E, 1]`, result `[E, C]`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that edge `e` selects: its start index read signed, clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- On the row axis the slice starts at the clamped start index. -/
theorem rowDims_start_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (0 : Fin 2) = min (idx (ix2 e (0 : Fin 1))).toInt.toNat (N - 1) := by
  unfold GatherDims.start
  rw [dif_pos (show (0 : Fin 2) ∈ (rowDims N E C wf).startIndexMap from List.mem_singleton.mpr rfl)]
  have hsi : (rowDims N E C wf).siIdx (ix2 e k) ⟨List.idxOf (0 : Fin 2) (rowDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the slice starts at zero: the start index map does not name it. -/
theorem rowDims_start_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (1 : Fin 2) = 0 := by
  unfold GatherDims.start
  rw [dif_neg (fun h => absurd (congrArg Fin.val (List.mem_singleton.mp h)) Nat.one_ne_zero)]

/-- The offset coordinate on the column axis is the result's column. -/
theorem rowDims_off_col {N E C : Nat}
    (wf : GatherDims.WF ⟨2, ![N, C]⟩ ⟨2, ![E, 1]⟩ ⟨2, ![E, C]⟩ [1] [0] [] [0] [] 1 ![1, C])
    (e : Fin E) (k : Fin C) :
    (rowDims N E C wf).offCoord (ix2 e k) (1 : Fin 2) = k.val := by
  unfold GatherDims.offCoord
  rw [dif_pos ((GatherDims.mem_sKept _ _).mpr ⟨fun h => absurd (congrArg Fin.val (List.mem_singleton.mp h)) Nat.one_ne_zero, List.not_mem_nil⟩)]
  rfl

/-- The operand index of result element `(e, k)` is `(rowOf e, k)`. -/
theorem rowDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).operandIdx (ix2 e k) idx = ix2 (rowOf hN idx e) k := by
  funext a
  refine Fin.ext ?_
  match a with
  | ⟨0, _⟩ =>
    show (rowDims N E C wf).start (ix2 e k) idx (0 : Fin 2) + (rowDims N E C wf).batchCoord (ix2 e k) (0 : Fin 2)
      + (rowDims N E C wf).offCoord (ix2 e k) (0 : Fin 2) = min (idx (ix2 e (0 : Fin 1))).toInt.toNat (N - 1)
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero, rowDims_start_row]
  | ⟨1, _⟩ =>
    show (rowDims N E C wf).start (ix2 e k) idx (1 : Fin 2) + (rowDims N E C wf).batchCoord (ix2 e k) (1 : Fin 2)
      + (rowDims N E C wf).offCoord (ix2 e k) (1 : Fin 2) = k.val
    rw [GatherDims.batchCoord_eq_zero _ _ _ List.not_mem_nil, Nat.add_zero, rowDims_start_col, Nat.zero_add,
      rowDims_off_col]

/-- THE ROW GATHER READ AT `(e, k)`: the operand's element `(rowOf e, k)`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N E C wf) x idx (ix2 e k) = x (ix2 (rowOf hN idx e) k) := by
  unfold Host.gather
  rw [rowDims_operandIdx hN wf idx e k]

end Idealize.ShloMosaic.GatherRows

end
-- ==== Proof.KerRead.lean ====
/-
  The host operations between the kernel's on-chip stages, read entry by entry over the extended reals.

  * the index vector of a row gather is the source word of each edge, wrapped when negative, as a column;
  * gathering rows of `hs` at the wrapped sources and scatter-adding them at the destination words gives, at
    `(i, k)`, zero plus the sum over the edges into `i` of `hs (source row, k)`;
  * the column of normalisation factors is `(0 + Σ_{edges into i} 1 + 1)^(-1/2)`;
  * a slice of the stacked weights (biases) reshaped to a matrix (a row) is the layer's weights (biases);
  * the pooled features are zero plus the sum over a graph's nodes.
-/
import proofs.«143766_j20229295964422_2_alg».proof.Proof.Gen.KernelIdeal
import proofs.«143766_j20229295964422_2_alg».proof.Proof.Spec
import proofs.«143766_j20229295964422_2_alg».proof.Proof.LibScatterRows
import proofs.«143766_j20229295964422_2_alg».proof.Proof.LibGatherRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open scoped BigOperators

namespace Cert.KernelIdeal.Hand

open Cert.KernelIdeal Cert.KernelIdeal.Gen Idealize.ShloMosaic Idealize.ShloMosaic.ValueIdx Cert.Gcn

/-- The float word of one denotes one. -/
theorem ofBits_one : Ideal.ofBits .f32 0x3F800000#32 = 1 := Ideal.ofBits_one_f32

/-- The printed scatter and gather records are the row shapes of the library lemmas. -/
theorem scat_rows_eq : scatter_S50000x64_S800000x1_S800000x64_1_0_0_1
    = ScatterRows.rowDims 50000 800000 64 scatter_S50000x64_S800000x1_S800000x64_1_0_0_1_wf := rfl
theorem gath_rows_eq : gather_S50000x64_S800000x1_S800000x64_1_0_n_n_0_1_164
    = GatherRows.rowDims 50000 800000 64 gather_S50000x64_S800000x1_S800000x64_1_0_n_n_0_1_164_wf := rfl
theorem scat_vec_eq : scatter_S50000_S800000x1_S800000_n_0_0_1
    = ScatterRows.vecDims 50000 800000 scatter_S50000_S800000x1_S800000_n_0_0_1_wf := rfl
theorem scat_pool_eq : scatter_S512x64_S50000x1_S50000x64_1_0_0_1
    = ScatterRows.rowDims 512 50000 64 scatter_S512x64_S50000x1_S50000x64_1_0_0_1_wf := rfl

/-- A vector laid out as a column, read at `(e, 0)`. -/
theorem col_apply {α : Type} (v : S800000.Idx → α) (e : Fin 800000) :
    broadcastInDim S800000x1 ![0] bcast_S800000_S800000x1_0 v (ix2 e (0 : Fin 1)) = v (ix1 e) :=
  broadcastInDim_apply _ _ v _ (ix1 e) (fun a => by
    obtain rfl : a = 0 := Subsingleton.elim _ _
    rfl)

/-- The wrapped source words, as the program forms them. -/
abbrev wrapV (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

theorem wrapV_apply (v : IVec S800000 32) (e : Fin 800000) : wrapV v (ix1 e) = wrapW (v (ix1 e)) := rfl

/-- The neighbour sum of scaled features, as an array. -/
def aggOf (hs : Arr sNC) (srcv dstv : IVec S800000 32) : Arr sNC :=
  fun j => 0 + ∑ e ∈ inE (fun e => dstv (ix1 e)) (j 0), hs (ix2 (rowW (wrapW (srcv (ix1 e)))) (j 1))

/-- Gather at the wrapped sources, scatter-add at the destinations. -/
theorem agg_read (hs : Arr sNC) (srcv dstv : IVec S800000 32) :
    Host.scatterAdd (F := Ideal) scatter_S50000x64_S800000x1_S800000x64_1_0_0_1
      (broadcastInDim S50000x64 ![] bcast_S_S50000x64 (constant S_ .f32 0x00000000#32))
      (broadcastInDim S800000x1 ![0] bcast_S800000_S800000x1_0 dstv)
      (Host.gather gather_S50000x64_S800000x1_S800000x64_1_0_n_n_0_1_164 hs
        (broadcastInDim S800000x1 ![0] bcast_S800000_S800000x1_0 (wrapV srcv)))
    = aggOf hs srcv dstv := by
  funext j
  obtain ⟨i, k, rfl⟩ : ∃ (i : Fin 50000) (k : Fin 64), j = ix2 i k := ⟨j 0, j 1, eq_ix2 j⟩
  rw [scat_rows_eq, ScatterRows.scatterAdd_rows_apply]
  have h0 : (broadcastInDim S50000x64 ![] bcast_S_S50000x64 (constant (F := Ideal) S_ .f32 0x00000000#32)) (ix2 i k) = (0 : EReal) :=
    Ideal.ofBits_zero_f32
  rw [h0]
  show (0 : EReal) + _ = 0 + ∑ e ∈ inE (fun e => dstv (ix1 e)) i, hs (ix2 (rowW (wrapW (srcv (ix1 e)))) k)
  refine congrArg (fun z : EReal => 0 + z) ?_
  refine Finset.sum_congr ?_ fun e _ => ?_
  · unfold inE
    refine Finset.filter_congr fun e _ => ?_
    rw [col_apply]
  · have hrow : GatherRows.rowOf (by decide : 0 < 50000)
        (broadcastInDim S800000x1 ![0] bcast_S800000_S800000x1_0 (wrapV srcv)) e = rowW (wrapW (srcv (ix1 e))) := by
      apply Fin.ext
      show min ((broadcastInDim S800000x1 ![0] bcast_S800000_S800000x1_0 (wrapV srcv)) (ix2 e (0 : Fin 1))).toInt.toNat (50000 - 1)
        = min (wrapW (srcv (ix1 e))).toInt.toNat (50000 - 1)
      rw [col_apply, wrapV_apply]
    rw [gath_rows_eq, GatherRows.gather_rows_apply (by decide : 0 < 50000), hrow]

end Cert.KernelIdeal.Hand

end
-- ==== Proof.KerRead2.lean ====
/-
  More of the kernel's host operations read entry by entry: the two rows of the edge list, the column of
  normalisation factors, a layer's weights and bias out of the stacked arrays, the pooled features, the read-out's
  bias layouts.
-/
import proofs.«143766_j20229295964422_2_alg».proof.Proof.KerRead

noncomputable section

open scoped BigOperators

namespace Cert.KernelIdeal.Hand

open Cert.KernelIdeal Cert.KernelIdeal.Gen Idealize.ShloMosaic Idealize.ShloMosaic.ValueIdx Cert.Gcn

/-! ## The edge list's rows, the factors, the weights -/

/-- Row 0 of the edge list: the source words. -/
abbrev srcV (a1 : IVec S2x800000 32) : IVec S800000 32 :=
  shapeCast S800000 (extractStridedSlice S1x800000 ![0, 0] a1 slices_S2x800000_S1x800000_0_0) shapeCasts_S1x800000_S800000

/-- Row 1 of the edge list: the destination words. -/
abbrev dstV (a1 : IVec S2x800000 32) : IVec S800000 32 :=
  shapeCast S800000 (extractStridedSlice S1x800000 ![1, 0] a1 slices_S2x800000_S1x800000_1_0) shapeCasts_S1x800000_S800000

theorem srcV_apply (a1 : IVec S2x800000 32) (e : Fin 800000) : srcV a1 (ix1 e) = a1 (ix2 (0 : Fin 2) e) := by
  show shapeCast S800000 _ shapeCasts_S1x800000_S800000 (ix1 e) = _
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![0, 0] a1 slices_S2x800000_S1x800000_0_0 (ix2 (0 : Fin 1) e) (ix2 (0 : Fin 2) e)
    (fun a => match a with
      | ⟨0, _⟩ => by show (0 : ℕ) = 0 + 0; rfl
      | ⟨1, _⟩ => by show e.val = 0 + e.val; omega)

theorem dstV_apply (a1 : IVec S2x800000 32) (e : Fin 800000) : dstV a1 (ix1 e) = a1 (ix2 (1 : Fin 2) e) := by
  show shapeCast S800000 _ shapeCasts_S1x800000_S800000 (ix1 e) = _
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![1, 0] a1 slices_S2x800000_S1x800000_1_0 (ix2 (0 : Fin 1) e) (ix2 (1 : Fin 2) e)
    (fun a => match a with
      | ⟨0, _⟩ => by show (1 : ℕ) = 1 + 0; rfl
      | ⟨1, _⟩ => by show e.val = 0 + e.val; omega)

/-- The column of normalisation factors, as the program forms it from the destination words. -/
abbrev dinvCol (dstv : IVec S800000 32) : Arr sN1 :=
  shapeCast S50000x1 (Host.rsqrt (F := Ideal) (addf
    (Host.scatterAdd scatter_S50000_S800000x1_S800000_n_0_0_1
      (broadcastInDim S50000 ![] bcast_S_S50000 (constant S_ .f32 0x00000000#32))
      (broadcastInDim S800000x1 ![0] bcast_S800000_S800000x1_0 dstv)
      (broadcastInDim S800000 ![] bcast_S_S800000 (constant S_ .f32 0x3F800000#32)))
    (broadcastInDim S50000 ![] bcast_S_S50000 (constant S_ .f32 0x3F800000#32)))) shapeCasts_S50000_S50000x1

/-- A splat of a float word reads as that word's value everywhere. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b := rfl

theorem hostRsqrt_apply {s : Shape} (x : FVec Ideal s .f32) (i : s.Idx) : Host.rsqrt x i = Ideal.rsqrt (x i) := rfl

/-- The in-degree sum as the program forms it, read at a node. -/
theorem degsum_apply (dstv : IVec S800000 32) (n : Fin 50000) :
    Host.scatterAdd (F := Ideal) scatter_S50000_S800000x1_S800000_n_0_0_1
      (broadcastInDim S50000 ![] bcast_S_S50000 (constant S_ .f32 0x00000000#32))
      (broadcastInDim S800000x1 ![0] bcast_S800000_S800000x1_0 dstv)
      (broadcastInDim S800000 ![] bcast_S_S800000 (constant S_ .f32 0x3F800000#32)) (ix1 n)
    = 0 + ∑ _e ∈ inE (fun e => dstv (ix1 e)) n, (1 : EReal) := by
  rw [scat_vec_eq, ScatterRows.scatterAdd_vec_apply, splat_apply, Ideal.ofBits_zero_f32]
  unfold inE
  refine congrArg (fun z : EReal => 0 + z) ?_
  refine Finset.sum_congr ?_ fun e _ => ?_
  · refine Finset.filter_congr fun e _ => ?_
    rw [col_apply]
  · rw [splat_apply, ofBits_one]

theorem dinvCol_apply (dstv : IVec S800000 32) (n : Fin 50000) :
    dinvCol dstv (ix2 n (0 : Fin 1)) = dinv (fun e => dstv (ix1 e)) n := by
  show shapeCast S50000x1 _ shapeCasts_S50000_S50000x1 (ix2 n (0 : Fin 1)) = _
  rw [shapeCast_apply _ shapeCasts_S50000_S50000x1 (ix2 n (0 : Fin 1)) (ix1 n)
    (by rw [Shape.rowMajor_val_two, Shape.rowMajor_val_one]; show n.val = n.val * 1 + 0; omega),
    hostRsqrt_apply, addf_apply, degsum_apply, splat_apply, ofBits_one]
  rfl

/-- Layer `l`'s weights: slice `l` of the stacked weights as a matrix. -/
theorem wslice_apply (a3 : Arr ⟨3, ![5, 64, 64]⟩) (l : Fin 5) (off : Fin 3 → Nat) (hoff : off = ![l.val, 0, 0])
    (hs : S5x64x64.Slices off S1x64x64) (q c : Fin 64) :
    shapeCast S64x64 (extractStridedSlice S1x64x64 off a3 hs) shapeCasts_S1x64x64_S64x64 (ix2 q c) = a3 (ix3 l q c) := by
  subst hoff
  rw [shapeCast_apply _ shapeCasts_S1x64x64_S64x64 (ix2 q c) (ix3 (0 : Fin 1) q c)
    (by rw [Shape.rowMajor_val_three, Shape.rowMajor_val_two]; show (0 * 64 + q.val) * 64 + c.val = q.val * 64 + c.val; omega)]
  exact extractStridedSlice_apply _ a3 hs (ix3 (0 : Fin 1) q c) (ix3 l q c)
    (fun a => match a with
      | ⟨0, _⟩ => by show l.val = l.val + 0; rfl
      | ⟨1, _⟩ => by show q.val = 0 + q.val; omega
      | ⟨2, _⟩ => by show c.val = 0 + c.val; omega)

/-- Layer `l`'s bias: slice `l` of the stacked biases, flattened, then as a row. -/
theorem bslice_apply (a4 : Arr ⟨2, ![5, 64]⟩) (l : Fin 5) (off : Fin 2 → Nat) (hoff : off = ![l.val, 0])
    (hs : S5x64.Slices off S1x64) (c : Fin 64) :
    shapeCast S1x64 (shapeCast S64 (extractStridedSlice S1x64 off a4 hs) shapeCasts_S1x64_S64) shapeCasts_S64_S1x64
      (ix2 (0 : Fin 1) c) = a4 (ix2 l c) := by
  subst hoff
  rw [shapeCast_apply _ shapeCasts_S64_S1x64 (ix2 (0 : Fin 1) c) (ix1 c)
    (by rw [Shape.rowMajor_val_two, Shape.rowMajor_val_one]; show c.val = 0 * 64 + c.val; omega),
    shapeCast_apply _ shapeCasts_S1x64_S64 (ix1 c) (ix2 (0 : Fin 1) c)
    (by rw [Shape.rowMajor_val_two, Shape.rowMajor_val_one]; show 0 * 64 + c.val = c.val; omega)]
  exact extractStridedSlice_apply _ a4 hs (ix2 (0 : Fin 1) c) (ix2 l c)
    (fun a => match a with
      | ⟨0, _⟩ => by show l.val = l.val + 0; rfl
      | ⟨1, _⟩ => by show c.val = 0 + c.val; omega)

/-! ## The pooled features and the read-out's bias layouts -/

/-- The batch words as a column, read at `(n, 0)`. -/
theorem bcol_apply {α : Type} (v : S50000.Idx → α) (n : Fin 50000) :
    broadcastInDim S50000x1 ![0] bcast_S50000_S50000x1_0 v (ix2 n (0 : Fin 1)) = v (ix1 n) :=
  broadcastInDim_apply _ _ v _ (ix1 n) (fun a => by
    obtain rfl : a = 0 := Subsingleton.elim _ _
    rfl)

/-- Scatter-adding the node features at the batch words: zero plus the sum over each graph's nodes. -/
theorem pool_read (h : Arr sNC) (a2 : IVec S50000 32) (g : Fin 512) (k : Fin 64) :
    Host.scatterAdd (F := Ideal) scatter_S512x64_S50000x1_S50000x64_1_0_0_1
      (broadcastInDim S512x64 ![] bcast_S_S512x64 (constant S_ .f32 0x00000000#32))
      (broadcastInDim S50000x1 ![0] bcast_S50000_S50000x1_0 a2) h (ix2 g k)
    = Cert.Gcn.pool (fun n => a2 (ix1 n)) (fun n c => h (ix2 n c)) g k := by
  rw [scat_pool_eq, ScatterRows.scatterAdd_rows_apply]
  have h0 : (broadcastInDim S512x64 ![] bcast_S_S512x64 (constant (F := Ideal) S_ .f32 0x00000000#32)) (ix2 g k) = (0 : EReal) :=
    Ideal.ofBits_zero_f32
  rw [h0]
  unfold Cert.Gcn.pool
  refine congrArg (fun z : EReal => 0 + z) ?_
  refine Finset.sum_congr ?_ fun n _ => rfl
  refine Finset.filter_congr fun n _ => ?_
  rw [bcol_apply]

/-- The hidden bias as a row. -/
theorem b1row_apply (a6 : Arr ⟨1, ![64]⟩) (q : Fin 64) :
    shapeCast S1x64 a6 shapeCasts_S64_S1x64 (ix2 (0 : Fin 1) q) = a6 (ix1 q) :=
  shapeCast_apply _ shapeCasts_S64_S1x64 (ix2 (0 : Fin 1) q) (ix1 q)
    (by rw [Shape.rowMajor_val_two, Shape.rowMajor_val_one]; show q.val = 0 * 64 + q.val; omega)

/-- The output bias as a one-by-one matrix. -/
theorem b2cell_apply (a8 : Arr ⟨1, ![1]⟩) :
    shapeCast S1x1 a8 shapeCasts_S1_S1x1 (ix2 (0 : Fin 1) (0 : Fin 1)) = a8 (ix1 (0 : Fin 1)) :=
  shapeCast_apply _ shapeCasts_S1_S1x1 (ix2 (0 : Fin 1) (0 : Fin 1)) (ix1 (0 : Fin 1))
    (by rw [Shape.rowMajor_val_two, Shape.rowMajor_val_one]; rfl)

/-! ## The neighbour sum and the factors in the network's terms -/

/-- The neighbour sum over the edge list's own rows: the edges into `i`, each at its wrapped, clamped source row. -/
theorem aggOf_apply (hs : Arr sNC) (a1 : IVec S2x800000 32) (i : Fin 50000) (q : Fin 64) :
    aggOf hs (srcV a1) (dstV a1) (ix2 i q) = 0 + ∑ e ∈ inE (dstwOf a1) i, hs (ix2 (srcOf a1 e) q) := by
  have hd : (fun e => dstV a1 (ix1 e)) = dstwOf a1 := funext fun e => dstV_apply a1 e
  show 0 + ∑ e ∈ inE (fun e => dstV a1 (ix1 e)) i, hs (ix2 (rowW (wrapW (srcV a1 (ix1 e)))) q) = _
  rw [hd]
  refine congrArg (fun z : EReal => 0 + z) ?_
  exact Finset.sum_congr rfl fun e _ => by rw [srcV_apply]; rfl

/-- The factor column over the edge list's destination row. -/
theorem dcol_apply (a1 : IVec S2x800000 32) (n : Fin 50000) :
    dinvCol (dstV a1) (ix2 n (0 : Fin 1)) = dinv (dstwOf a1) n := by
  rw [dinvCol_apply]
  exact congrArg (fun d => dinv d n) (funext fun e => dstV_apply a1 e)

end Cert.KernelIdeal.Hand

end
-- ==== Proof.KerHost.lean ====
/-
  The stretches of host operations between the kernel's on-chip stages: what each live buffer holds after a
  stretch, as a term of the buffers' contents before it, for ANY contents before it; and the buffers a stretch
  does not write, which keep their contents.
-/
import proofs.«143766_j20229295964422_2_alg».proof.Proof.Gen.KernelIdeal.Launch
import proofs.«143766_j20229295964422_2_alg».proof.Proof.KerRead2
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Gcn

variable (W : Valuation τ sig (Elt Ideal))

/-! ## What the stretches write -/

/-- The buffers stretch 0 writes. -/
abbrev writes0 : List (Ref sig .tc) := [main_v0, main_v1, main_v2, main_v3, main_cst, main_v4, main_cst_0, main_v5, main_v6, main_v7, main_cst_1, main_v8, main_v9, main_v10, main_v11, main_v12, main_v13]
theorem hostOps0_writes : (hostOps0 : List (HloOp τ sig (Elt Ideal))).Forall fun op => op.writes ⊆ (writes0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 0 does not write keeps its contents. -/
theorem keep0 (r : Ref sig .tc) (h : r ∉ writes0) : after hostOps0 W (Proc.devRef .tc r) = W (Proc.devRef .tc r) :=
  StableHlo.after_of_writes_sub hostOps0 W hostOps0_writes h

/-- The buffers stretch 1 writes. -/
abbrev writes1 : List (Ref sig .tc) := [main_c, main_v15, main_v16, main_c_2, main_v17, main_v18, main_v19, main_v20, main_v21, main_cst_3, main_v22, main_v23, main_v24, main_v25, main_v26, main_v27, main_v28, main_v29]
theorem hostOps1_writes : (hostOps1 : List (HloOp τ sig (Elt Ideal))).Forall fun op => op.writes ⊆ (writes1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 1 does not write keeps its contents. -/
theorem keep1 (r : Ref sig .tc) (h : r ∉ writes1) : after hostOps1 W (Proc.devRef .tc r) = W (Proc.devRef .tc r) :=
  StableHlo.after_of_writes_sub hostOps1 W hostOps1_writes h

/-- The buffers stretch 2 writes. -/
abbrev writes2 : List (Ref sig .tc) := [main_c_4, main_v31, main_v32, main_c_5, main_v33, main_v34, main_v35, main_v36, main_v37, main_cst_6, main_v38, main_v39, main_v40, main_v41, main_v42, main_v43, main_v44, main_v45]
theorem hostOps2_writes : (hostOps2 : List (HloOp τ sig (Elt Ideal))).Forall fun op => op.writes ⊆ (writes2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 2 does not write keeps its contents. -/
theorem keep2 (r : Ref sig .tc) (h : r ∉ writes2) : after hostOps2 W (Proc.devRef .tc r) = W (Proc.devRef .tc r) :=
  StableHlo.after_of_writes_sub hostOps2 W hostOps2_writes h

/-- The buffers stretch 3 writes. -/
abbrev writes3 : List (Ref sig .tc) := [main_c_7, main_v47, main_v48, main_c_8, main_v49, main_v50, main_v51, main_v52, main_v53, main_cst_9, main_v54, main_v55, main_v56, main_v57, main_v58, main_v59, main_v60, main_v61]
theorem hostOps3_writes : (hostOps3 : List (HloOp τ sig (Elt Ideal))).Forall fun op => op.writes ⊆ (writes3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 3 does not write keeps its contents. -/
theorem keep3 (r : Ref sig .tc) (h : r ∉ writes3) : after hostOps3 W (Proc.devRef .tc r) = W (Proc.devRef .tc r) :=
  StableHlo.after_of_writes_sub hostOps3 W hostOps3_writes h

/-- The buffers stretch 4 writes. -/
abbrev writes4 : List (Ref sig .tc) := [main_c_10, main_v63, main_v64, main_c_11, main_v65, main_v66, main_v67, main_v68, main_v69, main_cst_12, main_v70, main_v71, main_v72, main_v73, main_v74, main_v75, main_v76, main_v77]
theorem hostOps4_writes : (hostOps4 : List (HloOp τ sig (Elt Ideal))).Forall fun op => op.writes ⊆ (writes4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 4 does not write keeps its contents. -/
theorem keep4 (r : Ref sig .tc) (h : r ∉ writes4) : after hostOps4 W (Proc.devRef .tc r) = W (Proc.devRef .tc r) :=
  StableHlo.after_of_writes_sub hostOps4 W hostOps4_writes h

/-- The buffers stretch 5 writes. -/
abbrev writes5 : List (Ref sig .tc) := [main_c_13, main_v79, main_v80, main_c_14, main_v81, main_v82, main_v83, main_v84, main_v85, main_cst_15, main_v86, main_v87, main_v88, main_v89, main_v90, main_v91]
theorem hostOps5_writes : (hostOps5 : List (HloOp τ sig (Elt Ideal))).Forall fun op => op.writes ⊆ (writes5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 5 does not write keeps its contents. -/
theorem keep5 (r : Ref sig .tc) (h : r ∉ writes5) : after hostOps5 W (Proc.devRef .tc r) = W (Proc.devRef .tc r) :=
  StableHlo.after_of_writes_sub hostOps5 W hostOps5_writes h

/-- The buffers stretch 6 writes. -/
abbrev writes6 : List (Ref sig .tc) := [main_cst_16, main_v93, main_v94, main_v95, main_v96, main_v97]
theorem hostOps6_writes : (hostOps6 : List (HloOp τ sig (Elt Ideal))).Forall fun op => op.writes ⊆ (writes6.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 6 does not write keeps its contents. -/
theorem keep6 (r : Ref sig .tc) (h : r ∉ writes6) : after hostOps6 W (Proc.devRef .tc r) = W (Proc.devRef .tc r) :=
  StableHlo.after_of_writes_sub hostOps6 W hostOps6_writes h

/-! ## Stretch 0: the edge rows, the factors, the first weights -/

theorem h0_src : after hostOps0 W (Proc.devRef .tc main_v1) = srcV (W (Proc.devRef .tc main_arg1)) := by
  dsimp only [hostOps0]; after_results_simp <;> rfl
theorem h0_dst : after hostOps0 W (Proc.devRef .tc main_v3) = dstV (W (Proc.devRef .tc main_arg1)) := by
  dsimp only [hostOps0]; after_results_simp <;> rfl
theorem h0_dinv : after hostOps0 W (Proc.devRef .tc main_v11) = dinvCol (dstV (W (Proc.devRef .tc main_arg1))) := by
  dsimp only [hostOps0]; after_results_simp <;> rfl
theorem h0_w : after hostOps0 W (Proc.devRef .tc main_v13)
    = shapeCast S64x64 (extractStridedSlice S1x64x64 ![0, 0, 0] (W (Proc.devRef .tc main_arg3)) slices_S5x64x64_S1x64x64_0_0_0) shapeCasts_S1x64x64_S64x64 := by
  dsimp only [hostOps0]; after_results_simp <;> rfl

/-! ## Stretch 1: the neighbour sum of layer 0, its bias row, the next weights -/

theorem h1_agg : after hostOps1 W (Proc.devRef .tc main_v24)
    = aggOf (W (Proc.devRef .tc main_v14)) (W (Proc.devRef .tc main_v1)) (W (Proc.devRef .tc main_v3)) := by
  dsimp only [hostOps1]; after_results_simp; exact agg_read _ _ _
theorem h1_b : after hostOps1 W (Proc.devRef .tc main_v27)
    = shapeCast S1x64 (shapeCast S64 (extractStridedSlice S1x64 ![0, 0] (W (Proc.devRef .tc main_arg4)) slices_S5x64_S1x64_0_0) shapeCasts_S1x64_S64) shapeCasts_S64_S1x64 := by
  dsimp only [hostOps1]; after_results_simp <;> rfl
theorem h1_w : after hostOps1 W (Proc.devRef .tc main_v29)
    = shapeCast S64x64 (extractStridedSlice S1x64x64 ![1, 0, 0] (W (Proc.devRef .tc main_arg3)) slices_S5x64x64_S1x64x64_1_0_0) shapeCasts_S1x64x64_S64x64 := by
  dsimp only [hostOps1]; after_results_simp <;> rfl

/-! ## Stretch 2: the neighbour sum of layer 1, its bias row, the next weights -/

theorem h2_agg : after hostOps2 W (Proc.devRef .tc main_v40)
    = aggOf (W (Proc.devRef .tc main_v30)) (W (Proc.devRef .tc main_v1)) (W (Proc.devRef .tc main_v3)) := by
  dsimp only [hostOps2]; after_results_simp; exact agg_read _ _ _
theorem h2_b : after hostOps2 W (Proc.devRef .tc main_v43)
    = shapeCast S1x64 (shapeCast S64 (extractStridedSlice S1x64 ![1, 0] (W (Proc.devRef .tc main_arg4)) slices_S5x64_S1x64_1_0) shapeCasts_S1x64_S64) shapeCasts_S64_S1x64 := by
  dsimp only [hostOps2]; after_results_simp <;> rfl
theorem h2_w : after hostOps2 W (Proc.devRef .tc main_v45)
    = shapeCast S64x64 (extractStridedSlice S1x64x64 ![2, 0, 0] (W (Proc.devRef .tc main_arg3)) slices_S5x64x64_S1x64x64_2_0_0) shapeCasts_S1x64x64_S64x64 := by
  dsimp only [hostOps2]; after_results_simp <;> rfl

/-! ## Stretch 3: the neighbour sum of layer 2, its bias row, the next weights -/

theorem h3_agg : after hostOps3 W (Proc.devRef .tc main_v56)
    = aggOf (W (Proc.devRef .tc main_v46)) (W (Proc.devRef .tc main_v1)) (W (Proc.devRef .tc main_v3)) := by
  dsimp only [hostOps3]; after_results_simp; exact agg_read _ _ _
theorem h3_b : after hostOps3 W (Proc.devRef .tc main_v59)
    = shapeCast S1x64 (shapeCast S64 (extractStridedSlice S1x64 ![2, 0] (W (Proc.devRef .tc main_arg4)) slices_S5x64_S1x64_2_0) shapeCasts_S1x64_S64) shapeCasts_S64_S1x64 := by
  dsimp only [hostOps3]; after_results_simp <;> rfl
theorem h3_w : after hostOps3 W (Proc.devRef .tc main_v61)
    = shapeCast S64x64 (extractStridedSlice S1x64x64 ![3, 0, 0] (W (Proc.devRef .tc main_arg3)) slices_S5x64x64_S1x64x64_3_0_0) shapeCasts_S1x64x64_S64x64 := by
  dsimp only [hostOps3]; after_results_simp <;> rfl

/-! ## Stretch 4: the neighbour sum of layer 3, its bias row, the next weights -/

theorem h4_agg : after hostOps4 W (Proc.devRef .tc main_v72)
    = aggOf (W (Proc.devRef .tc main_v62)) (W (Proc.devRef .tc main_v1)) (W (Proc.devRef .tc main_v3)) := by
  dsimp only [hostOps4]; after_results_simp; exact agg_read _ _ _
theorem h4_b : after hostOps4 W (Proc.devRef .tc main_v75)
    = shapeCast S1x64 (shapeCast S64 (extractStridedSlice S1x64 ![3, 0] (W (Proc.devRef .tc main_arg4)) slices_S5x64_S1x64_3_0) shapeCasts_S1x64_S64) shapeCasts_S64_S1x64 := by
  dsimp only [hostOps4]; after_results_simp <;> rfl
theorem h4_w : after hostOps4 W (Proc.devRef .tc main_v77)
    = shapeCast S64x64 (extractStridedSlice S1x64x64 ![4, 0, 0] (W (Proc.devRef .tc main_arg3)) slices_S5x64x64_S1x64x64_4_0_0) shapeCasts_S1x64x64_S64x64 := by
  dsimp only [hostOps4]; after_results_simp <;> rfl

/-! ## Stretch 5: the neighbour sum of layer 4, its bias row -/

theorem h5_agg : after hostOps5 W (Proc.devRef .tc main_v88)
    = aggOf (W (Proc.devRef .tc main_v78)) (W (Proc.devRef .tc main_v1)) (W (Proc.devRef .tc main_v3)) := by
  dsimp only [hostOps5]; after_results_simp; exact agg_read _ _ _
theorem h5_b : after hostOps5 W (Proc.devRef .tc main_v91)
    = shapeCast S1x64 (shapeCast S64 (extractStridedSlice S1x64 ![4, 0] (W (Proc.devRef .tc main_arg4)) slices_S5x64_S1x64_4_0) shapeCasts_S1x64_S64) shapeCasts_S64_S1x64 := by
  dsimp only [hostOps5]; after_results_simp <;> rfl

/-! ## Stretch 6: the pooled features and the read-out's biases -/

theorem h6_pool : after hostOps6 W (Proc.devRef .tc main_v95)
    = Host.scatterAdd (F := Ideal) scatter_S512x64_S50000x1_S50000x64_1_0_0_1
        (broadcastInDim S512x64 ![] bcast_S_S512x64 (constant S_ .f32 0x00000000#32))
        (broadcastInDim S50000x1 ![0] bcast_S50000_S50000x1_0 (W (Proc.devRef .tc main_arg2))) (W (Proc.devRef .tc main_v92)) := by
  dsimp only [hostOps6]; after_results_simp <;> rfl
theorem h6_b1 : after hostOps6 W (Proc.devRef .tc main_v96) = shapeCast S1x64 (W (Proc.devRef .tc main_arg6)) shapeCasts_S64_S1x64 := by
  dsimp only [hostOps6]; after_results_simp <;> rfl
theorem h6_b2 : after hostOps6 W (Proc.devRef .tc main_v97) = shapeCast S1x1 (W (Proc.devRef .tc main_arg8)) shapeCasts_S1_S1x1 := by
  dsimp only [hostOps6]; after_results_simp <;> rfl

end Cert.KernelIdeal.Hand

end
-- ==== Proof.SpecSteps.lean ====
/-
  The on-chip stages met with the layer: what each stage's closed form is, entry by entry, in the terms of the
  network (`Spec.lean`), given what its input arrays hold.

  * the first stage holds `(x · W₀) · dinv`;
  * a middle stage takes the neighbour sum `agg` and the previous scaled projection `hs = (H · W) · dinv` and holds
    `(relu(layer H) · W') · dinv`: its inner combine is the layer in the kernel's arrangement (`convKer`), which is
    the reference's (`conv_eq`);
  * the last convolution stage holds the layer itself;
  * the read-out stage is `readout` of its operands.
-/
import proofs.«143766_j20229295964422_2_alg».proof.Proof.Spec

noncomputable section

open scoped BigOperators

namespace Cert.Gcn

open Idealize.ShloMosaic Idealize.ShloMosaic.ValueIdx

section Steps

variable (src : Fin 800000 → Fin 50000) (dstw : Fin 800000 → BitVec 32)

/-- The first stage: the projected input features, scaled. -/
theorem first_step (x : Feat) (W0 : Fin 64 → Fin 64 → EReal) (a0 : Arr sNC) (Wm : Arr sCC) (dcol : Arr sN1)
    (hx : ∀ n q, a0 (ix2 n q) = x n q) (hW : ∀ q c, Wm (ix2 q c) = W0 q c) (hd : ∀ n, dcol (ix2 n (0 : Fin 1)) = dinv dstw n)
    (n : Fin 50000) (c : Fin 64) :
    projScale a0 Wm dcol (ix2 n c) = proj x W0 n c * dinv dstw n := by
  show (∑ q : Fin 64, a0 (ix2 n q) * Wm (ix2 q c)) * dcol (ix2 n (0 : Fin 1)) = _
  rw [hd]
  unfold proj
  refine congrArg (fun z : EReal => z * dinv dstw n) ?_
  exact Finset.sum_congr rfl fun q _ => by rw [hx, hW]

/-- The combine of a convolution stage is the layer. -/
theorem combine_step (H : Feat) (Wk : Fin 64 → Fin 64 → EReal) (bk : Fin 64 → EReal) (agg hs : Arr sNC) (dcol : Arr sN1)
    (brow : Arr s1C) (hd : ∀ n, dcol (ix2 n (0 : Fin 1)) = dinv dstw n)
    (hhs : ∀ n c, hs (ix2 n c) = proj H Wk n c * dinv dstw n)
    (hagg : ∀ i q, agg (ix2 i q) = 0 + ∑ e ∈ inE dstw i, hs (ix2 (src e) q))
    (hb : ∀ q, brow (ix2 (0 : Fin 1) q) = bk q) (n : Fin 50000) (c : Fin 64) :
    combine agg hs dcol brow (ix2 n c) = layerRef src dstw H Wk bk n c := by
  show dcol (ix2 n (0 : Fin 1)) * (agg (ix2 n c) + hs (ix2 n c)) + brow (ix2 (0 : Fin 1) c) = _
  rw [hd, hagg, hhs, hb]
  unfold layerRef
  rw [← conv_eq src dstw (proj H Wk) bk n c]
  unfold convKer
  refine congrArg (fun z : EReal => dinv dstw n * ((0 + z) + proj H Wk n c * dinv dstw n) + bk c) ?_
  exact Finset.sum_congr rfl fun e _ => hhs (src e) c

/-- A middle stage: the next layer's scaled projection. -/
theorem fuse_step (H : Feat) (Wk Wk1 : Fin 64 → Fin 64 → EReal) (bk : Fin 64 → EReal) (agg hs : Arr sNC) (dcol : Arr sN1)
    (brow : Arr s1C) (Wm : Arr sCC) (hd : ∀ n, dcol (ix2 n (0 : Fin 1)) = dinv dstw n)
    (hhs : ∀ n c, hs (ix2 n c) = proj H Wk n c * dinv dstw n)
    (hagg : ∀ i q, agg (ix2 i q) = 0 + ∑ e ∈ inE dstw i, hs (ix2 (src e) q))
    (hb : ∀ q, brow (ix2 (0 : Fin 1) q) = bk q) (hW : ∀ q c, Wm (ix2 q c) = Wk1 q c) (n : Fin 50000) (c : Fin 64) :
    projScale (reluA (combine agg hs dcol brow)) Wm dcol (ix2 n c)
      = proj (reluF (layerRef src dstw H Wk bk)) Wk1 n c * dinv dstw n := by
  show (∑ q : Fin 64, max (combine agg hs dcol brow (ix2 n q)) 0 * Wm (ix2 q c)) * dcol (ix2 n (0 : Fin 1)) = _
  rw [hd]
  unfold proj reluF
  refine congrArg (fun z : EReal => z * dinv dstw n) ?_
  exact Finset.sum_congr rfl fun q _ => by
    rw [combine_step src dstw H Wk bk agg hs dcol brow hd hhs hagg hb n q, hW]

/-- The read-out stage. -/
theorem mlp_step (p : Arr sGC) (w1 : Arr sCC) (b1 : Arr s1C) (w2 : Arr sC1) (b2 : Arr s11)
    (P : Fin 512 → Fin 64 → EReal) (W1 : Fin 64 → Fin 64 → EReal) (B1 : Fin 64 → EReal) (W2 : Fin 64 → EReal) (B2 : EReal)
    (hp : ∀ g r, p (ix2 g r) = P g r) (hw1 : ∀ r q, w1 (ix2 r q) = W1 r q) (hb1 : ∀ q, b1 (ix2 (0 : Fin 1) q) = B1 q)
    (hw2 : ∀ q, w2 (ix2 q (0 : Fin 1)) = W2 q) (hb2 : b2 (ix2 (0 : Fin 1) (0 : Fin 1)) = B2) (j : sG1.Idx) :
    mlp p w1 b1 w2 b2 j = readout P W1 B1 W2 B2 (j 0) := by
  obtain ⟨g, z, rfl⟩ : ∃ (g : Fin 512) (z : Fin 1), j = ix2 g z := ⟨j 0, j 1, eq_ix2 j⟩
  obtain rfl : z = 0 := Subsingleton.elim _ _
  show (∑ q : Fin 64, max ((∑ r : Fin 64, p (ix2 g r) * w1 (ix2 r q)) + b1 (ix2 (0 : Fin 1) q)) 0 * w2 (ix2 q (0 : Fin 1)))
      + b2 (ix2 (0 : Fin 1) (0 : Fin 1)) = _
  unfold readout
  rw [hb2]
  refine congrArg (fun z : EReal => z + B2) ?_
  refine Finset.sum_congr rfl fun q _ => ?_
  rw [hb1, hw2]
  refine congrArg (fun z : EReal => max (z + B1 q) 0 * W2 q) ?_
  exact Finset.sum_congr rfl fun r _ => by rw [hp, hw1]

end Steps

end Cert.Gcn

end
-- ==== Proof.LibPlainDot.lean ====
/-
  A plain matrix product's contraction read as a sum over the middle coordinate.  For dimension numbers that contract
  the left operand's second axis against the right operand's first, with no batch axis — an [M,K] by [K,N] product —
  the left operand's index at result position (a, b) and contraction position q is (a, q), the right operand's is
  (q, b), and so the contraction's sum over the one-axis contraction shape is the sum over q of L (a, q) · R (q, b).
  Stated for any such dimension-number record, whatever proof of well-formedness it carries, and for any extents.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- One axis is contracted. -/
theorem contr_rank (hlc : d.lhsContracting = [1]) : d.contr.rank = 1 := by rw [d.rank_contr, hlc]; rfl

/-- Its extent is the middle extent. -/
theorem contr_size (hlc : d.lhsContracting = [1]) :
    d.contr.size ⟨0, by rw [contr_rank d hlc]; exact Nat.one_pos⟩ = K := by
  obtain ⟨lc, rc, ln, rn, lb, rb, wf⟩ := d
  dsimp only at hlc
  subst hlc
  simp [DotDims.contr]

/-- The left operand is read at (row of the result, contraction position). -/
theorem lhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.lhsIdx (ix2 a b) ((contrEquiv1 d K (contr_rank d hlc) (contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (contr_rank d hlc) (contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (contraction position, column of the result). -/
theorem rhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.rhsIdx (ix2 a b) ((contrEquiv1 d K (contr_rank d hlc) (contr_size d hlc)).symm q) = ix2 q b := by
  funext ax
  apply Fin.ext
  match ax with
  | ⟨0, _⟩ =>
    have h := DotDims.rhsIdx_val_of_single d (cr := (0 : Fin 2)) hrc (ix2 a b)
      ((contrEquiv1 d K (contr_rank d hlc) (contr_size d hlc)).symm q)
    rw [contrEquiv1_symm_val] at h
    exact h
  | ⟨1, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the middle coordinate. -/
theorem plain_sum {β : Type*} [AddCommMonoid β] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ k : d.contr.Idx, f (d.lhsIdx (ix2 a b) k) (d.rhsIdx (ix2 a b) k) = ∑ q : Fin K, f (ix2 a q) (ix2 q b) := by
  rw [← Equiv.sum_comp (contrEquiv1 d K (contr_rank d hlc) (contr_size d hlc)).symm]
  refine Finset.sum_congr rfl fun q _ => ?_
  rw [lhs_plain d hlc hrc hln hrn hlb hrb a b q, rhs_plain d hlc hrc hln hrn hlb hrb a b q]

end Cert.LibPlainDot

end
-- ==== Proof.KerPay.lean ====
/-
  The on-chip stages' block computations read at an index, over the extended reals.

  Each stage loads whole blocks, combines them entry by entry (and, for the projecting stages, contracts rows of one
  block against a square matrix), and stores one whole block.  Here each such block computation is read at an
  entry (p, q) of the block as an expression in the entries of the loaded blocks.
-/
import proofs.«143766_j20229295964422_2_alg».proof.Proof.Gen.KernelIdeal.Frame
import proofs.«143766_j20229295964422_2_alg».proof.Proof.LibPlainDot
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A column broadcast over many columns reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The last stage's block: the node's factor times the sum of the two feature blocks, plus the bias row. -/
theorem k5_pay1_apply (v0 : Vec Ideal S5000x1 .f32) (v4 : Vec Ideal S1x64 .f32) (v8 v10 : Vec Ideal S5000x64 .f32)
    (p : Fin 5000) (q : Fin 64) :
    k5_pay1 v0 v4 v8 v10 (ix2 p q)
      = v0 (ix2 p (0 : Fin 1)) * (v8 (ix2 p q) + v10 (ix2 p q)) + v4 (ix2 (0 : Fin 1) q) := by
  unfold k5_pay1
  simp only [shapeCast_self]
  rw [addf_apply, mulf_apply, addf_apply, broadcastTo_a1_ab_apply, broadcastTo_1b_ab_apply]

/-! ## The contraction against a square matrix -/

/-- Rows of a block times a square matrix, accumulated from zero: entry (p, q) is the sum over the middle coordinate. -/
theorem matmul_rows_apply (L : FVec Ideal S5000x64 .bf16) (R : FVec Ideal S64x64 .bf16) (p : Fin 5000) (q : Fin 64) :
    FloatOps.matmul dot_S5000x64_S64x64_S5000x64_1_0_0_1_n_n none L R (constant S5000x64 .f32 0x00000000#32) (ix2 p q)
      = ∑ k : Fin 64, L (ix2 p k) * R (ix2 k q) := by
  rw [Ideal.matmul_constant_zero_apply]
  exact Cert.LibPlainDot.plain_sum dot_S5000x64_S64x64_S5000x64_1_0_0_1_n_n rfl rfl rfl rfl rfl rfl
    (fun a b => L a * R b) p q

/-- The first stage's block: rows of the feature block times the weight matrix, each row scaled by its node's factor. -/
theorem k0_pay1_apply (v0 : Vec Ideal S5000x64 .f32) (v2 : Vec Ideal S64x64 .f32) (v6 : Vec Ideal S5000x1 .f32)
    (p : Fin 5000) (q : Fin 64) :
    k0_pay1 v0 v2 v6 (ix2 p q) = (∑ k : Fin 64, v0 (ix2 p k) * v2 (ix2 k q)) * v6 (ix2 p (0 : Fin 1)) := by
  unfold k0_pay1
  simp only [shapeCast_self]
  rw [mulf_apply, broadcastTo_a1_ab_apply]
  simp only [matmul]
  rw [matmul_rows_apply]
  rfl

/-- A middle stage's block: the previous layer's combination, its positive part, times the weight matrix, each row
    scaled by its node's factor. -/
theorem k1_pay1_apply (v0 : Vec Ideal S5000x1 .f32) (v4 : Vec Ideal S1x64 .f32) (v8 v10 : Vec Ideal S5000x64 .f32)
    (v18 : Vec Ideal S64x64 .f32) (p : Fin 5000) (q : Fin 64) :
    k1_pay1 v0 v4 v8 v10 v18 (ix2 p q)
      = (∑ k : Fin 64, max (v0 (ix2 p (0 : Fin 1)) * (v8 (ix2 p k) + v10 (ix2 p k)) + v4 (ix2 (0 : Fin 1) k)) 0
          * v18 (ix2 k q)) * v0 (ix2 p (0 : Fin 1)) := by
  unfold k1_pay1
  simp only [shapeCast_self]
  rw [mulf_apply, broadcastTo_a1_ab_apply]
  simp only [matmul]
  rw [matmul_rows_apply]
  refine congrArg (· * v0 (ix2 p (0 : Fin 1))) (Finset.sum_congr rfl fun k _ => ?_)
  rw [truncf_apply, truncf_apply, maximumf_apply, addf_apply, mulf_apply, addf_apply, broadcastTo_a1_ab_apply,
    broadcastTo_1b_ab_apply, broadcast_apply]
  show max _ (Ideal.ofBits .f32 0x00000000#32) * _ = _
  rw [Ideal.ofBits_zero_f32]

/-- The middle stages are one and the same block computation. -/
theorem k2_pay1_eq : @k2_pay1 Ideal _ = @k1_pay1 Ideal _ := rfl
theorem k3_pay1_eq : @k3_pay1 Ideal _ = @k1_pay1 Ideal _ := rfl
theorem k4_pay1_eq : @k4_pay1 Ideal _ = @k1_pay1 Ideal _ := rfl

/-! ## The read-out stage -/

/-- A plain matrix product accumulated from zero, at any extents: entry (p, q) is the sum over the middle coordinate. -/
theorem matmul_plain_apply {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (L : FVec Ideal ⟨2, ![M, K]⟩ φ₁) (R : FVec Ideal ⟨2, ![K, N]⟩ φ₂) (p : Fin M) (q : Fin N) :
    FloatOps.matmul d none L R (constant ⟨2, ![M, N]⟩ .f32 0x00000000#32) (ix2 p q)
      = ∑ k : Fin K, L (ix2 p k) * R (ix2 k q) := by
  rw [Ideal.matmul_constant_zero_apply]
  exact Cert.LibPlainDot.plain_sum d hlc hrc hln hrn hlb hrb (fun a b => L a * R b) p q

/-- The read-out block: a hidden layer (pooled features times the first weights, plus its bias row, positive part), times
    the output column, plus the output bias. -/
theorem k6_pay1_apply (v0 : Vec Ideal S512x64 .f32) (v3 : Vec Ideal S64x64 .f32) (v6 : Vec Ideal S1x64 .f32)
    (v14 : Vec Ideal S64x1 .f32) (v17 : Vec Ideal S1x1 .f32) (g : Fin 512) (z : Fin 1) :
    k6_pay1 v0 v3 v6 v14 v17 (ix2 g z)
      = (∑ q : Fin 64, max ((∑ r : Fin 64, v0 (ix2 g r) * v3 (ix2 r q)) + v6 (ix2 (0 : Fin 1) q)) 0 * v14 (ix2 q z))
          + v17 (ix2 (0 : Fin 1) (0 : Fin 1)) := by
  unfold k6_pay1
  simp only [shapeCast_self]
  rw [addf_apply, broadcastTo_1b_ab_apply]
  simp only [matmul]
  rw [matmul_plain_apply dot_S512x64_S64x1_S512x1_1_0_0_1_n_n rfl rfl rfl rfl rfl rfl]
  have hz : z = (0 : Fin 1) := Subsingleton.elim _ _
  refine congrArg₂ (· + ·) (Finset.sum_congr rfl fun q _ => ?_) (by rw [hz])
  rw [truncf_apply, truncf_apply, maximumf_apply, addf_apply, broadcastTo_1b_ab_apply, broadcast_apply,
    matmul_plain_apply dot_S512x64_S64x64_S512x64_1_0_0_1_n_n rfl rfl rfl rfl rfl rfl]
  show max _ (Ideal.ofBits .f32 0x00000000#32) * _ = _
  rw [Ideal.ofBits_zero_f32]
  rfl

end Cert.KernelIdeal.Hand

end
-- ==== Proof.KerR0.lean ====
/-
  The first on-chip stage, as a function of whole arrays.

  The stage runs over ten blocks of 5000 rows.  At each block it loads the block's rows of the node features and of the
  column of node factors, and the whole weight matrix, and stores (features · weights) scaled row by row by the
  factor as the block's rows of the output.  The ten blocks tile the 50000 rows, so after the stage the output array is
  that expression of the input arrays at every entry.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_0 : (![0, 0] : Fin 2 → Nat) = fun _ => 0 := funext fun a => by fin_cases a <;> rfl

/-! ## Where each window's block sits: the row windows move with the grid point, the weight matrix stays -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)

/-! ## The input blocks read at an entry -/

/-- The feature block at point t is rows 5000 t … 5000 t + 4999 of the feature array. -/
theorem iblk0_0_apply (c : Dev nD) (t : Fin cfg0.N) (x : S5000x64.Idx) (k : S50000x64.Idx)
    (hk0 : (k 0).val = t.val * 5000 + (x 0).val) (hk1 : (k 1).val = (x 1).val) :
    (iblk0 V c 0 t : Vec Ideal S5000x64 .f32) x = (V c main_arg0 : S50000x64.Idx → EReal) k := by
  have e0 : win0_0.index t (0 : Fin 2) = t.val := (idx0_0 t).1
  have e1 : win0_0.index t (1 : Fin 2) = 0 := (idx0_0 t).2
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- The weight block at every point is the whole weight matrix. -/
theorem iblk0_1_apply (c : Dev nD) (t : Fin cfg0.N) (x : S64x64.Idx) :
    (iblk0 V c 1 t : Vec Ideal S64x64 .f32) x = (V c main_v13 : S64x64.Idx → EReal) x := by
  have e0 : win0_1.index t (0 : Fin 2) = 0 := (idx0_1 t).1
  have e1 : win0_1.index t (1 : Fin 2) = 0 := (idx0_1 t).2
  unfold iblk0
  rw [View.read_apply]
  show V c main_v13 _ = V c main_v13 _
  congr 1
  funext a
  apply Fin.ext
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- The factor block at point t is rows 5000 t … 5000 t + 4999 of the factor column. -/
theorem iblk0_2_apply (c : Dev nD) (t : Fin cfg0.N) (x : S5000x1.Idx) (k : S50000x1.Idx)
    (hk0 : (k 0).val = t.val * 5000 + (x 0).val) (hk1 : (k 1).val = (x 1).val) :
    (iblk0 V c 2 t : Vec Ideal S5000x1 .f32) x = (V c main_v11 : S50000x1.Idx → EReal) k := by
  have e0 : win0_2.index t (0 : Fin 2) = t.val := (idx0_2 t).1
  have e1 : win0_2.index t (1 : Fin 2) = 0 := (idx0_2 t).2
  unfold iblk0
  rw [View.read_apply]
  show V c main_v11 _ = V c main_v11 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-! ## The output block -/

/-- An entry of the output block at point t sits in the array at row 5000 t + its row, same column. -/
theorem emb0_out (t : Fin cfg0.N) (x : S5000x64.Idx) :
    ((((cfg0.win 3).blk t).view.emb x : S50000x64.Idx) 0).val = t.val * 5000 + (x 0).val
    ∧ ((((cfg0.win 3).blk t).view.emb x : S50000x64.Idx) 1).val = (x 1).val := by
  have e0 : win0_3.index t (0 : Fin 2) = t.val := (idx0_3 t).1
  have e1 : win0_3.index t (1 : Fin 2) = 0 := (idx0_3 t).2
  constructor
  · show win0_3.index t 0 * 5000 + 1 * (x 0).val = t.val * 5000 + (x 0).val; rw [e0]; omega
  · show win0_3.index t 1 * 64 + 1 * (x 1).val = (x 1).val; rw [e1]; omega

/-- An index of the array is in point t's block iff its row is among the block's 5000 rows. -/
theorem mem_blk0 (t : Fin cfg0.N) (i : S50000x64.Idx) :
    i ∈ ((cfg0.win 3).blk t).view.set ↔ t.val * 5000 ≤ (i 0).val ∧ (i 0).val < t.val * 5000 + 5000 := by
  have e0 : win0_3.index t (0 : Fin 2) = t.val := (idx0_3 t).1
  have e1 : win0_3.index t (1 : Fin 2) = 0 := (idx0_3 t).2
  show i ∈ ((View.whole main_v14).slice (win0_3.rect t)).set ↔ _
  rw [View.set_slice_whole, Rect.mem_set_unit]
  constructor
  · intro h
    have b0 : win0_3.index t (0 : Fin 2) * 5000 ≤ (i 0).val ∧ (i 0).val < win0_3.index t (0 : Fin 2) * 5000 + 5000 := h 0
    rw [e0] at b0
    exact b0
  · intro h a
    match a with
    | ⟨0, _⟩ =>
      show win0_3.index t (0 : Fin 2) * 5000 ≤ (i 0).val ∧ (i 0).val < win0_3.index t (0 : Fin 2) * 5000 + 5000
      rw [e0]; exact h
    | ⟨1, _⟩ =>
      show win0_3.index t (1 : Fin 2) * 64 ≤ (i 1).val ∧ (i 1).val < win0_3.index t (1 : Fin 2) * 64 + 64
      rw [e1]; have h64 : (i 1).val < 64 := (i 1).isLt; omega

/-- Every index of the array is in the block of the point its row falls in. -/
theorem cover0 (i : S50000x64.Idx) :
    ∃ t : Fin cfg0.N, (cfg0.win 3).flush t = true ∧ i ∈ ((cfg0.win 3).blk t).view.set := by
  have hi : (i 0).val < 50000 := (i 0).isLt
  refine ⟨⟨(i 0).val / 5000, by rw [show cfg0.N = 10 from N_0]; omega⟩, flush0_3 _, ?_⟩
  rw [mem_blk0]
  show (i 0).val / 5000 * 5000 ≤ (i 0).val ∧ (i 0).val < (i 0).val / 5000 * 5000 + 5000
  omega

/-- What the stage computes at entry x of the block at point t is the closed form at the array entry i it sits at. -/
theorem point0 (c : Dev nD) (t : Fin cfg0.N) (x : S5000x64.Idx) (i : S50000x64.Idx)
    (h0 : (i 0).val = t.val * 5000 + (x 0).val) (h1 : (i 1).val = (x 1).val) :
    k0_pay1 (iblk0 V c 0 t) (iblk0 V c 1 t) (iblk0 V c 2 t) x
      = Cert.Gcn.projScale (V c main_arg0) (V c main_v13) (V c main_v11) i := by
  have hx := k0_pay1_apply (iblk0 V c 0 t) (iblk0 V c 1 t) (iblk0 V c 2 t) (x 0) (x 1)
  refine ((congrArg (k0_pay1 (iblk0 V c 0 t) (iblk0 V c 1 t) (iblk0 V c 2 t)) (eq_ix2 x)).trans hx).trans ?_
  unfold Cert.Gcn.projScale
  rw [iblk0_2_apply V c t (ix2 (x 0) (0 : Fin 1)) (ix2 (i 0) (0 : Fin 1)) h0 rfl]
  have hq : (x 1) = (i 1) := Fin.ext h1.symm
  refine congrArg (· * _) (Finset.sum_congr rfl fun k _ => ?_)
  rw [iblk0_0_apply V c t (ix2 (x 0) k) (ix2 (i 0) k) h0 rfl, iblk0_1_apply V c t (ix2 k (x 1)), hq]

/-- What point t writes back is block t of the closed form. -/
theorem flushed0 (c : Dev nD) (t : Fin cfg0.N) :
    (dat0 (F := Ideal) V c).flushed 3 t = ((cfg0.win 3).blk t).view.read (Elt Ideal)
      (Cert.Gcn.projScale (V c main_arg0) (V c main_v13) (V c main_v11)) := by
  show (cfg0.win 3).cut (grid0.coords t) ((dat0 (F := Ideal) V c).after 3 t) = _
  rw [after0_3]
  unfold out0_3
  rw [View.canon_unit_zero hz2_0]
  simp only [View.ld_unit_zero (S := S5000x64) hz2_0, View.ld_unit_zero (S := S5000x1) hz2_0, View.ld_unit_zero (S := S64x64) hz2_0]
  funext j
  exact point0 V c t j _ (emb0_out t j).1 (emb0_out t j).2

/-- THE FIRST STAGE: after it the output array is (features · weights), each row scaled by its node's factor. -/
theorem region0 (c : Dev nD) :
    (dat0 (F := Ideal) V c).arrAt 3 cfg0.N
      = Cert.Gcn.projScale (V c main_arg0) (V c main_v13) (V c main_v11) :=
  (dat0 (F := Ideal) V c).arrAt_eq_of_cover 3 _ (fun t _ => flushed0 V c t) cover0

end Cert.KernelIdeal.Hand

end
-- ==== Proof.KerR1.lean ====
/-
  Middle on-chip stage 1, as a function of whole arrays.

  The stage runs over ten blocks of 5000 rows.  At each block it loads the block's rows of the neighbour sums, of the
  node's own scaled features and of the column of node factors, the whole bias row and the whole weight matrix; it
  forms factor · (sum + own) + bias, takes the positive part, multiplies by the weight matrix and scales each row by
  the factor again, and stores that as the block's rows of the output.  The ten blocks tile the 50000 rows, so after
  the stage the output array is that expression of the input arrays at every entry.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl

/-! ## Where each window's block sits: the row windows move with the grid point, the bias row and the weights stay -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)

/-! ## The input blocks read at an entry -/

/-- The neighbour-sum block at point t is rows 5000 t … 5000 t + 4999 of its array. -/
theorem iblk1_0_apply (c : Dev nD) (t : Fin cfg1.N) (x : S5000x64.Idx) (k : S50000x64.Idx)
    (hk0 : (k 0).val = t.val * 5000 + (x 0).val) (hk1 : (k 1).val = (x 1).val) :
    (iblk1 V c 0 t : Vec Ideal S5000x64 .f32) x = (V c main_v24 : S50000x64.Idx → EReal) k := by
  have e0 : win1_0.index t (0 : Fin 2) = t.val := (idx1_0 t).1
  have e1 : win1_0.index t (1 : Fin 2) = 0 := (idx1_0 t).2
  unfold iblk1
  rw [View.read_apply]
  show V c main_v24 _ = V c main_v24 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The own-features block at point t is rows 5000 t … 5000 t + 4999 of its array. -/
theorem iblk1_1_apply (c : Dev nD) (t : Fin cfg1.N) (x : S5000x64.Idx) (k : S50000x64.Idx)
    (hk0 : (k 0).val = t.val * 5000 + (x 0).val) (hk1 : (k 1).val = (x 1).val) :
    (iblk1 V c 1 t : Vec Ideal S5000x64 .f32) x = (V c main_v14 : S50000x64.Idx → EReal) k := by
  have e0 : win1_1.index t (0 : Fin 2) = t.val := (idx1_1 t).1
  have e1 : win1_1.index t (1 : Fin 2) = 0 := (idx1_1 t).2
  unfold iblk1
  rw [View.read_apply]
  show V c main_v14 _ = V c main_v14 _
  congr 1
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

/-- The factor block at point t is rows 5000 t … 5000 t + 4999 of the factor column. -/
theorem iblk1_2_apply (c : Dev nD) (t : Fin cfg1.N) (x : S5000x1.Idx) (k : S50000x1.Idx)
    (hk0 : (k 0).val = t.val * 5000 + (x 0).val) (hk1 : (k 1).val = (x 1).val) :
    (iblk1 V c 2 t : Vec Ideal S5000x1 .f32) x = (V c main_v11 : S50000x1.Idx → EReal) k := by
  have e0 : win1_2.index t (0 : Fin 2) = t.val := (idx1_2 t).1
  have e1 : win1_2.index t (1 : Fin 2) = 0 := (idx1_2 t).2
  unfold iblk1
  rw [View.read_apply]
  show V c main_v11 _ = V c main_v11 _
  congr 1
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- The bias block at every point is the whole bias row. -/
theorem iblk1_3_apply (c : Dev nD) (t : Fin cfg1.N) (x : S1x64.Idx) :
    (iblk1 V c 3 t : Vec Ideal S1x64 .f32) x = (V c main_v27 : S1x64.Idx → EReal) x := by
  have e0 : win1_3.index t (0 : Fin 2) = 0 := (idx1_3 t).1
  have e1 : win1_3.index t (1 : Fin 2) = 0 := (idx1_3 t).2
  unfold iblk1
  rw [View.read_apply]
  show V c main_v27 _ = V c main_v27 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- The weight block at every point is the whole weight matrix. -/
theorem iblk1_4_apply (c : Dev nD) (t : Fin cfg1.N) (x : S64x64.Idx) :
    (iblk1 V c 4 t : Vec Ideal S64x64 .f32) x = (V c main_v29 : S64x64.Idx → EReal) x := by
  have e0 : win1_4.index t (0 : Fin 2) = 0 := (idx1_4 t).1
  have e1 : win1_4.index t (1 : Fin 2) = 0 := (idx1_4 t).2
  unfold iblk1
  rw [View.read_apply]
  show V c main_v29 _ = V c main_v29 _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

/-! ## The output block -/

/-- An entry of the output block at point t sits in the array at row 5000 t + its row, same column. -/
theorem emb1_out (t : Fin cfg1.N) (x : S5000x64.Idx) :
    ((((cfg1.win 5).blk t).view.emb x : S50000x64.Idx) 0).val = t.val * 5000 + (x 0).val
    ∧ ((((cfg1.win 5).blk t).view.emb x : S50000x64.Idx) 1).val = (x 1).val := by
  have e0 : win1_5.index t (0 : Fin 2) = t.val := (idx1_5 t).1
  have e1 : win1_5.index t (1 : Fin 2) = 0 := (idx1_5 t).2
  constructor
  · show win1_5.index t 0 * 5000 + 1 * (x 0).val = t.val * 5000 + (x 0).val; rw [e0]; omega
  · show win1_5.index t 1 * 64 + 1 * (x 1).val = (x 1).val; rw [e1]; omega

/-- An index of the array is in point t's block iff its row is among the block's 5000 rows. -/
theorem mem_blk1 (t : Fin cfg1.N) (i : S50000x64.Idx) :
    i ∈ ((cfg1.win 5).blk t).view.set ↔ t.val * 5000 ≤ (i 0).val ∧ (i 0).val < t.val * 5000 + 5000 := by
  have e0 : win1_5.index t (0 : Fin 2) = t.val := (idx1_5 t).1
  have e1 : win1_5.index t (1 : Fin 2) = 0 := (idx1_5 t).2
  show i ∈ ((View.whole main_v30).slice (win1_5.rect t)).set ↔ _
  rw [View.set_slice_whole, Rect.mem_set_unit]
  constructor
  · intro h
    have b0 : win1_5.index t (0 : Fin 2) * 5000 ≤ (i 0).val ∧ (i 0).val < win1_5.index t (0 : Fin 2) * 5000 + 5000 := h 0
    rw [e0] at b0
    exact b0
  · intro h a
    match a with
    | ⟨0, _⟩ =>
      show win1_5.index t (0 : Fin 2) * 5000 ≤ (i 0).val ∧ (i 0).val < win1_5.index t (0 : Fin 2) * 5000 + 5000
      rw [e0]; exact h
    | ⟨1, _⟩ =>
      show win1_5.index t (1 : Fin 2) * 64 ≤ (i 1).val ∧ (i 1).val < win1_5.index t (1 : Fin 2) * 64 + 64
      rw [e1]; have h64 : (i 1).val < 64 := (i 1).isLt; omega

/-- Every index of the array is in the block of the point its row falls in. -/
theorem cover1 (i : S50000x64.Idx) :
    ∃ t : Fin cfg1.N, (cfg1.win 5).flush t = true ∧ i ∈ ((cfg1.win 5).blk t).view.set := by
  have hi : (i 0).val < 50000 := (i 0).isLt
  refine ⟨⟨(i 0).val / 5000, by rw [show cfg1.N = 10 from N_1]; omega⟩, flush1_5 _, ?_⟩
  rw [mem_blk1]
  show (i 0).val / 5000 * 5000 ≤ (i 0).val ∧ (i 0).val < (i 0).val / 5000 * 5000 + 5000
  omega

/-- What the stage computes at entry x of the block at point t is the closed form at the array entry i it sits at. -/
theorem point1 (c : Dev nD) (t : Fin cfg1.N) (x : S5000x64.Idx) (i : S50000x64.Idx)
    (h0 : (i 0).val = t.val * 5000 + (x 0).val) (h1 : (i 1).val = (x 1).val) :
    k1_pay1 (iblk1 V c 2 t) (iblk1 V c 3 t) (iblk1 V c 0 t) (iblk1 V c 1 t) (iblk1 V c 4 t) x
      = Cert.Gcn.projScale (Cert.Gcn.reluA (Cert.Gcn.combine (V c main_v24) (V c main_v14) (V c main_v11) (V c main_v27)))
          (V c main_v29) (V c main_v11) i := by
  have hx := k1_pay1_apply (iblk1 V c 2 t) (iblk1 V c 3 t) (iblk1 V c 0 t) (iblk1 V c 1 t) (iblk1 V c 4 t) (x 0) (x 1)
  refine ((congrArg (k1_pay1 (iblk1 V c 2 t) (iblk1 V c 3 t) (iblk1 V c 0 t) (iblk1 V c 1 t) (iblk1 V c 4 t)) (eq_ix2 x)).trans hx).trans ?_
  unfold Cert.Gcn.projScale Cert.Gcn.reluA Cert.Gcn.combine
  rw [iblk1_2_apply V c t (ix2 (x 0) (0 : Fin 1)) (ix2 (i 0) (0 : Fin 1)) h0 rfl]
  have hq : (x 1) = (i 1) := Fin.ext h1.symm
  refine congrArg (· * _) (Finset.sum_congr rfl fun k _ => ?_)
  rw [iblk1_0_apply V c t (ix2 (x 0) k) (ix2 (i 0) k) h0 rfl, iblk1_1_apply V c t (ix2 (x 0) k) (ix2 (i 0) k) h0 rfl,
    iblk1_3_apply V c t (ix2 (0 : Fin 1) k), iblk1_4_apply V c t (ix2 k (x 1)), hq]

/-- What point t writes back is block t of the closed form. -/
theorem flushed1 (c : Dev nD) (t : Fin cfg1.N) :
    (dat1 (F := Ideal) V c).flushed 5 t = ((cfg1.win 5).blk t).view.read (Elt Ideal)
      (Cert.Gcn.projScale (Cert.Gcn.reluA (Cert.Gcn.combine (V c main_v24) (V c main_v14) (V c main_v11) (V c main_v27)))
          (V c main_v29) (V c main_v11)) := by
  show (cfg1.win 5).cut (grid1.coords t) ((dat1 (F := Ideal) V c).after 5 t) = _
  rw [after1_5]
  unfold out1_5
  rw [View.canon_unit_zero hz2_1]
  simp only [View.ld_unit_zero (S := S5000x64) hz2_1, View.ld_unit_zero (S := S5000x1) hz2_1,
    View.ld_unit_zero (S := S1x64) hz2_1, View.ld_unit_zero (S := S64x64) hz2_1]
  funext j
  exact point1 V c t j _ (emb1_out t j).1 (emb1_out t j).2

/-- THE STAGE: after it the output array is the positive part of the previous layer's combination, times the weights,
    each row scaled by its node's factor. -/
theorem region1 (c : Dev nD) :
    (dat1 (F := Ideal) V c).arrAt 5 cfg1.N
      = Cert.Gcn.projScale (Cert.Gcn.reluA (Cert.Gcn.combine (V c main_v24) (V c main_v14) (V c main_v11) (V c main_v27)))
          (V c main_v29) (V c main_v11) :=
  (dat1 (F := Ideal) V c).arrAt_eq_of_cover 5 _ (fun t _ => flushed1 V c t) cover1

end Cert.KernelIdeal.Hand

end
-- ==== Proof.KerR2.lean ====
/-
  Middle on-chip stage 2, as a function of whole arrays.

  The stage runs over ten blocks of 5000 rows.  At each block it loads the block's rows of the neighbour sums, of the
  node's own scaled features and of the column of node factors, the whole bias row and the whole weight matrix; it
  forms factor · (sum + own) + bias, takes the positive part, multiplies by the weight matrix and scales each row by
  the factor again, and stores that as the block's rows of the output.  The ten blocks tile the 50000 rows, so after
  the stage the output array is that expression of the input arrays at every entry.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_2 : (![0, 0] : Fin 2 → Nat) = fun _ => 0 := funext fun a => by fin_cases a <;> rfl

/-! ## Where each window's block sits: the row windows move with the grid point, the bias row and the weights stay -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

/-! ## The input blocks read at an entry -/

/-- The neighbour-sum block at point t is rows 5000 t … 5000 t + 4999 of its array. -/
theorem iblk2_0_apply (c : Dev nD) (t : Fin cfg2.N) (x : S5000x64.Idx) (k : S50000x64.Idx)
    (hk0 : (k 0).val = t.val * 5000 + (x 0).val) (hk1 : (k 1).val = (x 1).val) :
    (iblk2 V c 0 t : Vec Ideal S5000x64 .f32) x = (V c main_v40 : S50000x64.Idx → EReal) k := by
  have e0 : win2_0.index t (0 : Fin 2) = t.val := (idx2_0 t).1
  have e1 : win2_0.index t (1 : Fin 2) = 0 := (idx2_0 t).2
  unfold iblk2
  rw [View.read_apply]
  show V c main_v40 _ = V c main_v40 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The own-features block at point t is rows 5000 t … 5000 t + 4999 of its array. -/
theorem iblk2_1_apply (c : Dev nD) (t : Fin cfg2.N) (x : S5000x64.Idx) (k : S50000x64.Idx)
    (hk0 : (k 0).val = t.val * 5000 + (x 0).val) (hk1 : (k 1).val = (x 1).val) :
    (iblk2 V c 1 t : Vec Ideal S5000x64 .f32) x = (V c main_v30 : S50000x64.Idx → EReal) k := by
  have e0 : win2_1.index t (0 : Fin 2) = t.val := (idx2_1 t).1
  have e1 : win2_1.index t (1 : Fin 2) = 0 := (idx2_1 t).2
  unfold iblk2
  rw [View.read_apply]
  show V c main_v30 _ = V c main_v30 _
  congr 1
  funext a
  apply Fin.ext
  match a with
  | ⟨0, _⟩ => show win2_1.index t 0 * 5000 + 1 * (x 0).val = (k 0).val; rw [e0, hk0]; omega
  | ⟨1, _⟩ => show win2_1.index t 1 * 64 + 1 * (x 1).val = (k 1).val; rw [e1, hk1]; omega

/-- The factor block at point t is rows 5000 t … 5000 t + 4999 of the factor column. -/
theorem iblk2_2_apply (c : Dev nD) (t : Fin cfg2.N) (x : S5000x1.Idx) (k : S50000x1.Idx)
    (hk0 : (k 0).val = t.val * 5000 + (x 0).val) (hk1 : (k 1).val = (x 1).val) :
    (iblk2 V c 2 t : Vec Ideal S5000x1 .f32) x = (V c main_v11 : S50000x1.Idx → EReal) k := by
  have e0 : win2_2.index t (0 : Fin 2) = t.val := (idx2_2 t).1
  have e1 : win2_2.index t (1 : Fin 2) = 0 := (idx2_2 t).2
  unfold iblk2
  rw [View.read_apply]
  show V c main_v11 _ = V c main_v11 _
  congr 1
  funext a
  apply Fin.ext
  match a with
  | ⟨0, _⟩ => show win2_2.index t 0 * 5000 + 1 * (x 0).val = (k 0).val; rw [e0, hk0]; omega
  | ⟨1, _⟩ => show win2_2.index t 1 * 1 + 1 * (x 1).val = (k 1).val; rw [e1, hk1]; omega

/-- The bias block at every point is the whole bias row. -/
theorem iblk2_3_apply (c : Dev nD) (t : Fin cfg2.N) (x : S1x64.Idx) :
    (iblk2 V c 3 t : Vec Ideal S1x64 .f32) x = (V c main_v43 : S1x64.Idx → EReal) x := by
  have e0 : win2_3.index t (0 : Fin 2) = 0 := (idx2_3 t).1
  have e1 : win2_3.index t (1 : Fin 2) = 0 := (idx2_3 t).2
  unfold iblk2
  rw [View.read_apply]
  show V c main_v43 _ = V c main_v43 _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- The weight block at every point is the whole weight matrix. -/
theorem iblk2_4_apply (c : Dev nD) (t : Fin cfg2.N) (x : S64x64.Idx) :
    (iblk2 V c 4 t : Vec Ideal S64x64 .f32) x = (V c main_v45 : S64x64.Idx → EReal) x := by
  have e0 : win2_4.index t (0 : Fin 2) = 0 := (idx2_4 t).1
  have e1 : win2_4.index t (1 : Fin 2) = 0 := (idx2_4 t).2
  unfold iblk2
  rw [View.read_apply]
  show V c main_v45 _ = V c main_v45 _
  congr 1
  funext a
  apply Fin.ext
  match a with
  | ⟨0, _⟩ => show win2_4.index t 0 * 64 + 1 * (x 0).val = (x 0).val; rw [e0]; omega
  | ⟨1, _⟩ => show win2_4.index t 1 * 64 + 1 * (x 1).val = (x 1).val; rw [e1]; omega

/-! ## The output block -/

/-- An entry of the output block at point t sits in the array at row 5000 t + its row, same column. -/
theorem emb2_out (t : Fin cfg2.N) (x : S5000x64.Idx) :
    ((((cfg2.win 5).blk t).view.emb x : S50000x64.Idx) 0).val = t.val * 5000 + (x 0).val
    ∧ ((((cfg2.win 5).blk t).view.emb x : S50000x64.Idx) 1).val = (x 1).val := by
  have e0 : win2_5.index t (0 : Fin 2) = t.val := (idx2_5 t).1
  have e1 : win2_5.index t (1 : Fin 2) = 0 := (idx2_5 t).2
  constructor
  · show win2_5.index t 0 * 5000 + 1 * (x 0).val = t.val * 5000 + (x 0).val; rw [e0]; omega
  · show win2_5.index t 1 * 64 + 1 * (x 1).val = (x 1).val; rw [e1]; omega

/-- An index of the array is in point t's block iff its row is among the block's 5000 rows. -/
theorem mem_blk2 (t : Fin cfg2.N) (i : S50000x64.Idx) :
    i ∈ ((cfg2.win 5).blk t).view.set ↔ t.val * 5000 ≤ (i 0).val ∧ (i 0).val < t.val * 5000 + 5000 := by
  have e0 : win2_5.index t (0 : Fin 2) = t.val := (idx2_5 t).1
  have e1 : win2_5.index t (1 : Fin 2) = 0 := (idx2_5 t).2
  show i ∈ ((View.whole main_v46).slice (win2_5.rect t)).set ↔ _
  rw [View.set_slice_whole, Rect.mem_set_unit]
  constructor
  · intro h
    have b0 : win2_5.index t (0 : Fin 2) * 5000 ≤ (i 0).val ∧ (i 0).val < win2_5.index t (0 : Fin 2) * 5000 + 5000 := h 0
    rw [e0] at b0
    exact b0
  · intro h a
    match a with
    | ⟨0, _⟩ =>
      show win2_5.index t (0 : Fin 2) * 5000 ≤ (i 0).val ∧ (i 0).val < win2_5.index t (0 : Fin 2) * 5000 + 5000
      rw [e0]; exact h
    | ⟨1, _⟩ =>
      show win2_5.index t (1 : Fin 2) * 64 ≤ (i 1).val ∧ (i 1).val < win2_5.index t (1 : Fin 2) * 64 + 64
      rw [e1]; have h64 : (i 1).val < 64 := (i 1).isLt; omega

/-- Every index of the array is in the block of the point its row falls in. -/
theorem cover2 (i : S50000x64.Idx) :
    ∃ t : Fin cfg2.N, (cfg2.win 5).flush t = true ∧ i ∈ ((cfg2.win 5).blk t).view.set := by
  have hi : (i 0).val < 50000 := (i 0).isLt
  refine ⟨⟨(i 0).val / 5000, by rw [show cfg2.N = 10 from N_2]; omega⟩, flush2_5 _, ?_⟩
  rw [mem_blk2]
  show (i 0).val / 5000 * 5000 ≤ (i 0).val ∧ (i 0).val < (i 0).val / 5000 * 5000 + 5000
  omega

/-- What the stage computes at entry x of the block at point t is the closed form at the array entry i it sits at. -/
theorem point2 (c : Dev nD) (t : Fin cfg2.N) (x : S5000x64.Idx) (i : S50000x64.Idx)
    (h0 : (i 0).val = t.val * 5000 + (x 0).val) (h1 : (i 1).val = (x 1).val) :
    k2_pay1 (iblk2 V c 2 t) (iblk2 V c 3 t) (iblk2 V c 0 t) (iblk2 V c 1 t) (iblk2 V c 4 t) x
      = Cert.Gcn.projScale (Cert.Gcn.reluA (Cert.Gcn.combine (V c main_v40) (V c main_v30) (V c main_v11) (V c main_v43)))
          (V c main_v45) (V c main_v11) i := by
  have hx := k1_pay1_apply (iblk2 V c 2 t) (iblk2 V c 3 t) (iblk2 V c 0 t) (iblk2 V c 1 t) (iblk2 V c 4 t) (x 0) (x 1)
  refine ((congrArg (k1_pay1 (iblk2 V c 2 t) (iblk2 V c 3 t) (iblk2 V c 0 t) (iblk2 V c 1 t) (iblk2 V c 4 t)) (eq_ix2 x)).trans hx).trans ?_
  unfold Cert.Gcn.projScale Cert.Gcn.reluA Cert.Gcn.combine
  rw [iblk2_2_apply V c t (ix2 (x 0) (0 : Fin 1)) (ix2 (i 0) (0 : Fin 1)) h0 rfl]
  have hq : (x 1) = (i 1) := Fin.ext h1.symm
  refine congrArg (· * _) (Finset.sum_congr rfl fun k _ => ?_)
  rw [iblk2_0_apply V c t (ix2 (x 0) k) (ix2 (i 0) k) h0 rfl, iblk2_1_apply V c t (ix2 (x 0) k) (ix2 (i 0) k) h0 rfl,
    iblk2_3_apply V c t (ix2 (0 : Fin 1) k), iblk2_4_apply V c t (ix2 k (x 1)), hq]

/-- What point t writes back is block t of the closed form. -/
theorem flushed2 (c : Dev nD) (t : Fin cfg2.N) :
    (dat2 (F := Ideal) V c).flushed 5 t = ((cfg2.win 5).blk t).view.read (Elt Ideal)
      (Cert.Gcn.projScale (Cert.Gcn.reluA (Cert.Gcn.combine (V c main_v40) (V c main_v30) (V c main_v11) (V c main_v43)))
          (V c main_v45) (V c main_v11)) := by
  show (cfg2.win 5).cut (grid2.coords t) ((dat2 (F := Ideal) V c).after 5 t) = _
  rw [after2_5]
  unfold out2_5
  rw [View.canon_unit_zero hz2_2]
  simp only [View.ld_unit_zero (S := S5000x64) hz2_2, View.ld_unit_zero (S := S5000x1) hz2_2,
    View.ld_unit_zero (S := S1x64) hz2_2, View.ld_unit_zero (S := S64x64) hz2_2]
  funext j
  exact point2 V c t j _ (emb2_out t j).1 (emb2_out t j).2

/-- THE STAGE: after it the output array is the positive part of the previous layer's combination, times the weights,
    each row scaled by its node's factor. -/
theorem region2 (c : Dev nD) :
    (dat2 (F := Ideal) V c).arrAt 5 cfg2.N
      = Cert.Gcn.projScale (Cert.Gcn.reluA (Cert.Gcn.combine (V c main_v40) (V c main_v30) (V c main_v11) (V c main_v43)))
          (V c main_v45) (V c main_v11) :=
  (dat2 (F := Ideal) V c).arrAt_eq_of_cover 5 _ (fun t _ => flushed2 V c t) cover2

end Cert.KernelIdeal.Hand

end
-- ==== Proof.KerR3.lean ====
/-
  Middle on-chip stage 3, as a function of whole arrays.

  The stage runs over ten blocks of 5000 rows.  At each block it loads the block's rows of the neighbour sums, of the
  node's own scaled features and of the column of node factors, the whole bias row and the whole weight matrix; it
  forms factor · (sum + own) + bias, takes the positive part, multiplies by the weight matrix and scales each row by
  the factor again, and stores that as the block's rows of the output.  The ten blocks tile the 50000 rows, so after
  the stage the output array is that expression of the input arrays at every entry.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_3 : (![0, 0] : Fin 2 → Nat) = fun _ => 0 := funext fun a => by fin_cases a <;> rfl

/-! ## Where each window's block sits: the row windows move with the grid point, the bias row and the weights stay -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)

/-! ## The input blocks read at an entry -/

/-- The neighbour-sum block at point t is rows 5000 t … 5000 t + 4999 of its array. -/
theorem iblk3_0_apply (c : Dev nD) (t : Fin cfg3.N) (x : S5000x64.Idx) (k : S50000x64.Idx)
    (hk0 : (k 0).val = t.val * 5000 + (x 0).val) (hk1 : (k 1).val = (x 1).val) :
    (iblk3 V c 0 t : Vec Ideal S5000x64 .f32) x = (V c main_v56 : S50000x64.Idx → EReal) k := by
  have e0 : win3_0.index t (0 : Fin 2) = t.val := (idx3_0 t).1
  have e1 : win3_0.index t (1 : Fin 2) = 0 := (idx3_0 t).2
  unfold iblk3
  rw [View.read_apply]
  show V c main_v56 _ = V c main_v56 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The own-features block at point t is rows 5000 t … 5000 t + 4999 of its array. -/
theorem iblk3_1_apply (c : Dev nD) (t : Fin cfg3.N) (x : S5000x64.Idx) (k : S50000x64.Idx)
    (hk0 : (k 0).val = t.val * 5000 + (x 0).val) (hk1 : (k 1).val = (x 1).val) :
    (iblk3 V c 1 t : Vec Ideal S5000x64 .f32) x = (V c main_v46 : S50000x64.Idx → EReal) k := by
  have e0 : win3_1.index t (0 : Fin 2) = t.val := (idx3_1 t).1
  have e1 : win3_1.index t (1 : Fin 2) = 0 := (idx3_1 t).2
  unfold iblk3
  rw [View.read_apply]
  show V c main_v46 _ = V c main_v46 _
  congr 1
  funext a
  apply Fin.ext
  match a with
  | ⟨0, _⟩ => show win3_1.index t 0 * 5000 + 1 * (x 0).val = (k 0).val; rw [e0, hk0]; omega
  | ⟨1, _⟩ => show win3_1.index t 1 * 64 + 1 * (x 1).val = (k 1).val; rw [e1, hk1]; omega

/-- The factor block at point t is rows 5000 t … 5000 t + 4999 of the factor column. -/
theorem iblk3_2_apply (c : Dev nD) (t : Fin cfg3.N) (x : S5000x1.Idx) (k : S50000x1.Idx)
    (hk0 : (k 0).val = t.val * 5000 + (x 0).val) (hk1 : (k 1).val = (x 1).val) :
    (iblk3 V c 2 t : Vec Ideal S5000x1 .f32) x = (V c main_v11 : S50000x1.Idx → EReal) k := by
  have e0 : win3_2.index t (0 : Fin 2) = t.val := (idx3_2 t).1
  have e1 : win3_2.index t (1 : Fin 2) = 0 := (idx3_2 t).2
  unfold iblk3
  rw [View.read_apply]
  show V c main_v11 _ = V c main_v11 _
  congr 1
  funext a
  apply Fin.ext
  match a with
  | ⟨0, _⟩ => show win3_2.index t 0 * 5000 + 1 * (x 0).val = (k 0).val; rw [e0, hk0]; omega
  | ⟨1, _⟩ => show win3_2.index t 1 * 1 + 1 * (x 1).val = (k 1).val; rw [e1, hk1]; omega

/-- The bias block at every point is the whole bias row. -/
theorem iblk3_3_apply (c : Dev nD) (t : Fin cfg3.N) (x : S1x64.Idx) :
    (iblk3 V c 3 t : Vec Ideal S1x64 .f32) x = (V c main_v59 : S1x64.Idx → EReal) x := by
  have e0 : win3_3.index t (0 : Fin 2) = 0 := (idx3_3 t).1
  have e1 : win3_3.index t (1 : Fin 2) = 0 := (idx3_3 t).2
  unfold iblk3
  rw [View.read_apply]
  show V c main_v59 _ = V c main_v59 _
  congr 1
  funext a
  apply Fin.ext
  match a with
  | ⟨0, _⟩ => show win3_3.index t 0 * 1 + 1 * (x 0).val = (x 0).val; rw [e0]; omega
  | ⟨1, _⟩ => show win3_3.index t 1 * 64 + 1 * (x 1).val = (x 1).val; rw [e1]; omega

/-- The weight block at every point is the whole weight matrix. -/
theorem iblk3_4_apply (c : Dev nD) (t : Fin cfg3.N) (x : S64x64.Idx) :
    (iblk3 V c 4 t : Vec Ideal S64x64 .f32) x = (V c main_v61 : S64x64.Idx → EReal) x := by
  have e0 : win3_4.index t (0 : Fin 2) = 0 := (idx3_4 t).1
  have e1 : win3_4.index t (1 : Fin 2) = 0 := (idx3_4 t).2
  unfold iblk3
  rw [View.read_apply]
  show V c main_v61 _ = V c main_v61 _
  congr 1
  funext a
  apply Fin.ext
  match a with
  | ⟨0, _⟩ => show win3_4.index t 0 * 64 + 1 * (x 0).val = (x 0).val; rw [e0]; omega
  | ⟨1, _⟩ => show win3_4.index t 1 * 64 + 1 * (x 1).val = (x 1).val; rw [e1]; omega

/-! ## The output block -/

/-- An entry of the output block at point t sits in the array at row 5000 t + its row, same column. -/
theorem emb3_out (t : Fin cfg3.N) (x : S5000x64.Idx) :
    ((((cfg3.win 5).blk t).view.emb x : S50000x64.Idx) 0).val = t.val * 5000 + (x 0).val
    ∧ ((((cfg3.win 5).blk t).view.emb x : S50000x64.Idx) 1).val = (x 1).val := by
  have e0 : win3_5.index t (0 : Fin 2) = t.val := (idx3_5 t).1
  have e1 : win3_5.index t (1 : Fin 2) = 0 := (idx3_5 t).2
  constructor
  · show win3_5.index t 0 * 5000 + 1 * (x 0).val = t.val * 5000 + (x 0).val; rw [e0]; omega
  · show win3_5.index t 1 * 64 + 1 * (x 1).val = (x 1).val; rw [e1]; omega

/-- An index of the array is in point t's block iff its row is among the block's 5000 rows. -/
theorem mem_blk3 (t : Fin cfg3.N) (i : S50000x64.Idx) :
    i ∈ ((cfg3.win 5).blk t).view.set ↔ t.val * 5000 ≤ (i 0).val ∧ (i 0).val < t.val * 5000 + 5000 := by
  have e0 : win3_5.index t (0 : Fin 2) = t.val := (idx3_5 t).1
  have e1 : win3_5.index t (1 : Fin 2) = 0 := (idx3_5 t).2
  show i ∈ ((View.whole main_v62).slice (win3_5.rect t)).set ↔ _
  rw [View.set_slice_whole, Rect.mem_set_unit]
  constructor
  · intro h
    have b0 : win3_5.index t (0 : Fin 2) * 5000 ≤ (i 0).val ∧ (i 0).val < win3_5.index t (0 : Fin 2) * 5000 + 5000 := h 0
    rw [e0] at b0
    exact b0
  · intro h a
    match a with
    | ⟨0, _⟩ =>
      show win3_5.index t (0 : Fin 2) * 5000 ≤ (i 0).val ∧ (i 0).val < win3_5.index t (0 : Fin 2) * 5000 + 5000
      rw [e0]; exact h
    | ⟨1, _⟩ =>
      show win3_5.index t (1 : Fin 2) * 64 ≤ (i 1).val ∧ (i 1).val < win3_5.index t (1 : Fin 2) * 64 + 64
      rw [e1]; have h64 : (i 1).val < 64 := (i 1).isLt; omega

/-- Every index of the array is in the block of the point its row falls in. -/
theorem cover3 (i : S50000x64.Idx) :
    ∃ t : Fin cfg3.N, (cfg3.win 5).flush t = true ∧ i ∈ ((cfg3.win 5).blk t).view.set := by
  have hi : (i 0).val < 50000 := (i 0).isLt
  refine ⟨⟨(i 0).val / 5000, by rw [show cfg3.N = 10 from N_3]; omega⟩, flush3_5 _, ?_⟩
  rw [mem_blk3]
  show (i 0).val / 5000 * 5000 ≤ (i 0).val ∧ (i 0).val < (i 0).val / 5000 * 5000 + 5000
  omega

/-- What the stage computes at entry x of the block at point t is the closed form at the array entry i it sits at. -/
theorem point3 (c : Dev nD) (t : Fin cfg3.N) (x : S5000x64.Idx) (i : S50000x64.Idx)
    (h0 : (i 0).val = t.val * 5000 + (x 0).val) (h1 : (i 1).val = (x 1).val) :
    k3_pay1 (iblk3 V c 2 t) (iblk3 V c 3 t) (iblk3 V c 0 t) (iblk3 V c 1 t) (iblk3 V c 4 t) x
      = Cert.Gcn.projScale (Cert.Gcn.reluA (Cert.Gcn.combine (V c main_v56) (V c main_v46) (V c main_v11) (V c main_v59)))
          (V c main_v61) (V c main_v11) i := by
  have hx := k1_pay1_apply (iblk3 V c 2 t) (iblk3 V c 3 t) (iblk3 V c 0 t) (iblk3 V c 1 t) (iblk3 V c 4 t) (x 0) (x 1)
  refine ((congrArg (k1_pay1 (iblk3 V c 2 t) (iblk3 V c 3 t) (iblk3 V c 0 t) (iblk3 V c 1 t) (iblk3 V c 4 t)) (eq_ix2 x)).trans hx).trans ?_
  unfold Cert.Gcn.projScale Cert.Gcn.reluA Cert.Gcn.combine
  rw [iblk3_2_apply V c t (ix2 (x 0) (0 : Fin 1)) (ix2 (i 0) (0 : Fin 1)) h0 rfl]
  have hq : (x 1) = (i 1) := Fin.ext h1.symm
  refine congrArg (· * _) (Finset.sum_congr rfl fun k _ => ?_)
  rw [iblk3_0_apply V c t (ix2 (x 0) k) (ix2 (i 0) k) h0 rfl, iblk3_1_apply V c t (ix2 (x 0) k) (ix2 (i 0) k) h0 rfl,
    iblk3_3_apply V c t (ix2 (0 : Fin 1) k), iblk3_4_apply V c t (ix2 k (x 1)), hq]

/-- What point t writes back is block t of the closed form. -/
theorem flushed3 (c : Dev nD) (t : Fin cfg3.N) :
    (dat3 (F := Ideal) V c).flushed 5 t = ((cfg3.win 5).blk t).view.read (Elt Ideal)
      (Cert.Gcn.projScale (Cert.Gcn.reluA (Cert.Gcn.combine (V c main_v56) (V c main_v46) (V c main_v11) (V c main_v59)))
          (V c main_v61) (V c main_v11)) := by
  show (cfg3.win 5).cut (grid3.coords t) ((dat3 (F := Ideal) V c).after 5 t) = _
  rw [after3_5]
  unfold out3_5
  rw [View.canon_unit_zero hz2_3]
  simp only [View.ld_unit_zero (S := S5000x64) hz2_3, View.ld_unit_zero (S := S5000x1) hz2_3,
    View.ld_unit_zero (S := S1x64) hz2_3, View.ld_unit_zero (S := S64x64) hz2_3]
  funext j
  exact point3 V c t j _ (emb3_out t j).1 (emb3_out t j).2

/-- THE STAGE: after it the output array is the positive part of the previous layer's combination, times the weights,
    each row scaled by its node's factor. -/
theorem region3 (c : Dev nD) :
    (dat3 (F := Ideal) V c).arrAt 5 cfg3.N
      = Cert.Gcn.projScale (Cert.Gcn.reluA (Cert.Gcn.combine (V c main_v56) (V c main_v46) (V c main_v11) (V c main_v59)))
          (V c main_v61) (V c main_v11) :=
  (dat3 (F := Ideal) V c).arrAt_eq_of_cover 5 _ (fun t _ => flushed3 V c t) cover3

end Cert.KernelIdeal.Hand

end
-- ==== Proof.KerR4.lean ====
/-
  Middle on-chip stage 4, as a function of whole arrays.

  The stage runs over ten blocks of 5000 rows.  At each block it loads the block's rows of the neighbour sums, of the
  node's own scaled features and of the column of node factors, the whole bias row and the whole weight matrix; it
  forms factor · (sum + own) + bias, takes the positive part, multiplies by the weight matrix and scales each row by
  the factor again, and stores that as the block's rows of the output.  The ten blocks tile the 50000 rows, so after
  the stage the output array is that expression of the input arrays at every entry.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_4 : (![0, 0] : Fin 2 → Nat) = fun _ => 0 := funext fun a => by fin_cases a <;> rfl

/-! ## Where each window's block sits: the row windows move with the grid point, the bias row and the weights stay -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = t.val ∧ win4_5.index t (1 : Fin 2) = 0 :=
  (by decide +kernel : ∀ t : Fin grid4.N, _)

/-! ## The input blocks read at an entry -/

/-- The neighbour-sum block at point t is rows 5000 t … 5000 t + 4999 of its array. -/
theorem iblk4_0_apply (c : Dev nD) (t : Fin cfg4.N) (x : S5000x64.Idx) (k : S50000x64.Idx)
    (hk0 : (k 0).val = t.val * 5000 + (x 0).val) (hk1 : (k 1).val = (x 1).val) :
    (iblk4 V c 0 t : Vec Ideal S5000x64 .f32) x = (V c main_v72 : S50000x64.Idx → EReal) k := by
  have e0 : win4_0.index t (0 : Fin 2) = t.val := (idx4_0 t).1
  have e1 : win4_0.index t (1 : Fin 2) = 0 := (idx4_0 t).2
  unfold iblk4
  rw [View.read_apply]
  show V c main_v72 _ = V c main_v72 _
  congr 1
  funext a
  apply Fin.ext
  match a with
  | ⟨0, _⟩ => show win4_0.index t 0 * 5000 + 1 * (x 0).val = (k 0).val; rw [e0, hk0]; omega
  | ⟨1, _⟩ => show win4_0.index t 1 * 64 + 1 * (x 1).val = (k 1).val; rw [e1, hk1]; omega

/-- The own-features block at point t is rows 5000 t … 5000 t + 4999 of its array. -/
theorem iblk4_1_apply (c : Dev nD) (t : Fin cfg4.N) (x : S5000x64.Idx) (k : S50000x64.Idx)
    (hk0 : (k 0).val = t.val * 5000 + (x 0).val) (hk1 : (k 1).val = (x 1).val) :
    (iblk4 V c 1 t : Vec Ideal S5000x64 .f32) x = (V c main_v62 : S50000x64.Idx → EReal) k := by
  have e0 : win4_1.index t (0 : Fin 2) = t.val := (idx4_1 t).1
  have e1 : win4_1.index t (1 : Fin 2) = 0 := (idx4_1 t).2
  unfold iblk4
  rw [View.read_apply]
  show V c main_v62 _ = V c main_v62 _
  congr 1
  funext a
  apply Fin.ext
  match a with
  | ⟨0, _⟩ => show win4_1.index t 0 * 5000 + 1 * (x 0).val = (k 0).val; rw [e0, hk0]; omega
  | ⟨1, _⟩ => show win4_1.index t 1 * 64 + 1 * (x 1).val = (k 1).val; rw [e1, hk1]; omega

/-- The factor block at point t is rows 5000 t … 5000 t + 4999 of the factor column. -/
theorem iblk4_2_apply (c : Dev nD) (t : Fin cfg4.N) (x : S5000x1.Idx) (k : S50000x1.Idx)
    (hk0 : (k 0).val = t.val * 5000 + (x 0).val) (hk1 : (k 1).val = (x 1).val) :
    (iblk4 V c 2 t : Vec Ideal S5000x1 .f32) x = (V c main_v11 : S50000x1.Idx → EReal) k := by
  have e0 : win4_2.index t (0 : Fin 2) = t.val := (idx4_2 t).1
  have e1 : win4_2.index t (1 : Fin 2) = 0 := (idx4_2 t).2
  unfold iblk4
  rw [View.read_apply]
  show V c main_v11 _ = V c main_v11 _
  congr 1
  funext a
  apply Fin.ext
  match a with
  | ⟨0, _⟩ => show win4_2.index t 0 * 5000 + 1 * (x 0).val = (k 0).val; rw [e0, hk0]; omega
  | ⟨1, _⟩ => show win4_2.index t 1 * 1 + 1 * (x 1).val = (k 1).val; rw [e1, hk1]; omega

/-- The bias block at every point is the whole bias row. -/
theorem iblk4_3_apply (c : Dev nD) (t : Fin cfg4.N) (x : S1x64.Idx) :
    (iblk4 V c 3 t : Vec Ideal S1x64 .f32) x = (V c main_v75 : S1x64.Idx → EReal) x := by
  have e0 : win4_3.index t (0 : Fin 2) = 0 := (idx4_3 t).1
  have e1 : win4_3.index t (1 : Fin 2) = 0 := (idx4_3 t).2
  unfold iblk4
  rw [View.read_apply]
  show V c main_v75 _ = V c main_v75 _
  congr 1
  funext a
  apply Fin.ext
  match a with
  | ⟨0, _⟩ => show win4_3.index t 0 * 1 + 1 * (x 0).val = (x 0).val; rw [e0]; omega
  | ⟨1, _⟩ => show win4_3.index t 1 * 64 + 1 * (x 1).val = (x 1).val; rw [e1]; omega

/-- The weight block at every point is the whole weight matrix. -/
theorem iblk4_4_apply (c : Dev nD) (t : Fin cfg4.N) (x : S64x64.Idx) :
    (iblk4 V c 4 t : Vec Ideal S64x64 .f32) x = (V c main_v77 : S64x64.Idx → EReal) x := by
  have e0 : win4_4.index t (0 : Fin 2) = 0 := (idx4_4 t).1
  have e1 : win4_4.index t (1 : Fin 2) = 0 := (idx4_4 t).2
  unfold iblk4
  rw [View.read_apply]
  show V c main_v77 _ = V c main_v77 _
  congr 1
  funext a
  apply Fin.ext
  match a with
  | ⟨0, _⟩ => show win4_4.index t 0 * 64 + 1 * (x 0).val = (x 0).val; rw [e0]; omega
  | ⟨1, _⟩ => show win4_4.index t 1 * 64 + 1 * (x 1).val = (x 1).val; rw [e1]; omega

/-! ## The output block -/

/-- An entry of the output block at point t sits in the array at row 5000 t + its row, same column. -/
theorem emb4_out (t : Fin cfg4.N) (x : S5000x64.Idx) :
    ((((cfg4.win 5).blk t).view.emb x : S50000x64.Idx) 0).val = t.val * 5000 + (x 0).val
    ∧ ((((cfg4.win 5).blk t).view.emb x : S50000x64.Idx) 1).val = (x 1).val := by
  have e0 : win4_5.index t (0 : Fin 2) = t.val := (idx4_5 t).1
  have e1 : win4_5.index t (1 : Fin 2) = 0 := (idx4_5 t).2
  constructor
  · show win4_5.index t 0 * 5000 + 1 * (x 0).val = t.val * 5000 + (x 0).val; rw [e0]; omega
  · show win4_5.index t 1 * 64 + 1 * (x 1).val = (x 1).val; rw [e1]; omega

/-- An index of the array is in point t's block iff its row is among the block's 5000 rows. -/
theorem mem_blk4 (t : Fin cfg4.N) (i : S50000x64.Idx) :
    i ∈ ((cfg4.win 5).blk t).view.set ↔ t.val * 5000 ≤ (i 0).val ∧ (i 0).val < t.val * 5000 + 5000 := by
  have e0 : win4_5.index t (0 : Fin 2) = t.val := (idx4_5 t).1
  have e1 : win4_5.index t (1 : Fin 2) = 0 := (idx4_5 t).2
  show i ∈ ((View.whole main_v78).slice (win4_5.rect t)).set ↔ _
  rw [View.set_slice_whole, Rect.mem_set_unit]
  constructor
  · intro h
    have b0 : win4_5.index t (0 : Fin 2) * 5000 ≤ (i 0).val ∧ (i 0).val < win4_5.index t (0 : Fin 2) * 5000 + 5000 := h 0
    rw [e0] at b0
    exact b0
  · intro h a
    match a with
    | ⟨0, _⟩ =>
      show win4_5.index t (0 : Fin 2) * 5000 ≤ (i 0).val ∧ (i 0).val < win4_5.index t (0 : Fin 2) * 5000 + 5000
      rw [e0]; exact h
    | ⟨1, _⟩ =>
      show win4_5.index t (1 : Fin 2) * 64 ≤ (i 1).val ∧ (i 1).val < win4_5.index t (1 : Fin 2) * 64 + 64
      rw [e1]; have h64 : (i 1).val < 64 := (i 1).isLt; omega

/-- Every index of the array is in the block of the point its row falls in. -/
theorem cover4 (i : S50000x64.Idx) :
    ∃ t : Fin cfg4.N, (cfg4.win 5).flush t = true ∧ i ∈ ((cfg4.win 5).blk t).view.set := by
  have hi : (i 0).val < 50000 := (i 0).isLt
  refine ⟨⟨(i 0).val / 5000, by rw [show cfg4.N = 10 from N_4]; omega⟩, flush4_5 _, ?_⟩
  rw [mem_blk4]
  show (i 0).val / 5000 * 5000 ≤ (i 0).val ∧ (i 0).val < (i 0).val / 5000 * 5000 + 5000
  omega

/-- What the stage computes at entry x of the block at point t is the closed form at the array entry i it sits at. -/
theorem point4 (c : Dev nD) (t : Fin cfg4.N) (x : S5000x64.Idx) (i : S50000x64.Idx)
    (h0 : (i 0).val = t.val * 5000 + (x 0).val) (h1 : (i 1).val = (x 1).val) :
    k4_pay1 (iblk4 V c 2 t) (iblk4 V c 3 t) (iblk4 V c 0 t) (iblk4 V c 1 t) (iblk4 V c 4 t) x
      = Cert.Gcn.projScale (Cert.Gcn.reluA (Cert.Gcn.combine (V c main_v72) (V c main_v62) (V c main_v11) (V c main_v75)))
          (V c main_v77) (V c main_v11) i := by
  have hx := k1_pay1_apply (iblk4 V c 2 t) (iblk4 V c 3 t) (iblk4 V c 0 t) (iblk4 V c 1 t) (iblk4 V c 4 t) (x 0) (x 1)
  refine ((congrArg (k1_pay1 (iblk4 V c 2 t) (iblk4 V c 3 t) (iblk4 V c 0 t) (iblk4 V c 1 t) (iblk4 V c 4 t)) (eq_ix2 x)).trans hx).trans ?_
  unfold Cert.Gcn.projScale Cert.Gcn.reluA Cert.Gcn.combine
  rw [iblk4_2_apply V c t (ix2 (x 0) (0 : Fin 1)) (ix2 (i 0) (0 : Fin 1)) h0 rfl]
  have hq : (x 1) = (i 1) := Fin.ext h1.symm
  refine congrArg (· * _) (Finset.sum_congr rfl fun k _ => ?_)
  rw [iblk4_0_apply V c t (ix2 (x 0) k) (ix2 (i 0) k) h0 rfl, iblk4_1_apply V c t (ix2 (x 0) k) (ix2 (i 0) k) h0 rfl,
    iblk4_3_apply V c t (ix2 (0 : Fin 1) k), iblk4_4_apply V c t (ix2 k (x 1)), hq]

/-- What point t writes back is block t of the closed form. -/
theorem flushed4 (c : Dev nD) (t : Fin cfg4.N) :
    (dat4 (F := Ideal) V c).flushed 5 t = ((cfg4.win 5).blk t).view.read (Elt Ideal)
      (Cert.Gcn.projScale (Cert.Gcn.reluA (Cert.Gcn.combine (V c main_v72) (V c main_v62) (V c main_v11) (V c main_v75)))
          (V c main_v77) (V c main_v11)) := by
  show (cfg4.win 5).cut (grid4.coords t) ((dat4 (F := Ideal) V c).after 5 t) = _
  rw [after4_5]
  unfold out4_5
  rw [View.canon_unit_zero hz2_4]
  simp only [View.ld_unit_zero (S := S5000x64) hz2_4, View.ld_unit_zero (S := S5000x1) hz2_4,
    View.ld_unit_zero (S := S1x64) hz2_4, View.ld_unit_zero (S := S64x64) hz2_4]
  funext j
  exact point4 V c t j _ (emb4_out t j).1 (emb4_out t j).2

/-- THE STAGE: after it the output array is the positive part of the previous layer's combination, times the weights,
    each row scaled by its node's factor. -/
theorem region4 (c : Dev nD) :
    (dat4 (F := Ideal) V c).arrAt 5 cfg4.N
      = Cert.Gcn.projScale (Cert.Gcn.reluA (Cert.Gcn.combine (V c main_v72) (V c main_v62) (V c main_v11) (V c main_v75)))
          (V c main_v77) (V c main_v11) :=
  (dat4 (F := Ideal) V c).arrAt_eq_of_cover 5 _ (fun t _ => flushed4 V c t) cover4

end Cert.KernelIdeal.Hand

end
-- ==== Proof.KerR5.lean ====
/-
  The last on-chip stage, as a function of whole arrays.

  The stage runs over ten blocks of 5000 rows.  At each block it loads the block's rows of the neighbour sums, of the
  node's own scaled features and of the column of node factors, and the whole bias row, and stores
  factor · (sum + own) + bias as the block's rows of the output.  The ten blocks tile the 50000 rows, so after the stage the
  output array is that expression of the input arrays at every entry.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Where each window's block sits: the row windows move with the grid point, the bias row stays -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = t.val ∧ win5_4.index t (1 : Fin 2) = 0 :=
  (by decide +kernel : ∀ t : Fin grid5.N, _)

/-! ## The input blocks read at an entry -/

/-- The neighbour-sum block at point t is rows 5000 t … 5000 t + 4999 of its array. -/
theorem iblk5_0_apply (c : Dev nD) (t : Fin cfg5.N) (x : S5000x64.Idx) (k : S50000x64.Idx)
    (hk0 : (k 0).val = t.val * 5000 + (x 0).val) (hk1 : (k 1).val = (x 1).val) :
    (iblk5 V c 0 t : Vec Ideal S5000x64 .f32) x = (V c main_v88 : S50000x64.Idx → EReal) k := by
  have e0 : win5_0.index t (0 : Fin 2) = t.val := (idx5_0 t).1
  have e1 : win5_0.index t (1 : Fin 2) = 0 := (idx5_0 t).2
  unfold iblk5
  rw [View.read_apply]
  show V c main_v88 _ = V c main_v88 _
  congr 1
  funext a
  apply Fin.ext
  match a with
  | ⟨0, _⟩ => show win5_0.index t 0 * 5000 + 1 * (x 0).val = (k 0).val; rw [e0, hk0]; omega
  | ⟨1, _⟩ => show win5_0.index t 1 * 64 + 1 * (x 1).val = (k 1).val; rw [e1, hk1]; omega

/-- The own-features block at point t is rows 5000 t … 5000 t + 4999 of its array. -/
theorem iblk5_1_apply (c : Dev nD) (t : Fin cfg5.N) (x : S5000x64.Idx) (k : S50000x64.Idx)
    (hk0 : (k 0).val = t.val * 5000 + (x 0).val) (hk1 : (k 1).val = (x 1).val) :
    (iblk5 V c 1 t : Vec Ideal S5000x64 .f32) x = (V c main_v78 : S50000x64.Idx → EReal) k := by
  have e0 : win5_1.index t (0 : Fin 2) = t.val := (idx5_1 t).1
  have e1 : win5_1.index t (1 : Fin 2) = 0 := (idx5_1 t).2
  unfold iblk5
  rw [View.read_apply]
  show V c main_v78 _ = V c main_v78 _
  congr 1
  funext a
  apply Fin.ext
  match a with
  | ⟨0, _⟩ => show win5_1.index t 0 * 5000 + 1 * (x 0).val = (k 0).val; rw [e0, hk0]; omega
  | ⟨1, _⟩ => show win5_1.index t 1 * 64 + 1 * (x 1).val = (k 1).val; rw [e1, hk1]; omega

/-- The factor block at point t is rows 5000 t … 5000 t + 4999 of the factor column. -/
theorem iblk5_2_apply (c : Dev nD) (t : Fin cfg5.N) (x : S5000x1.Idx) (k : S50000x1.Idx)
    (hk0 : (k 0).val = t.val * 5000 + (x 0).val) (hk1 : (k 1).val = (x 1).val) :
    (iblk5 V c 2 t : Vec Ideal S5000x1 .f32) x = (V c main_v11 : S50000x1.Idx → EReal) k := by
  have e0 : win5_2.index t (0 : Fin 2) = t.val := (idx5_2 t).1
  have e1 : win5_2.index t (1 : Fin 2) = 0 := (idx5_2 t).2
  unfold iblk5
  rw [View.read_apply]
  show V c main_v11 _ = V c main_v11 _
  congr 1
  funext a
  apply Fin.ext
  match a with
  | ⟨0, _⟩ => show win5_2.index t 0 * 5000 + 1 * (x 0).val = (k 0).val; rw [e0, hk0]; omega
  | ⟨1, _⟩ => show win5_2.index t 1 * 1 + 1 * (x 1).val = (k 1).val; rw [e1, hk1]; omega

/-- The bias block at every point is the whole bias row. -/
theorem iblk5_3_apply (c : Dev nD) (t : Fin cfg5.N) (x : S1x64.Idx) :
    (iblk5 V c 3 t : Vec Ideal S1x64 .f32) x = (V c main_v91 : S1x64.Idx → EReal) x := by
  have e0 : win5_3.index t (0 : Fin 2) = 0 := (idx5_3 t).1
  have e1 : win5_3.index t (1 : Fin 2) = 0 := (idx5_3 t).2
  unfold iblk5
  rw [View.read_apply]
  show V c main_v91 _ = V c main_v91 _
  congr 1
  funext a
  apply Fin.ext
  match a with
  | ⟨0, _⟩ => show win5_3.index t 0 * 1 + 1 * (x 0).val = (x 0).val; rw [e0]; omega
  | ⟨1, _⟩ => show win5_3.index t 1 * 64 + 1 * (x 1).val = (x 1).val; rw [e1]; omega

/-! ## The output block -/

/-- An entry of the output block at point t sits in the array at row 5000 t + its row, same column. -/
theorem emb5_out (t : Fin cfg5.N) (x : S5000x64.Idx) :
    ((((cfg5.win 4).blk t).view.emb x : S50000x64.Idx) 0).val = t.val * 5000 + (x 0).val
    ∧ ((((cfg5.win 4).blk t).view.emb x : S50000x64.Idx) 1).val = (x 1).val := by
  have e0 : win5_4.index t (0 : Fin 2) = t.val := (idx5_4 t).1
  have e1 : win5_4.index t (1 : Fin 2) = 0 := (idx5_4 t).2
  constructor
  · show win5_4.index t 0 * 5000 + 1 * (x 0).val = t.val * 5000 + (x 0).val; rw [e0]; omega
  · show win5_4.index t 1 * 64 + 1 * (x 1).val = (x 1).val; rw [e1]; omega

/-- An index of the array is in point t's block iff its row is among the block's 5000 rows. -/
theorem mem_blk5 (t : Fin cfg5.N) (i : S50000x64.Idx) :
    i ∈ ((cfg5.win 4).blk t).view.set ↔ t.val * 5000 ≤ (i 0).val ∧ (i 0).val < t.val * 5000 + 5000 := by
  have e0 : win5_4.index t (0 : Fin 2) = t.val := (idx5_4 t).1
  have e1 : win5_4.index t (1 : Fin 2) = 0 := (idx5_4 t).2
  show i ∈ ((View.whole main_v92).slice (win5_4.rect t)).set ↔ _
  rw [View.set_slice_whole, Rect.mem_set_unit]
  constructor
  · intro h
    have b0 : win5_4.index t (0 : Fin 2) * 5000 ≤ (i 0).val ∧ (i 0).val < win5_4.index t (0 : Fin 2) * 5000 + 5000 := h 0
    rw [e0] at b0
    exact b0
  · intro h a
    match a with
    | ⟨0, _⟩ =>
      show win5_4.index t (0 : Fin 2) * 5000 ≤ (i 0).val ∧ (i 0).val < win5_4.index t (0 : Fin 2) * 5000 + 5000
      rw [e0]; exact h
    | ⟨1, _⟩ =>
      show win5_4.index t (1 : Fin 2) * 64 ≤ (i 1).val ∧ (i 1).val < win5_4.index t (1 : Fin 2) * 64 + 64
      rw [e1]; have h64 : (i 1).val < 64 := (i 1).isLt; omega

/-- Every index of the array is in the block of the point its row falls in. -/
theorem cover5 (i : S50000x64.Idx) :
    ∃ t : Fin cfg5.N, (cfg5.win 4).flush t = true ∧ i ∈ ((cfg5.win 4).blk t).view.set := by
  have hi : (i 0).val < 50000 := (i 0).isLt
  refine ⟨⟨(i 0).val / 5000, by rw [show cfg5.N = 10 from N_5]; omega⟩, flush5_4 _, ?_⟩
  rw [mem_blk5]
  show (i 0).val / 5000 * 5000 ≤ (i 0).val ∧ (i 0).val < (i 0).val / 5000 * 5000 + 5000
  omega

/-- What the stage computes at entry x of the block at point t is the closed form at the array entry i it sits at. -/
theorem point5 (c : Dev nD) (t : Fin cfg5.N) (x : S5000x64.Idx) (i : S50000x64.Idx)
    (h0 : (i 0).val = t.val * 5000 + (x 0).val) (h1 : (i 1).val = (x 1).val) :
    k5_pay1 (iblk5 V c 2 t) (iblk5 V c 3 t) (iblk5 V c 0 t) (iblk5 V c 1 t) x
      = Cert.Gcn.combine (V c main_v88) (V c main_v78) (V c main_v11) (V c main_v91) i := by
  have hx := k5_pay1_apply (iblk5 V c 2 t) (iblk5 V c 3 t) (iblk5 V c 0 t) (iblk5 V c 1 t) (x 0) (x 1)
  refine ((congrArg (k5_pay1 (iblk5 V c 2 t) (iblk5 V c 3 t) (iblk5 V c 0 t) (iblk5 V c 1 t)) (eq_ix2 x)).trans hx).trans ?_
  unfold Cert.Gcn.combine
  rw [iblk5_2_apply V c t (ix2 (x 0) (0 : Fin 1)) (ix2 (i 0) (0 : Fin 1)) h0 rfl,
    iblk5_0_apply V c t (ix2 (x 0) (x 1)) i h0 h1, iblk5_1_apply V c t (ix2 (x 0) (x 1)) i h0 h1,
    iblk5_3_apply V c t (ix2 (0 : Fin 1) (x 1))]
  have hq : (x 1) = (i 1) := Fin.ext h1.symm
  rw [hq]

/-- What point t writes back is block t of the closed form. -/
theorem flushed5 (c : Dev nD) (t : Fin cfg5.N) :
    (dat5 (F := Ideal) V c).flushed 4 t = ((cfg5.win 4).blk t).view.read (Elt Ideal)
      (Cert.Gcn.combine (V c main_v88) (V c main_v78) (V c main_v11) (V c main_v91)) := by
  show (cfg5.win 4).cut (grid5.coords t) ((dat5 (F := Ideal) V c).after 4 t) = _
  rw [after5_4]
  unfold out5_4
  rw [View.canon_unit_zero hz2]
  simp only [View.ld_unit_zero (S := S5000x64) hz2, View.ld_unit_zero (S := S5000x1) hz2, View.ld_unit_zero (S := S1x64) hz2]
  funext j
  exact point5 V c t j _ (emb5_out t j).1 (emb5_out t j).2

/-- THE LAST STAGE: after it the output array is factor · (neighbour sum + own features) + bias of its input arrays. -/
theorem region5 (c : Dev nD) :
    (dat5 (F := Ideal) V c).arrAt 4 cfg5.N
      = Cert.Gcn.combine (V c main_v88) (V c main_v78) (V c main_v11) (V c main_v91) :=
  (dat5 (F := Ideal) V c).arrAt_eq_of_cover 4 _ (fun t _ => flushed5 V c t) cover5

end Cert.KernelIdeal.Hand

end
-- ==== Proof.KerR6.lean ====
/-
  The read-out stage, as a function of whole arrays.

  The stage runs once, on whole arrays: it loads the pooled features, the two weight arrays and the two biases, forms
  the hidden layer (pooled · first weights + bias row, positive part), multiplies by the output column and adds the
  output bias, and stores the result as the whole output column.
-/
import proofs.«143766_j20229295964422_2_alg».proof.Proof.KerPay
import proofs.«143766_j20229295964422_2_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2_6 : (![0, 0] : Fin 2 → Nat) = fun _ => 0 := funext fun a => by fin_cases a <;> rfl

/-! ## Every window's block is its whole array -/

theorem idx6_0 : ∀ t : Fin cfg6.N, win6_0.index t (0 : Fin 2) = 0 ∧ win6_0.index t (1 : Fin 2) = 0 :=
  (by decide +kernel : ∀ t : Fin grid6.N, _)
theorem idx6_1 : ∀ t : Fin cfg6.N, win6_1.index t (0 : Fin 2) = 0 ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = 0 ∧ win6_5.index t (1 : Fin 2) = 0 :=
  (by decide +kernel : ∀ t : Fin grid6.N, _)

/-! ## The input blocks read at an entry -/

/-- The pooled-features block is the whole array. -/
theorem iblk6_0_apply (c : Dev nD) (t : Fin cfg6.N) (x : S512x64.Idx) :
    (iblk6 V c 0 t : Vec Ideal S512x64 .f32) x = (V c main_v95 : S512x64.Idx → EReal) x := by
  have e0 : win6_0.index t (0 : Fin 2) = 0 := (idx6_0 t).1
  have e1 : win6_0.index t (1 : Fin 2) = 0 := (idx6_0 t).2
  unfold iblk6
  rw [View.read_apply]
  show V c main_v95 _ = V c main_v95 _
  congr 1
  funext a
  apply Fin.ext
  match a with
  | ⟨0, _⟩ => show win6_0.index t 0 * 512 + 1 * (x 0).val = (x 0).val; rw [e0]; omega
  | ⟨1, _⟩ => show win6_0.index t 1 * 64 + 1 * (x 1).val = (x 1).val; rw [e1]; omega

/-- The first weight block is the whole matrix. -/
theorem iblk6_1_apply (c : Dev nD) (t : Fin cfg6.N) (x : S64x64.Idx) :
    (iblk6 V c 1 t : Vec Ideal S64x64 .f32) x = (V c main_arg5 : S64x64.Idx → EReal) x := by
  have e0 : win6_1.index t (0 : Fin 2) = 0 := (idx6_1 t).1
  have e1 : win6_1.index t (1 : Fin 2) = 0 := (idx6_1 t).2
  unfold iblk6
  rw [View.read_apply]
  show V c main_arg5 _ = V c main_arg5 _
  congr 1
  funext a
  apply Fin.ext
  match a with
  | ⟨0, _⟩ => show win6_1.index t 0 * 64 + 1 * (x 0).val = (x 0).val; rw [e0]; omega
  | ⟨1, _⟩ => show win6_1.index t 1 * 64 + 1 * (x 1).val = (x 1).val; rw [e1]; omega

/-- The hidden bias block is the whole row. -/
theorem iblk6_2_apply (c : Dev nD) (t : Fin cfg6.N) (x : S1x64.Idx) :
    (iblk6 V c 2 t : Vec Ideal S1x64 .f32) x = (V c main_v96 : S1x64.Idx → EReal) x := by
  have e0 : win6_2.index t (0 : Fin 2) = 0 := (idx6_2 t).1
  have e1 : win6_2.index t (1 : Fin 2) = 0 := (idx6_2 t).2
  unfold iblk6
  rw [View.read_apply]
  show V c main_v96 _ = V c main_v96 _
  congr 1
  funext a
  apply Fin.ext
  match a with
  | ⟨0, _⟩ => show win6_2.index t 0 * 1 + 1 * (x 0).val = (x 0).val; rw [e0]; omega
  | ⟨1, _⟩ => show win6_2.index t 1 * 64 + 1 * (x 1).val = (x 1).val; rw [e1]; omega

/-- The output weight block is the whole column. -/
theorem iblk6_3_apply (c : Dev nD) (t : Fin cfg6.N) (x : S64x1.Idx) :
    (iblk6 V c 3 t : Vec Ideal S64x1 .f32) x = (V c main_arg7 : S64x1.Idx → EReal) x := by
  have e0 : win6_3.index t (0 : Fin 2) = 0 := (idx6_3 t).1
  have e1 : win6_3.index t (1 : Fin 2) = 0 := (idx6_3 t).2
  unfold iblk6
  rw [View.read_apply]
  show V c main_arg7 _ = V c main_arg7 _
  congr 1
  funext a
  apply Fin.ext
  match a with
  | ⟨0, _⟩ => show win6_3.index t 0 * 64 + 1 * (x 0).val = (x 0).val; rw [e0]; omega
  | ⟨1, _⟩ => show win6_3.index t 1 * 1 + 1 * (x 1).val = (x 1).val; rw [e1]; omega

/-- The output bias block is the whole one-entry array. -/
theorem iblk6_4_apply (c : Dev nD) (t : Fin cfg6.N) (x : S1x1.Idx) :
    (iblk6 V c 4 t : Vec Ideal S1x1 .f32) x = (V c main_v97 : S1x1.Idx → EReal) x := by
  have e0 : win6_4.index t (0 : Fin 2) = 0 := (idx6_4 t).1
  have e1 : win6_4.index t (1 : Fin 2) = 0 := (idx6_4 t).2
  unfold iblk6
  rw [View.read_apply]
  show V c main_v97 _ = V c main_v97 _
  congr 1
  funext a
  apply Fin.ext
  match a with
  | ⟨0, _⟩ => show win6_4.index t 0 * 1 + 1 * (x 0).val = (x 0).val; rw [e0]; omega
  | ⟨1, _⟩ => show win6_4.index t 1 * 1 + 1 * (x 1).val = (x 1).val; rw [e1]; omega

/-! ## The output block -/

/-- An entry of the output block sits in the array at its own coordinates. -/
theorem emb6_out (t : Fin cfg6.N) (x : S512x1.Idx) :
    ((((cfg6.win 5).blk t).view.emb x : S512x1.Idx) 0).val = (x 0).val
    ∧ ((((cfg6.win 5).blk t).view.emb x : S512x1.Idx) 1).val = (x 1).val := by
  have e0 : win6_5.index t (0 : Fin 2) = 0 := (idx6_5 t).1
  have e1 : win6_5.index t (1 : Fin 2) = 0 := (idx6_5 t).2
  constructor
  · show win6_5.index t 0 * 512 + 1 * (x 0).val = (x 0).val; rw [e0]; omega
  · show win6_5.index t 1 * 1 + 1 * (x 1).val = (x 1).val; rw [e1]; omega

/-- Every index of the array is in the one point's block. -/
theorem cover6 (i : S512x1.Idx) :
    ∃ t : Fin cfg6.N, (cfg6.win 5).flush t = true ∧ i ∈ ((cfg6.win 5).blk t).view.set := by
  refine ⟨⟨0, by rw [show cfg6.N = 1 from N_6]; omega⟩, flush6_5 _, ?_⟩
  generalize (⟨0, by rw [show cfg6.N = 1 from N_6]; omega⟩ : Fin cfg6.N) = t
  have e0 : win6_5.index t (0 : Fin 2) = 0 := (idx6_5 t).1
  have e1 : win6_5.index t (1 : Fin 2) = 0 := (idx6_5 t).2
  show i ∈ ((View.whole main_v98).slice (win6_5.rect t)).set
  rw [View.set_slice_whole, Rect.mem_set_unit]
  intro a
  match a with
  | ⟨0, _⟩ =>
    show win6_5.index t (0 : Fin 2) * 512 ≤ (i 0).val ∧ (i 0).val < win6_5.index t (0 : Fin 2) * 512 + 512
    rw [e0]; have h512 : (i 0).val < 512 := (i 0).isLt; omega
  | ⟨1, _⟩ =>
    show win6_5.index t (1 : Fin 2) * 1 ≤ (i 1).val ∧ (i 1).val < win6_5.index t (1 : Fin 2) * 1 + 1
    rw [e1]; have h1 : (i 1).val < 1 := (i 1).isLt; omega

/-- What the stage computes at entry x of its block is the closed form at the array entry i it sits at. -/
theorem point6 (c : Dev nD) (t : Fin cfg6.N) (x : S512x1.Idx) (i : S512x1.Idx)
    (h0 : (i 0).val = (x 0).val) (h1 : (i 1).val = (x 1).val) :
    k6_pay1 (iblk6 V c 0 t) (iblk6 V c 1 t) (iblk6 V c 2 t) (iblk6 V c 3 t) (iblk6 V c 4 t) x
      = Cert.Gcn.mlp (V c main_v95) (V c main_arg5) (V c main_v96) (V c main_arg7) (V c main_v97) i := by
  have hx := k6_pay1_apply (iblk6 V c 0 t) (iblk6 V c 1 t) (iblk6 V c 2 t) (iblk6 V c 3 t) (iblk6 V c 4 t) (x 0) (x 1)
  refine ((congrArg (k6_pay1 (iblk6 V c 0 t) (iblk6 V c 1 t) (iblk6 V c 2 t) (iblk6 V c 3 t) (iblk6 V c 4 t)) (eq_ix2 x)).trans hx).trans ?_
  unfold Cert.Gcn.mlp
  have hp : i 0 = x 0 := Fin.ext h0
  have hq : i 1 = x 1 := Fin.ext h1
  rw [hp, hq, iblk6_4_apply V c t (ix2 (0 : Fin 1) (0 : Fin 1))]
  refine congrArg (· + _) (Finset.sum_congr rfl fun q _ => ?_)
  rw [iblk6_2_apply V c t (ix2 (0 : Fin 1) q), iblk6_3_apply V c t (ix2 q (x 1))]
  refine congrArg (fun s => max (s + _) 0 * _) (Finset.sum_congr rfl fun r _ => ?_)
  rw [iblk6_0_apply V c t (ix2 (x 0) r), iblk6_1_apply V c t (ix2 r q)]

/-- What the one point writes back is the closed form read through the whole-array block. -/
theorem flushed6 (c : Dev nD) (t : Fin cfg6.N) :
    (dat6 (F := Ideal) V c).flushed 5 t = ((cfg6.win 5).blk t).view.read (Elt Ideal)
      (Cert.Gcn.mlp (V c main_v95) (V c main_arg5) (V c main_v96) (V c main_arg7) (V c main_v97)) := by
  show (cfg6.win 5).cut (grid6.coords t) ((dat6 (F := Ideal) V c).after 5 t) = _
  rw [after6_5]
  unfold out6_5
  rw [View.canon_unit_zero hz2_6]
  simp only [View.ld_unit_zero (S := S512x64) hz2_6, View.ld_unit_zero (S := S64x64) hz2_6,
    View.ld_unit_zero (S := S1x64) hz2_6, View.ld_unit_zero (S := S64x1) hz2_6, View.ld_unit_zero (S := S1x1) hz2_6]
  funext j
  exact point6 V c t j _ (emb6_out t j).1 (emb6_out t j).2

/-- THE READ-OUT STAGE: after it the output column is the read-out of its input arrays. -/
theorem region6 (c : Dev nD) :
    (dat6 (F := Ideal) V c).arrAt 5 cfg6.N
      = Cert.Gcn.mlp (V c main_v95) (V c main_arg5) (V c main_v96) (V c main_arg7) (V c main_v97) :=
  (dat6 (F := Ideal) V c).arrAt_eq_of_cover 5 _ (fun t _ => flushed6 V c t) cover6

end Cert.KernelIdeal.Hand

end
-- ==== Proof.KerChain.lean ====
/-
  The kernel's run, read from its last boundary back to the arguments: what every buffer an on-chip stage or a
  host stretch reads holds at the boundary where it is read, and with that the result buffer as the network of
  `Spec.lean` of the nine argument arrays.
-/
import proofs.«143766_j20229295964422_2_alg».proof.Proof.KerFrame
import proofs.«143766_j20229295964422_2_alg».proof.Proof.KerHost
import proofs.«143766_j20229295964422_2_alg».proof.Proof.KerRead2
import proofs.«143766_j20229295964422_2_alg».proof.Proof.SpecSteps
import proofs.«143766_j20229295964422_2_alg».proof.Proof.KerR0
import proofs.«143766_j20229295964422_2_alg».proof.Proof.KerR1
import proofs.«143766_j20229295964422_2_alg».proof.Proof.KerR2
import proofs.«143766_j20229295964422_2_alg».proof.Proof.KerR3
import proofs.«143766_j20229295964422_2_alg».proof.Proof.KerR4
import proofs.«143766_j20229295964422_2_alg».proof.Proof.KerR5
import proofs.«143766_j20229295964422_2_alg».proof.Proof.KerR6

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Gcn

variable (m : (ℓ : Loc nD τ sig) → Buf (Elt Ideal) ℓ) (ρ : Dev nD → PrngReg) (c : Dev nD)

/-! ## The arguments as launched -/

abbrev A0 := W0 m ρ c (Proc.devRef .tc main_arg0)
abbrev A1 := W0 m ρ c (Proc.devRef .tc main_arg1)
abbrev A2 := W0 m ρ c (Proc.devRef .tc main_arg2)
abbrev A3 := W0 m ρ c (Proc.devRef .tc main_arg3)
abbrev A4 := W0 m ρ c (Proc.devRef .tc main_arg4)
abbrev A5 := W0 m ρ c (Proc.devRef .tc main_arg5)
abbrev A6 := W0 m ρ c (Proc.devRef .tc main_arg6)
abbrev A7 := W0 m ρ c (Proc.devRef .tc main_arg7)
abbrev A8 := W0 m ρ c (Proc.devRef .tc main_arg8)

/-! ## Buffers that ride unchanged to where they are read -/

theorem st_v1_2 : W2 m ρ c (Proc.devRef .tc main_v1) = srcV (A1 m ρ c) :=
    (W2_of_ne m ρ c main_v1 (by decide)).trans <|
    h0_src (W0 m ρ c)
theorem st_v3_2 : W2 m ρ c (Proc.devRef .tc main_v3) = dstV (A1 m ρ c) :=
    (W2_of_ne m ρ c main_v3 (by decide)).trans <|
    h0_dst (W0 m ρ c)
theorem st_v1_4 : W4 m ρ c (Proc.devRef .tc main_v1) = srcV (A1 m ρ c) :=
    (W4_of_ne m ρ c main_v1 (by decide)).trans <|
    (keep1 (W2 m ρ c) main_v1 (by decide)).trans <|
    (W2_of_ne m ρ c main_v1 (by decide)).trans <|
    h0_src (W0 m ρ c)
theorem st_v3_4 : W4 m ρ c (Proc.devRef .tc main_v3) = dstV (A1 m ρ c) :=
    (W4_of_ne m ρ c main_v3 (by decide)).trans <|
    (keep1 (W2 m ρ c) main_v3 (by decide)).trans <|
    (W2_of_ne m ρ c main_v3 (by decide)).trans <|
    h0_dst (W0 m ρ c)
theorem st_v1_6 : W6 m ρ c (Proc.devRef .tc main_v1) = srcV (A1 m ρ c) :=
    (W6_of_ne m ρ c main_v1 (by decide)).trans <|
    (keep2 (W4 m ρ c) main_v1 (by decide)).trans <|
    (W4_of_ne m ρ c main_v1 (by decide)).trans <|
    (keep1 (W2 m ρ c) main_v1 (by decide)).trans <|
    (W2_of_ne m ρ c main_v1 (by decide)).trans <|
    h0_src (W0 m ρ c)
theorem st_v3_6 : W6 m ρ c (Proc.devRef .tc main_v3) = dstV (A1 m ρ c) :=
    (W6_of_ne m ρ c main_v3 (by decide)).trans <|
    (keep2 (W4 m ρ c) main_v3 (by decide)).trans <|
    (W4_of_ne m ρ c main_v3 (by decide)).trans <|
    (keep1 (W2 m ρ c) main_v3 (by decide)).trans <|
    (W2_of_ne m ρ c main_v3 (by decide)).trans <|
    h0_dst (W0 m ρ c)
theorem st_v1_8 : W8 m ρ c (Proc.devRef .tc main_v1) = srcV (A1 m ρ c) :=
    (W8_of_ne m ρ c main_v1 (by decide)).trans <|
    (keep3 (W6 m ρ c) main_v1 (by decide)).trans <|
    (W6_of_ne m ρ c main_v1 (by decide)).trans <|
    (keep2 (W4 m ρ c) main_v1 (by decide)).trans <|
    (W4_of_ne m ρ c main_v1 (by decide)).trans <|
    (keep1 (W2 m ρ c) main_v1 (by decide)).trans <|
    (W2_of_ne m ρ c main_v1 (by decide)).trans <|
    h0_src (W0 m ρ c)
theorem st_v3_8 : W8 m ρ c (Proc.devRef .tc main_v3) = dstV (A1 m ρ c) :=
    (W8_of_ne m ρ c main_v3 (by decide)).trans <|
    (keep3 (W6 m ρ c) main_v3 (by decide)).trans <|
    (W6_of_ne m ρ c main_v3 (by decide)).trans <|
    (keep2 (W4 m ρ c) main_v3 (by decide)).trans <|
    (W4_of_ne m ρ c main_v3 (by decide)).trans <|
    (keep1 (W2 m ρ c) main_v3 (by decide)).trans <|
    (W2_of_ne m ρ c main_v3 (by decide)).trans <|
    h0_dst (W0 m ρ c)
theorem st_v1_10 : W10 m ρ c (Proc.devRef .tc main_v1) = srcV (A1 m ρ c) :=
    (W10_of_ne m ρ c main_v1 (by decide)).trans <|
    (keep4 (W8 m ρ c) main_v1 (by decide)).trans <|
    (W8_of_ne m ρ c main_v1 (by decide)).trans <|
    (keep3 (W6 m ρ c) main_v1 (by decide)).trans <|
    (W6_of_ne m ρ c main_v1 (by decide)).trans <|
    (keep2 (W4 m ρ c) main_v1 (by decide)).trans <|
    (W4_of_ne m ρ c main_v1 (by decide)).trans <|
    (keep1 (W2 m ρ c) main_v1 (by decide)).trans <|
    (W2_of_ne m ρ c main_v1 (by decide)).trans <|
    h0_src (W0 m ρ c)
theorem st_v3_10 : W10 m ρ c (Proc.devRef .tc main_v3) = dstV (A1 m ρ c) :=
    (W10_of_ne m ρ c main_v3 (by decide)).trans <|
    (keep4 (W8 m ρ c) main_v3 (by decide)).trans <|
    (W8_of_ne m ρ c main_v3 (by decide)).trans <|
    (keep3 (W6 m ρ c) main_v3 (by decide)).trans <|
    (W6_of_ne m ρ c main_v3 (by decide)).trans <|
    (keep2 (W4 m ρ c) main_v3 (by decide)).trans <|
    (W4_of_ne m ρ c main_v3 (by decide)).trans <|
    (keep1 (W2 m ρ c) main_v3 (by decide)).trans <|
    (W2_of_ne m ρ c main_v3 (by decide)).trans <|
    h0_dst (W0 m ρ c)
theorem st_v11_1 : W1 m ρ c (Proc.devRef .tc main_v11) = dinvCol (dstV (A1 m ρ c)) :=
    h0_dinv (W0 m ρ c)
theorem st_v11_3 : W3 m ρ c (Proc.devRef .tc main_v11) = dinvCol (dstV (A1 m ρ c)) :=
    (keep1 (W2 m ρ c) main_v11 (by decide)).trans <|
    ((W2_arr m ρ c 2).trans (((dat0 (V1 m ρ) c).arrAt_in 2 rfl _).trans (A_eq0 (V1 m ρ) c 2))).trans <|
    h0_dinv (W0 m ρ c)
theorem st_v11_5 : W5 m ρ c (Proc.devRef .tc main_v11) = dinvCol (dstV (A1 m ρ c)) :=
    (keep2 (W4 m ρ c) main_v11 (by decide)).trans <|
    ((W4_arr m ρ c 2).trans (((dat1 (V3 m ρ) c).arrAt_in 2 rfl _).trans (A_eq1 (V3 m ρ) c 2))).trans <|
    (keep1 (W2 m ρ c) main_v11 (by decide)).trans <|
    ((W2_arr m ρ c 2).trans (((dat0 (V1 m ρ) c).arrAt_in 2 rfl _).trans (A_eq0 (V1 m ρ) c 2))).trans <|
    h0_dinv (W0 m ρ c)
theorem st_v11_7 : W7 m ρ c (Proc.devRef .tc main_v11) = dinvCol (dstV (A1 m ρ c)) :=
    (keep3 (W6 m ρ c) main_v11 (by decide)).trans <|
    ((W6_arr m ρ c 2).trans (((dat2 (V5 m ρ) c).arrAt_in 2 rfl _).trans (A_eq2 (V5 m ρ) c 2))).trans <|
    (keep2 (W4 m ρ c) main_v11 (by decide)).trans <|
    ((W4_arr m ρ c 2).trans (((dat1 (V3 m ρ) c).arrAt_in 2 rfl _).trans (A_eq1 (V3 m ρ) c 2))).trans <|
    (keep1 (W2 m ρ c) main_v11 (by decide)).trans <|
    ((W2_arr m ρ c 2).trans (((dat0 (V1 m ρ) c).arrAt_in 2 rfl _).trans (A_eq0 (V1 m ρ) c 2))).trans <|
    h0_dinv (W0 m ρ c)
theorem st_v11_9 : W9 m ρ c (Proc.devRef .tc main_v11) = dinvCol (dstV (A1 m ρ c)) :=
    (keep4 (W8 m ρ c) main_v11 (by decide)).trans <|
    ((W8_arr m ρ c 2).trans (((dat3 (V7 m ρ) c).arrAt_in 2 rfl _).trans (A_eq3 (V7 m ρ) c 2))).trans <|
    (keep3 (W6 m ρ c) main_v11 (by decide)).trans <|
    ((W6_arr m ρ c 2).trans (((dat2 (V5 m ρ) c).arrAt_in 2 rfl _).trans (A_eq2 (V5 m ρ) c 2))).trans <|
    (keep2 (W4 m ρ c) main_v11 (by decide)).trans <|
    ((W4_arr m ρ c 2).trans (((dat1 (V3 m ρ) c).arrAt_in 2 rfl _).trans (A_eq1 (V3 m ρ) c 2))).trans <|
    (keep1 (W2 m ρ c) main_v11 (by decide)).trans <|
    ((W2_arr m ρ c 2).trans (((dat0 (V1 m ρ) c).arrAt_in 2 rfl _).trans (A_eq0 (V1 m ρ) c 2))).trans <|
    h0_dinv (W0 m ρ c)
theorem st_v11_11 : W11 m ρ c (Proc.devRef .tc main_v11) = dinvCol (dstV (A1 m ρ c)) :=
    (keep5 (W10 m ρ c) main_v11 (by decide)).trans <|
    ((W10_arr m ρ c 2).trans (((dat4 (V9 m ρ) c).arrAt_in 2 rfl _).trans (A_eq4 (V9 m ρ) c 2))).trans <|
    (keep4 (W8 m ρ c) main_v11 (by decide)).trans <|
    ((W8_arr m ρ c 2).trans (((dat3 (V7 m ρ) c).arrAt_in 2 rfl _).trans (A_eq3 (V7 m ρ) c 2))).trans <|
    (keep3 (W6 m ρ c) main_v11 (by decide)).trans <|
    ((W6_arr m ρ c 2).trans (((dat2 (V5 m ρ) c).arrAt_in 2 rfl _).trans (A_eq2 (V5 m ρ) c 2))).trans <|
    (keep2 (W4 m ρ c) main_v11 (by decide)).trans <|
    ((W4_arr m ρ c 2).trans (((dat1 (V3 m ρ) c).arrAt_in 2 rfl _).trans (A_eq1 (V3 m ρ) c 2))).trans <|
    (keep1 (W2 m ρ c) main_v11 (by decide)).trans <|
    ((W2_arr m ρ c 2).trans (((dat0 (V1 m ρ) c).arrAt_in 2 rfl _).trans (A_eq0 (V1 m ρ) c 2))).trans <|
    h0_dinv (W0 m ρ c)
theorem st_arg0_1 : W1 m ρ c (Proc.devRef .tc main_arg0) = A0 m ρ c :=
    (keep0 (W0 m ρ c) main_arg0 (by decide))
theorem st_arg3_2 : W2 m ρ c (Proc.devRef .tc main_arg3) = A3 m ρ c :=
    (W2_of_ne m ρ c main_arg3 (by decide)).trans <|
    (keep0 (W0 m ρ c) main_arg3 (by decide))
theorem st_arg3_4 : W4 m ρ c (Proc.devRef .tc main_arg3) = A3 m ρ c :=
    (W4_of_ne m ρ c main_arg3 (by decide)).trans <|
    (keep1 (W2 m ρ c) main_arg3 (by decide)).trans <|
    (W2_of_ne m ρ c main_arg3 (by decide)).trans <|
    (keep0 (W0 m ρ c) main_arg3 (by decide))
theorem st_arg3_6 : W6 m ρ c (Proc.devRef .tc main_arg3) = A3 m ρ c :=
    (W6_of_ne m ρ c main_arg3 (by decide)).trans <|
    (keep2 (W4 m ρ c) main_arg3 (by decide)).trans <|
    (W4_of_ne m ρ c main_arg3 (by decide)).trans <|
    (keep1 (W2 m ρ c) main_arg3 (by decide)).trans <|
    (W2_of_ne m ρ c main_arg3 (by decide)).trans <|
    (keep0 (W0 m ρ c) main_arg3 (by decide))
theorem st_arg3_8 : W8 m ρ c (Proc.devRef .tc main_arg3) = A3 m ρ c :=
    (W8_of_ne m ρ c main_arg3 (by decide)).trans <|
    (keep3 (W6 m ρ c) main_arg3 (by decide)).trans <|
    (W6_of_ne m ρ c main_arg3 (by decide)).trans <|
    (keep2 (W4 m ρ c) main_arg3 (by decide)).trans <|
    (W4_of_ne m ρ c main_arg3 (by decide)).trans <|
    (keep1 (W2 m ρ c) main_arg3 (by decide)).trans <|
    (W2_of_ne m ρ c main_arg3 (by decide)).trans <|
    (keep0 (W0 m ρ c) main_arg3 (by decide))
theorem st_arg4_2 : W2 m ρ c (Proc.devRef .tc main_arg4) = A4 m ρ c :=
    (W2_of_ne m ρ c main_arg4 (by decide)).trans <|
    (keep0 (W0 m ρ c) main_arg4 (by decide))
theorem st_arg4_4 : W4 m ρ c (Proc.devRef .tc main_arg4) = A4 m ρ c :=
    (W4_of_ne m ρ c main_arg4 (by decide)).trans <|
    (keep1 (W2 m ρ c) main_arg4 (by decide)).trans <|
    (W2_of_ne m ρ c main_arg4 (by decide)).trans <|
    (keep0 (W0 m ρ c) main_arg4 (by decide))
theorem st_arg4_6 : W6 m ρ c (Proc.devRef .tc main_arg4) = A4 m ρ c :=
    (W6_of_ne m ρ c main_arg4 (by decide)).trans <|
    (keep2 (W4 m ρ c) main_arg4 (by decide)).trans <|
    (W4_of_ne m ρ c main_arg4 (by decide)).trans <|
    (keep1 (W2 m ρ c) main_arg4 (by decide)).trans <|
    (W2_of_ne m ρ c main_arg4 (by decide)).trans <|
    (keep0 (W0 m ρ c) main_arg4 (by decide))
theorem st_arg4_8 : W8 m ρ c (Proc.devRef .tc main_arg4) = A4 m ρ c :=
    (W8_of_ne m ρ c main_arg4 (by decide)).trans <|
    (keep3 (W6 m ρ c) main_arg4 (by decide)).trans <|
    (W6_of_ne m ρ c main_arg4 (by decide)).trans <|
    (keep2 (W4 m ρ c) main_arg4 (by decide)).trans <|
    (W4_of_ne m ρ c main_arg4 (by decide)).trans <|
    (keep1 (W2 m ρ c) main_arg4 (by decide)).trans <|
    (W2_of_ne m ρ c main_arg4 (by decide)).trans <|
    (keep0 (W0 m ρ c) main_arg4 (by decide))
theorem st_arg4_10 : W10 m ρ c (Proc.devRef .tc main_arg4) = A4 m ρ c :=
    (W10_of_ne m ρ c main_arg4 (by decide)).trans <|
    (keep4 (W8 m ρ c) main_arg4 (by decide)).trans <|
    (W8_of_ne m ρ c main_arg4 (by decide)).trans <|
    (keep3 (W6 m ρ c) main_arg4 (by decide)).trans <|
    (W6_of_ne m ρ c main_arg4 (by decide)).trans <|
    (keep2 (W4 m ρ c) main_arg4 (by decide)).trans <|
    (W4_of_ne m ρ c main_arg4 (by decide)).trans <|
    (keep1 (W2 m ρ c) main_arg4 (by decide)).trans <|
    (W2_of_ne m ρ c main_arg4 (by decide)).trans <|
    (keep0 (W0 m ρ c) main_arg4 (by decide))
theorem st_arg2_12 : W12 m ρ c (Proc.devRef .tc main_arg2) = A2 m ρ c :=
    (W12_of_ne m ρ c main_arg2 (by decide)).trans <|
    (keep5 (W10 m ρ c) main_arg2 (by decide)).trans <|
    (W10_of_ne m ρ c main_arg2 (by decide)).trans <|
    (keep4 (W8 m ρ c) main_arg2 (by decide)).trans <|
    (W8_of_ne m ρ c main_arg2 (by decide)).trans <|
    (keep3 (W6 m ρ c) main_arg2 (by decide)).trans <|
    (W6_of_ne m ρ c main_arg2 (by decide)).trans <|
    (keep2 (W4 m ρ c) main_arg2 (by decide)).trans <|
    (W4_of_ne m ρ c main_arg2 (by decide)).trans <|
    (keep1 (W2 m ρ c) main_arg2 (by decide)).trans <|
    (W2_of_ne m ρ c main_arg2 (by decide)).trans <|
    (keep0 (W0 m ρ c) main_arg2 (by decide))
theorem st_arg6_12 : W12 m ρ c (Proc.devRef .tc main_arg6) = A6 m ρ c :=
    (W12_of_ne m ρ c main_arg6 (by decide)).trans <|
    (keep5 (W10 m ρ c) main_arg6 (by decide)).trans <|
    (W10_of_ne m ρ c main_arg6 (by decide)).trans <|
    (keep4 (W8 m ρ c) main_arg6 (by decide)).trans <|
    (W8_of_ne m ρ c main_arg6 (by decide)).trans <|
    (keep3 (W6 m ρ c) main_arg6 (by decide)).trans <|
    (W6_of_ne m ρ c main_arg6 (by decide)).trans <|
    (keep2 (W4 m ρ c) main_arg6 (by decide)).trans <|
    (W4_of_ne m ρ c main_arg6 (by decide)).trans <|
    (keep1 (W2 m ρ c) main_arg6 (by decide)).trans <|
    (W2_of_ne m ρ c main_arg6 (by decide)).trans <|
    (keep0 (W0 m ρ c) main_arg6 (by decide))
theorem st_arg8_12 : W12 m ρ c (Proc.devRef .tc main_arg8) = A8 m ρ c :=
    (W12_of_ne m ρ c main_arg8 (by decide)).trans <|
    (keep5 (W10 m ρ c) main_arg8 (by decide)).trans <|
    (W10_of_ne m ρ c main_arg8 (by decide)).trans <|
    (keep4 (W8 m ρ c) main_arg8 (by decide)).trans <|
    (W8_of_ne m ρ c main_arg8 (by decide)).trans <|
    (keep3 (W6 m ρ c) main_arg8 (by decide)).trans <|
    (W6_of_ne m ρ c main_arg8 (by decide)).trans <|
    (keep2 (W4 m ρ c) main_arg8 (by decide)).trans <|
    (W4_of_ne m ρ c main_arg8 (by decide)).trans <|
    (keep1 (W2 m ρ c) main_arg8 (by decide)).trans <|
    (W2_of_ne m ρ c main_arg8 (by decide)).trans <|
    (keep0 (W0 m ρ c) main_arg8 (by decide))
theorem st_arg5_13 : W13 m ρ c (Proc.devRef .tc main_arg5) = A5 m ρ c :=
    (keep6 (W12 m ρ c) main_arg5 (by decide)).trans <|
    (W12_of_ne m ρ c main_arg5 (by decide)).trans <|
    (keep5 (W10 m ρ c) main_arg5 (by decide)).trans <|
    (W10_of_ne m ρ c main_arg5 (by decide)).trans <|
    (keep4 (W8 m ρ c) main_arg5 (by decide)).trans <|
    (W8_of_ne m ρ c main_arg5 (by decide)).trans <|
    (keep3 (W6 m ρ c) main_arg5 (by decide)).trans <|
    (W6_of_ne m ρ c main_arg5 (by decide)).trans <|
    (keep2 (W4 m ρ c) main_arg5 (by decide)).trans <|
    (W4_of_ne m ρ c main_arg5 (by decide)).trans <|
    (keep1 (W2 m ρ c) main_arg5 (by decide)).trans <|
    (W2_of_ne m ρ c main_arg5 (by decide)).trans <|
    (keep0 (W0 m ρ c) main_arg5 (by decide))
theorem st_arg7_13 : W13 m ρ c (Proc.devRef .tc main_arg7) = A7 m ρ c :=
    (keep6 (W12 m ρ c) main_arg7 (by decide)).trans <|
    (W12_of_ne m ρ c main_arg7 (by decide)).trans <|
    (keep5 (W10 m ρ c) main_arg7 (by decide)).trans <|
    (W10_of_ne m ρ c main_arg7 (by decide)).trans <|
    (keep4 (W8 m ρ c) main_arg7 (by decide)).trans <|
    (W8_of_ne m ρ c main_arg7 (by decide)).trans <|
    (keep3 (W6 m ρ c) main_arg7 (by decide)).trans <|
    (W6_of_ne m ρ c main_arg7 (by decide)).trans <|
    (keep2 (W4 m ρ c) main_arg7 (by decide)).trans <|
    (W4_of_ne m ρ c main_arg7 (by decide)).trans <|
    (keep1 (W2 m ρ c) main_arg7 (by decide)).trans <|
    (W2_of_ne m ρ c main_arg7 (by decide)).trans <|
    (keep0 (W0 m ρ c) main_arg7 (by decide))

/-! ## The network's pieces of the arguments -/

/-- The source row of each edge and the destination word of each edge. -/
abbrev sF : Fin 800000 → Fin 50000 := srcOf (A1 m ρ c)
abbrev dF : Fin 800000 → BitVec 32 := dstwOf (A1 m ρ c)
/-- The input features, the stacked weights and biases, as index functions. -/
abbrev xF : Feat := fun i q => (A0 m ρ c : Arr sNC) (ix2 i q)
abbrev WsF : Fin 5 → Fin 64 → Fin 64 → EReal := fun l q k => (A3 m ρ c : Arr ⟨3, ![5, 64, 64]⟩) (ix3 l q k)
abbrev bsF : Fin 5 → Fin 64 → EReal := fun l k => (A4 m ρ c : Arr ⟨2, ![5, 64]⟩) (ix2 l k)
/-- The features entering each layer. -/
abbrev Hf0 : Feat := xF m ρ c
abbrev Hf1 : Feat := reluF (layerRef (sF m ρ c) (dF m ρ c) (Hf0 m ρ c) (WsF m ρ c 0) (bsF m ρ c 0))
abbrev Hf2 : Feat := reluF (layerRef (sF m ρ c) (dF m ρ c) (Hf1 m ρ c) (WsF m ρ c 1) (bsF m ρ c 1))
abbrev Hf3 : Feat := reluF (layerRef (sF m ρ c) (dF m ρ c) (Hf2 m ρ c) (WsF m ρ c 2) (bsF m ρ c 2))
abbrev Hf4 : Feat := reluF (layerRef (sF m ρ c) (dF m ρ c) (Hf3 m ρ c) (WsF m ρ c 3) (bsF m ρ c 3))

/-! ## Stage 0: the scaled projection of the input features -/

theorem hs0_val (n : Fin 50000) (k : Fin 64) :
    (W2 m ρ c (Proc.devRef .tc main_v14) : Arr sNC) (ix2 n k)
      = proj (Hf0 m ρ c) (WsF m ρ c 0) n k * dinv (dF m ρ c) n := by
  have e : W2 m ρ c (Proc.devRef .tc main_v14)
      = projScale (V1 m ρ c main_arg0) (V1 m ρ c main_v13) (V1 m ρ c main_v11) :=
    (W2_arr m ρ c 3).trans (region0 (V1 m ρ) c)
  rw [e]
  refine first_step (dF m ρ c) (Hf0 m ρ c) (WsF m ρ c 0) _ _ _ ?hx ?hW ?hd n k
  case hx =>
    intro n q
    rw [show V1 m ρ c main_arg0 = A0 m ρ c from st_arg0_1 m ρ c]
  case hW =>
    intro q k
    rw [show V1 m ρ c main_v13 = _ from h0_w (W0 m ρ c)]
    exact wslice_apply (A3 m ρ c) 0 _ rfl _ q k
  case hd =>
    intro n
    rw [show V1 m ρ c main_v11 = _ from st_v11_1 m ρ c]
    exact dcol_apply _ n

/-! ## Stage 1: layer 0 combined, the positive part, the next scaled projection -/

theorem hs1_val (n : Fin 50000) (k : Fin 64) :
    (W4 m ρ c (Proc.devRef .tc main_v30) : Arr sNC) (ix2 n k)
      = proj (Hf1 m ρ c) (WsF m ρ c 1) n k * dinv (dF m ρ c) n := by
  have e : W4 m ρ c (Proc.devRef .tc main_v30)
      = projScale (reluA (combine (V3 m ρ c main_v24) (V3 m ρ c main_v14) (V3 m ρ c main_v11) (V3 m ρ c main_v27)))
          (V3 m ρ c main_v29) (V3 m ρ c main_v11) :=
    (W4_arr m ρ c 5).trans (region1 (V3 m ρ) c)
  rw [e]
  refine fuse_step (sF m ρ c) (dF m ρ c) (Hf0 m ρ c) (WsF m ρ c 0) (WsF m ρ c 1) (bsF m ρ c 0) _ _ _ _ _ ?hd ?hhs ?hagg ?hb ?hW n k
  case hd =>
    intro n
    rw [show V3 m ρ c main_v11 = _ from st_v11_3 m ρ c]
    exact dcol_apply _ n
  case hhs =>
    intro n k
    rw [show V3 m ρ c main_v14 = W2 m ρ c (Proc.devRef .tc main_v14) from keep1 (W2 m ρ c) main_v14 (by decide)]
    exact hs0_val m ρ c n k
  case hagg =>
    intro i q
    rw [show V3 m ρ c main_v24 = aggOf (W2 m ρ c (Proc.devRef .tc main_v14)) (srcV (A1 m ρ c)) (dstV (A1 m ρ c)) from
        (h1_agg (W2 m ρ c)).trans (by rw [st_v1_2 m ρ c, st_v3_2 m ρ c]),
      show V3 m ρ c main_v14 = W2 m ρ c (Proc.devRef .tc main_v14) from keep1 (W2 m ρ c) main_v14 (by decide)]
    exact aggOf_apply _ _ i q
  case hb =>
    intro q
    rw [show V3 m ρ c main_v27 = _ from h1_b (W2 m ρ c), st_arg4_2 m ρ c]
    exact bslice_apply (A4 m ρ c) 0 _ rfl _ q
  case hW =>
    intro q k
    rw [show V3 m ρ c main_v29 = _ from h1_w (W2 m ρ c), st_arg3_2 m ρ c]
    exact wslice_apply (A3 m ρ c) 1 _ rfl _ q k

/-! ## Stage 2: layer 1 combined, the positive part, the next scaled projection -/

theorem hs2_val (n : Fin 50000) (k : Fin 64) :
    (W6 m ρ c (Proc.devRef .tc main_v46) : Arr sNC) (ix2 n k)
      = proj (Hf2 m ρ c) (WsF m ρ c 2) n k * dinv (dF m ρ c) n := by
  have e : W6 m ρ c (Proc.devRef .tc main_v46)
      = projScale (reluA (combine (V5 m ρ c main_v40) (V5 m ρ c main_v30) (V5 m ρ c main_v11) (V5 m ρ c main_v43)))
          (V5 m ρ c main_v45) (V5 m ρ c main_v11) :=
    (W6_arr m ρ c 5).trans (region2 (V5 m ρ) c)
  rw [e]
  refine fuse_step (sF m ρ c) (dF m ρ c) (Hf1 m ρ c) (WsF m ρ c 1) (WsF m ρ c 2) (bsF m ρ c 1) _ _ _ _ _ ?hd ?hhs ?hagg ?hb ?hW n k
  case hd =>
    intro n
    rw [show V5 m ρ c main_v11 = _ from st_v11_5 m ρ c]
    exact dcol_apply _ n
  case hhs =>
    intro n k
    rw [show V5 m ρ c main_v30 = W4 m ρ c (Proc.devRef .tc main_v30) from keep2 (W4 m ρ c) main_v30 (by decide)]
    exact hs1_val m ρ c n k
  case hagg =>
    intro i q
    rw [show V5 m ρ c main_v40 = aggOf (W4 m ρ c (Proc.devRef .tc main_v30)) (srcV (A1 m ρ c)) (dstV (A1 m ρ c)) from
        (h2_agg (W4 m ρ c)).trans (by rw [st_v1_4 m ρ c, st_v3_4 m ρ c]),
      show V5 m ρ c main_v30 = W4 m ρ c (Proc.devRef .tc main_v30) from keep2 (W4 m ρ c) main_v30 (by decide)]
    exact aggOf_apply _ _ i q
  case hb =>
    intro q
    rw [show V5 m ρ c main_v43 = _ from h2_b (W4 m ρ c), st_arg4_4 m ρ c]
    exact bslice_apply (A4 m ρ c) 1 _ rfl _ q
  case hW =>
    intro q k
    rw [show V5 m ρ c main_v45 = _ from h2_w (W4 m ρ c), st_arg3_4 m ρ c]
    exact wslice_apply (A3 m ρ c) 2 _ rfl _ q k

/-! ## Stage 3: layer 2 combined, the positive part, the next scaled projection -/

theorem hs3_val (n : Fin 50000) (k : Fin 64) :
    (W8 m ρ c (Proc.devRef .tc main_v62) : Arr sNC) (ix2 n k)
      = proj (Hf3 m ρ c) (WsF m ρ c 3) n k * dinv (dF m ρ c) n := by
  have e : W8 m ρ c (Proc.devRef .tc main_v62)
      = projScale (reluA (combine (V7 m ρ c main_v56) (V7 m ρ c main_v46) (V7 m ρ c main_v11) (V7 m ρ c main_v59)))
          (V7 m ρ c main_v61) (V7 m ρ c main_v11) :=
    (W8_arr m ρ c 5).trans (region3 (V7 m ρ) c)
  rw [e]
  refine fuse_step (sF m ρ c) (dF m ρ c) (Hf2 m ρ c) (WsF m ρ c 2) (WsF m ρ c 3) (bsF m ρ c 2) _ _ _ _ _ ?hd ?hhs ?hagg ?hb ?hW n k
  case hd =>
    intro n
    rw [show V7 m ρ c main_v11 = _ from st_v11_7 m ρ c]
    exact dcol_apply _ n
  case hhs =>
    intro n k
    rw [show V7 m ρ c main_v46 = W6 m ρ c (Proc.devRef .tc main_v46) from keep3 (W6 m ρ c) main_v46 (by decide)]
    exact hs2_val m ρ c n k
  case hagg =>
    intro i q
    rw [show V7 m ρ c main_v56 = aggOf (W6 m ρ c (Proc.devRef .tc main_v46)) (srcV (A1 m ρ c)) (dstV (A1 m ρ c)) from
        (h3_agg (W6 m ρ c)).trans (by rw [st_v1_6 m ρ c, st_v3_6 m ρ c]),
      show V7 m ρ c main_v46 = W6 m ρ c (Proc.devRef .tc main_v46) from keep3 (W6 m ρ c) main_v46 (by decide)]
    exact aggOf_apply _ _ i q
  case hb =>
    intro q
    rw [show V7 m ρ c main_v59 = _ from h3_b (W6 m ρ c), st_arg4_6 m ρ c]
    exact bslice_apply (A4 m ρ c) 2 _ rfl _ q
  case hW =>
    intro q k
    rw [show V7 m ρ c main_v61 = _ from h3_w (W6 m ρ c), st_arg3_6 m ρ c]
    exact wslice_apply (A3 m ρ c) 3 _ rfl _ q k

/-! ## Stage 4: layer 3 combined, the positive part, the next scaled projection -/

theorem hs4_val (n : Fin 50000) (k : Fin 64) :
    (W10 m ρ c (Proc.devRef .tc main_v78) : Arr sNC) (ix2 n k)
      = proj (Hf4 m ρ c) (WsF m ρ c 4) n k * dinv (dF m ρ c) n := by
  have e : W10 m ρ c (Proc.devRef .tc main_v78)
      = projScale (reluA (combine (V9 m ρ c main_v72) (V9 m ρ c main_v62) (V9 m ρ c main_v11) (V9 m ρ c main_v75)))
          (V9 m ρ c main_v77) (V9 m ρ c main_v11) :=
    (W10_arr m ρ c 5).trans (region4 (V9 m ρ) c)
  rw [e]
  refine fuse_step (sF m ρ c) (dF m ρ c) (Hf3 m ρ c) (WsF m ρ c 3) (WsF m ρ c 4) (bsF m ρ c 3) _ _ _ _ _ ?hd ?hhs ?hagg ?hb ?hW n k
  case hd =>
    intro n
    rw [show V9 m ρ c main_v11 = _ from st_v11_9 m ρ c]
    exact dcol_apply _ n
  case hhs =>
    intro n k
    rw [show V9 m ρ c main_v62 = W8 m ρ c (Proc.devRef .tc main_v62) from keep4 (W8 m ρ c) main_v62 (by decide)]
    exact hs3_val m ρ c n k
  case hagg =>
    intro i q
    rw [show V9 m ρ c main_v72 = aggOf (W8 m ρ c (Proc.devRef .tc main_v62)) (srcV (A1 m ρ c)) (dstV (A1 m ρ c)) from
        (h4_agg (W8 m ρ c)).trans (by rw [st_v1_8 m ρ c, st_v3_8 m ρ c]),
      show V9 m ρ c main_v62 = W8 m ρ c (Proc.devRef .tc main_v62) from keep4 (W8 m ρ c) main_v62 (by decide)]
    exact aggOf_apply _ _ i q
  case hb =>
    intro q
    rw [show V9 m ρ c main_v75 = _ from h4_b (W8 m ρ c), st_arg4_8 m ρ c]
    exact bslice_apply (A4 m ρ c) 3 _ rfl _ q
  case hW =>
    intro q k
    rw [show V9 m ρ c main_v77 = _ from h4_w (W8 m ρ c), st_arg3_8 m ρ c]
    exact wslice_apply (A3 m ρ c) 4 _ rfl _ q k

/-! ## Stage 5: the last layer combined -/

theorem h5_val (n : Fin 50000) (k : Fin 64) :
    (W12 m ρ c (Proc.devRef .tc main_v92) : Arr sNC) (ix2 n k)
      = netRef (sF m ρ c) (dF m ρ c) (xF m ρ c) (WsF m ρ c) (bsF m ρ c) n k := by
  have e : W12 m ρ c (Proc.devRef .tc main_v92)
      = combine (V11 m ρ c main_v88) (V11 m ρ c main_v78) (V11 m ρ c main_v11) (V11 m ρ c main_v91) :=
    (W12_arr m ρ c 4).trans (region5 (V11 m ρ) c)
  rw [e]
  unfold netRef
  refine combine_step (sF m ρ c) (dF m ρ c) (Hf4 m ρ c) (WsF m ρ c 4) (bsF m ρ c 4) _ _ _ _ ?hd ?hhs ?hagg ?hb n k
  case hd =>
    intro n
    rw [show V11 m ρ c main_v11 = _ from st_v11_11 m ρ c]
    exact dcol_apply _ n
  case hhs =>
    intro n k
    rw [show V11 m ρ c main_v78 = W10 m ρ c (Proc.devRef .tc main_v78) from keep5 (W10 m ρ c) main_v78 (by decide)]
    exact hs4_val m ρ c n k
  case hagg =>
    intro i q
    rw [show V11 m ρ c main_v88 = aggOf (W10 m ρ c (Proc.devRef .tc main_v78)) (srcV (A1 m ρ c)) (dstV (A1 m ρ c)) from
        (h5_agg (W10 m ρ c)).trans (by rw [st_v1_10 m ρ c, st_v3_10 m ρ c]),
      show V11 m ρ c main_v78 = W10 m ρ c (Proc.devRef .tc main_v78) from keep5 (W10 m ρ c) main_v78 (by decide)]
    exact aggOf_apply _ _ i q
  case hb =>
    intro q
    rw [show V11 m ρ c main_v91 = _ from h5_b (W10 m ρ c), st_arg4_10 m ρ c]
    exact bslice_apply (A4 m ρ c) 4 _ rfl _ q

/-! ## The pooled features, the read-out, the result -/

theorem pooled_val (g : Fin 512) (k : Fin 64) :
    (W13 m ρ c (Proc.devRef .tc main_v95) : Arr sGC) (ix2 g k)
      = Cert.Gcn.pool (fun n => (A2 m ρ c : IVec sN 32) (ix1 n))
          (netRef (sF m ρ c) (dF m ρ c) (xF m ρ c) (WsF m ρ c) (bsF m ρ c)) g k := by
  rw [show W13 m ρ c (Proc.devRef .tc main_v95) = _ from h6_pool (W12 m ρ c), st_arg2_12 m ρ c, pool_read]
  unfold Cert.Gcn.pool
  refine congrArg (fun z : EReal => 0 + z) ?_
  exact Finset.sum_congr rfl fun n _ => h5_val m ρ c n k

/-- THE KERNEL'S RESULT: the last boundary's contents of the result buffer are the network of the arguments. -/
theorem result_val : (W14 m ρ c (Proc.devRef .tc main_v98) : Arr sG1)
    = netOut (A0 m ρ c) (A1 m ρ c) (A2 m ρ c) (A3 m ρ c) (A4 m ρ c) (A5 m ρ c) (A6 m ρ c) (A7 m ρ c) (A8 m ρ c) := by
  have e : W14 m ρ c (Proc.devRef .tc main_v98)
      = mlp (V13 m ρ c main_v95) (V13 m ρ c main_arg5) (V13 m ρ c main_v96) (V13 m ρ c main_arg7) (V13 m ρ c main_v97) :=
    (W14_arr m ρ c 5).trans (region6 (V13 m ρ) c)
  rw [e]
  funext j
  unfold netOut
  refine mlp_step _ _ _ _ _ _ _ _ _ _ ?hp ?hw1 ?hb1 ?hw2 ?hb2 j
  case hp => exact pooled_val m ρ c
  case hw1 =>
    intro r q
    rw [show V13 m ρ c main_arg5 = A5 m ρ c from st_arg5_13 m ρ c]
  case hb1 =>
    intro q
    rw [show V13 m ρ c main_v96 = _ from h6_b1 (W12 m ρ c), st_arg6_12 m ρ c]
    exact b1row_apply _ q
  case hw2 =>
    intro q
    rw [show V13 m ρ c main_arg7 = A7 m ρ c from st_arg7_13 m ρ c]
  case hb2 =>
    rw [show V13 m ρ c main_v97 = _ from h6_b2 (W12 m ρ c), st_arg8_12 m ρ c]
    exact b2cell_apply _

end Cert.KernelIdeal.Hand

end
-- ==== Proof.RefStages.lean ====
/-
  The reference program's stages as terms of their inputs: the edge words, the normalisation factors, one
  graph-convolution layer, the positive part, the pooling and the read-out, each the composition of the program's
  own operations between two cut points; and the whole result as their composition.
-/
import proofs.«143766_j20229295964422_2_alg».proof.Proof.Gen.ReferenceIdeal

noncomputable section

namespace Cert.ReferenceIdeal.Hand

open Cert.ReferenceIdeal Cert.ReferenceIdeal.Gen Idealize.ShloMosaic

variable {F : FTy → Type} [FloatOps F]

/-- The source words of the edges: row 0 of the edge array, as a vector. -/
def tV1 (a1 : (⟨S2x800000, .i32⟩ : BufTy).Contents (Elt F)) : (⟨S800000, .i32⟩ : BufTy).Contents (Elt F) :=
  (shapeCast _ (((extractStridedSlice S1x800000 ![0, 0] · slices_S2x800000_S1x800000_0_0) : (⟨S2x800000, .i32⟩ : BufTy).Contents (Elt F) → (⟨S1x800000, .i32⟩ : BufTy).Contents (Elt F)) a1) shapeCasts_S1x800000_S800000)

/-- The destination words of the edges: row 1 of the edge array, as a vector. -/
def tV3 (a1 : (⟨S2x800000, .i32⟩ : BufTy).Contents (Elt F)) : (⟨S800000, .i32⟩ : BufTy).Contents (Elt F) :=
  (shapeCast _ (((extractStridedSlice S1x800000 ![1, 0] · slices_S2x800000_S1x800000_1_0) : (⟨S2x800000, .i32⟩ : BufTy).Contents (Elt F) → (⟨S1x800000, .i32⟩ : BufTy).Contents (Elt F)) a1) shapeCasts_S1x800000_S800000)

/-- The nodes' normalisation factors: the reciprocal square root of one plus the number of edges into each node. -/
def tV10 (v3 : (⟨S800000, .i32⟩ : BufTy).Contents (Elt F)) : (⟨S50000, .f32⟩ : BufTy).Contents (Elt F) :=
  ((Host.rsqrt : (⟨S50000, .f32⟩ : BufTy).Contents (Elt F) → (⟨S50000, .f32⟩ : BufTy).Contents (Elt F)) ((addf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) v3) ((broadcastInDim S800000 ![] bcast_S_S800000 : (⟨S_, .f32⟩ : BufTy).Contents (Elt F) → (⟨S800000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32))))

/-- The edges' factors: the factor of the source node times the factor of the destination node, each index word wrapped and clamped. -/
def tV25 (v1 : (⟨S800000, .i32⟩ : BufTy).Contents (Elt F)) (v3 : (⟨S800000, .i32⟩ : BufTy).Contents (Elt F)) (v10 : (⟨S50000, .f32⟩ : BufTy).Contents (Elt F)) : (⟨S800000, .f32⟩ : BufTy).Contents (Elt F) :=
  ((mulf : (⟨S800000, .f32⟩ : BufTy).Contents (Elt F) → (⟨S800000, .f32⟩ : BufTy).Contents (Elt F) → (⟨S800000, .f32⟩ : BufTy).Contents (Elt F)) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) v10 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) v1 ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) v1 ((broadcastInDim S800000 ![] bcast_S_S800000 : (⟨S_, .i32⟩ : BufTy).Contents (Elt F) → (⟨S800000, .i32⟩ : BufTy).Contents (Elt F)) (constantI S_ 32 50000#32))) v1))) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) v10 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) v3 ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) v3 ((broadcastInDim S800000 ![] bcast_S_S800000 : (⟨S_, .i32⟩ : BufTy).Contents (Elt F) → (⟨S800000, .i32⟩ : BufTy).Contents (Elt F)) (constantI S_ 32 50000#32))) v3))))

/-- The nodes' own factors: the square of the normalisation factor. -/
def tV26 (v10 : (⟨S50000, .f32⟩ : BufTy).Contents (Elt F)) : (⟨S50000, .f32⟩ : BufTy).Contents (Elt F) :=
  ((mulf : (⟨S50000, .f32⟩ : BufTy).Contents (Elt F) → (⟨S50000, .f32⟩ : BufTy).Contents (Elt F) → (⟨S50000, .f32⟩ : BufTy).Contents (Elt F)) v10 v10)

/-- Weight matrix 0 of the stack. -/
def tW0 (a3 : (⟨S5x64x64, .f32⟩ : BufTy).Contents (Elt F)) : (⟨S64x64, .f32⟩ : BufTy).Contents (Elt F) :=
  (shapeCast _ (((extractStridedSlice S1x64x64 ![0, 0, 0] · slices_S5x64x64_S1x64x64_0_0_0) : (⟨S5x64x64, .f32⟩ : BufTy).Contents (Elt F) → (⟨S1x64x64, .f32⟩ : BufTy).Contents (Elt F)) a3) shapeCasts_S1x64x64_S64x64)

/-- Bias row 0 of the stack. -/
def tB0 (a4 : (⟨S5x64, .f32⟩ : BufTy).Contents (Elt F)) : (⟨S64, .f32⟩ : BufTy).Contents (Elt F) :=
  (shapeCast _ (((extractStridedSlice S1x64 ![0, 0] · slices_S5x64_S1x64_0_0) : (⟨S5x64, .f32⟩ : BufTy).Contents (Elt F) → (⟨S1x64, .f32⟩ : BufTy).Contents (Elt F)) a4) shapeCasts_S1x64_S64)

/-- Weight matrix 1 of the stack. -/
def tW1 (a3 : (⟨S5x64x64, .f32⟩ : BufTy).Contents (Elt F)) : (⟨S64x64, .f32⟩ : BufTy).Contents (Elt F) :=
  (shapeCast _ (((extractStridedSlice S1x64x64 ![1, 0, 0] · slices_S5x64x64_S1x64x64_1_0_0) : (⟨S5x64x64, .f32⟩ : BufTy).Contents (Elt F) → (⟨S1x64x64, .f32⟩ : BufTy).Contents (Elt F)) a3) shapeCasts_S1x64x64_S64x64)

/-- Bias row 1 of the stack. -/
def tB1 (a4 : (⟨S5x64, .f32⟩ : BufTy).Contents (Elt F)) : (⟨S64, .f32⟩ : BufTy).Contents (Elt F) :=
  (shapeCast _ (((extractStridedSlice S1x64 ![1, 0] · slices_S5x64_S1x64_1_0) : (⟨S5x64, .f32⟩ : BufTy).Contents (Elt F) → (⟨S1x64, .f32⟩ : BufTy).Contents (Elt F)) a4) shapeCasts_S1x64_S64)

/-- Weight matrix 2 of the stack. -/
def tW2 (a3 : (⟨S5x64x64, .f32⟩ : BufTy).Contents (Elt F)) : (⟨S64x64, .f32⟩ : BufTy).Contents (Elt F) :=
  (shapeCast _ (((extractStridedSlice S1x64x64 ![2, 0, 0] · slices_S5x64x64_S1x64x64_2_0_0) : (⟨S5x64x64, .f32⟩ : BufTy).Contents (Elt F) → (⟨S1x64x64, .f32⟩ : BufTy).Contents (Elt F)) a3) shapeCasts_S1x64x64_S64x64)

/-- Bias row 2 of the stack. -/
def tB2 (a4 : (⟨S5x64, .f32⟩ : BufTy).Contents (Elt F)) : (⟨S64, .f32⟩ : BufTy).Contents (Elt F) :=
  (shapeCast _ (((extractStridedSlice S1x64 ![2, 0] · slices_S5x64_S1x64_2_0) : (⟨S5x64, .f32⟩ : BufTy).Contents (Elt F) → (⟨S1x64, .f32⟩ : BufTy).Contents (Elt F)) a4) shapeCasts_S1x64_S64)

/-- Weight matrix 3 of the stack. -/
def tW3 (a3 : (⟨S5x64x64, .f32⟩ : BufTy).Contents (Elt F)) : (⟨S64x64, .f32⟩ : BufTy).Contents (Elt F) :=
  (shapeCast _ (((extractStridedSlice S1x64x64 ![3, 0, 0] · slices_S5x64x64_S1x64x64_3_0_0) : (⟨S5x64x64, .f32⟩ : BufTy).Contents (Elt F) → (⟨S1x64x64, .f32⟩ : BufTy).Contents (Elt F)) a3) shapeCasts_S1x64x64_S64x64)

/-- Bias row 3 of the stack. -/
def tB3 (a4 : (⟨S5x64, .f32⟩ : BufTy).Contents (Elt F)) : (⟨S64, .f32⟩ : BufTy).Contents (Elt F) :=
  (shapeCast _ (((extractStridedSlice S1x64 ![3, 0] · slices_S5x64_S1x64_3_0) : (⟨S5x64, .f32⟩ : BufTy).Contents (Elt F) → (⟨S1x64, .f32⟩ : BufTy).Contents (Elt F)) a4) shapeCasts_S1x64_S64)

/-- Weight matrix 4 of the stack. -/
def tW4 (a3 : (⟨S5x64x64, .f32⟩ : BufTy).Contents (Elt F)) : (⟨S64x64, .f32⟩ : BufTy).Contents (Elt F) :=
  (shapeCast _ (((extractStridedSlice S1x64x64 ![4, 0, 0] · slices_S5x64x64_S1x64x64_4_0_0) : (⟨S5x64x64, .f32⟩ : BufTy).Contents (Elt F) → (⟨S1x64x64, .f32⟩ : BufTy).Contents (Elt F)) a3) shapeCasts_S1x64x64_S64x64)

/-- Bias row 4 of the stack. -/
def tB4 (a4 : (⟨S5x64, .f32⟩ : BufTy).Contents (Elt F)) : (⟨S64, .f32⟩ : BufTy).Contents (Elt F) :=
  (shapeCast _ (((extractStridedSlice S1x64 ![4, 0] · slices_S5x64_S1x64_4_0) : (⟨S5x64, .f32⟩ : BufTy).Contents (Elt F) → (⟨S1x64, .f32⟩ : BufTy).Contents (Elt F)) a4) shapeCasts_S1x64_S64)

/-- One graph-convolution layer: project the features, gather the projected rows of the edges' sources, scale them by the edges' factors, add them up per destination node, add the node's own scaled projection and the bias. -/
def layerT (h : (⟨S50000x64, .f32⟩ : BufTy).Contents (Elt F)) (Wk : (⟨S64x64, .f32⟩ : BufTy).Contents (Elt F)) (bk : (⟨S64, .f32⟩ : BufTy).Contents (Elt F)) (v1 : (⟨S800000, .i32⟩ : BufTy).Contents (Elt F)) (v3 : (⟨S800000, .i32⟩ : BufTy).Contents (Elt F)) (v25 : (⟨S800000, .f32⟩ : BufTy).Contents (Elt F)) (v26 : (⟨S50000, .f32⟩ : BufTy).Contents (Elt F)) : (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) v3) ((mulf : (⟨S800000x64, .f32⟩ : BufTy).Contents (Elt F) → (⟨S800000x64, .f32⟩ : BufTy).Contents (Elt F) → (⟨S800000x64, .f32⟩ : BufTy).Contents (Elt F)) (((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) h Wk) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) v1 ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) v1 ((broadcastInDim S800000 ![] bcast_S_S800000 : (⟨S_, .i32⟩ : BufTy).Contents (Elt F) → (⟨S800000, .i32⟩ : BufTy).Contents (Elt F)) (constantI S_ 32 50000#32))) v1))) ((broadcastInDim S800000x64 ![0, 1] bcast_S800000x1_S800000x64_0_1 : (⟨S800000x1, .f32⟩ : BufTy).Contents (Elt F) → (⟨S800000x64, .f32⟩ : BufTy).Contents (Elt F)) ((broadcastInDim S800000x1 ![0] bcast_S800000_S800000x1_0 : (⟨S800000, .f32⟩ : BufTy).Contents (Elt F) → (⟨S800000x1, .f32⟩ : BufTy).Contents (Elt F)) v25)))) ((mulf : (⟨S50000x64, .f32⟩ : BufTy).Contents (Elt F) → (⟨S50000x64, .f32⟩ : BufTy).Contents (Elt F) → (⟨S50000x64, .f32⟩ : BufTy).Contents (Elt F)) (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) h Wk) ((broadcastInDim S50000x64 ![0, 1] bcast_S50000x1_S50000x64_0_1 : (⟨S50000x1, .f32⟩ : BufTy).Contents (Elt F) → (⟨S50000x64, .f32⟩ : BufTy).Contents (Elt F)) ((broadcastInDim S50000x1 ![0] bcast_S50000_S50000x1_0 : (⟨S50000, .f32⟩ : BufTy).Contents (Elt F) → (⟨S50000x1, .f32⟩ : BufTy).Contents (Elt F)) v26)))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) bk)))

/-- The positive part of the node features. -/
def reluT (x : (⟨S50000x64, .f32⟩ : BufTy).Contents (Elt F)) : (⟨S50000x64, .f32⟩ : BufTy).Contents (Elt F) :=
  (maximumf x ((broadcastInDim S50000x64 ![] bcast_S_S50000x64) (constant S_ .f32 0x00000000#32)))

/-- The per-graph sums of the node features, through the hidden layer of the read-out (before its positive part). -/
def tailA (h : (⟨S50000x64, .f32⟩ : BufTy).Contents (Elt F)) (a2 : (⟨S50000, .i32⟩ : BufTy).Contents (Elt F)) (a5 : (⟨S64x64, .f32⟩ : BufTy).Contents (Elt F)) (a6 : (⟨S64, .f32⟩ : BufTy).Contents (Elt F)) : (⟨S512x64, .f32⟩ : BufTy).Contents (Elt F) :=
  ((addf : (⟨S512x64, .f32⟩ : BufTy).Contents (Elt F) → (⟨S512x64, .f32⟩ : BufTy).Contents (Elt F) → (⟨S512x64, .f32⟩ : BufTy).Contents (Elt F)) (((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)) (((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) a2) h) a5) ((broadcastInDim S512x64 ![0, 1] bcast_S1x64_S512x64_0_1 : (⟨S1x64, .f32⟩ : BufTy).Contents (Elt F) → (⟨S512x64, .f32⟩ : BufTy).Contents (Elt F)) ((broadcastInDim S1x64 ![1] bcast_S64_S1x64_1 : (⟨S64, .f32⟩ : BufTy).Contents (Elt F) → (⟨S1x64, .f32⟩ : BufTy).Contents (Elt F)) a6)))

/-- The positive part of the per-graph hidden features. -/
def reluG (x : (⟨S512x64, .f32⟩ : BufTy).Contents (Elt F)) : (⟨S512x64, .f32⟩ : BufTy).Contents (Elt F) :=
  (maximumf x ((broadcastInDim S512x64 ![] bcast_S_S512x64) (constant S_ .f32 0x00000000#32)))

/-- The output column of the read-out. -/
def tailB (x : (⟨S512x64, .f32⟩ : BufTy).Contents (Elt F)) (a7 : (⟨S64x1, .f32⟩ : BufTy).Contents (Elt F)) (a8 : (⟨S1, .f32⟩ : BufTy).Contents (Elt F)) : (⟨S512x1, .f32⟩ : BufTy).Contents (Elt F) :=
  ((addf : (⟨S512x1, .f32⟩ : BufTy).Contents (Elt F) → (⟨S512x1, .f32⟩ : BufTy).Contents (Elt F) → (⟨S512x1, .f32⟩ : BufTy).Contents (Elt F)) (((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)) x a7) ((broadcastInDim S512x1 ![0, 1] bcast_S1x1_S512x1_0_1 : (⟨S1x1, .f32⟩ : BufTy).Contents (Elt F) → (⟨S512x1, .f32⟩ : BufTy).Contents (Elt F)) ((broadcastInDim S1x1 ![1] bcast_S1_S1x1_1 : (⟨S1, .f32⟩ : BufTy).Contents (Elt F) → (⟨S1x1, .f32⟩ : BufTy).Contents (Elt F)) a8)))

/-- The edges' factors from the edge array. -/
def preV25 (a1 : (⟨S2x800000, .i32⟩ : BufTy).Contents (Elt F)) : (⟨S800000, .f32⟩ : BufTy).Contents (Elt F) := tV25 (tV1 a1) (tV3 a1) (tV10 (tV3 a1))
/-- The nodes' own factors from the edge array. -/
def preV26 (a1 : (⟨S2x800000, .i32⟩ : BufTy).Contents (Elt F)) : (⟨S50000, .f32⟩ : BufTy).Contents (Elt F) := tV26 (tV10 (tV3 a1))
/-- The node features after the five layers. -/
def featT (a0 : (⟨S50000x64, .f32⟩ : BufTy).Contents (Elt F)) (a1 : (⟨S2x800000, .i32⟩ : BufTy).Contents (Elt F)) (a3 : (⟨S5x64x64, .f32⟩ : BufTy).Contents (Elt F)) (a4 : (⟨S5x64, .f32⟩ : BufTy).Contents (Elt F)) : (⟨S50000x64, .f32⟩ : BufTy).Contents (Elt F) :=
  (layerT (reluT (layerT (reluT (layerT (reluT (layerT (reluT (layerT a0 (tW0 a3) (tB0 a4) (tV1 a1) (tV3 a1) (preV25 a1) (preV26 a1))) (tW1 a3) (tB1 a4) (tV1 a1) (tV3 a1) (preV25 a1) (preV26 a1))) (tW2 a3) (tB2 a4) (tV1 a1) (tV3 a1) (preV25 a1) (preV26 a1))) (tW3 a3) (tB3 a4) (tV1 a1) (tV3 a1) (preV25 a1) (preV26 a1))) (tW4 a3) (tB4 a4) (tV1 a1) (tV3 a1) (preV25 a1) (preV26 a1))
/-- The whole program's result as a term of its nine arguments. -/
def netT (a0 : (⟨S50000x64, .f32⟩ : BufTy).Contents (Elt F)) (a1 : (⟨S2x800000, .i32⟩ : BufTy).Contents (Elt F)) (a2 : (⟨S50000, .i32⟩ : BufTy).Contents (Elt F)) (a3 : (⟨S5x64x64, .f32⟩ : BufTy).Contents (Elt F)) (a4 : (⟨S5x64, .f32⟩ : BufTy).Contents (Elt F))
    (a5 : (⟨S64x64, .f32⟩ : BufTy).Contents (Elt F)) (a6 : (⟨S64, .f32⟩ : BufTy).Contents (Elt F)) (a7 : (⟨S64x1, .f32⟩ : BufTy).Contents (Elt F)) (a8 : (⟨S1, .f32⟩ : BufTy).Contents (Elt F)) : (⟨S512x1, .f32⟩ : BufTy).Contents (Elt F) :=
  tailB (reluG (tailA (featT a0 a1 a3 a4) a2 a5 a6)) a7 a8

end Cert.ReferenceIdeal.Hand

end
-- ==== Proof.LibAfterAppend.lean ====
/-
  Buffer contents after two lists of host operations run one after the other.
-/
import Idealize.ShloMosaic.Lib.StableHlo.Run

namespace Idealize.ShloMosaic.StableHlo

variable {τ : Topo} {sig : RefSig} {Val : EltTy → Type}

/-- The contents after a concatenation of two operation lists are the contents after the second list, started from the
    contents after the first: the fold over the operations splits at the seam. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.RefSeg.lean ====
/-
  The reference program's operation list cut into stretches — the prelude, the five layers, the positive parts
  between them, the pooling and the read-out — and, stretch by stretch over an arbitrary valuation, what the buffers
  that matter hold afterwards: each written buffer at its stage's term of the stretch's inputs, every buffer the
  stretch does not write unchanged. Chained, the result buffer ends at the whole composition of the nine arguments.
-/
import proofs.«143766_j20229295964422_2_alg».proof.Proof.RefRun
import proofs.«143766_j20229295964422_2_alg».proof.Proof.RefStages
import proofs.«143766_j20229295964422_2_alg».proof.Proof.LibAfterAppend

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 0: the edge words, the normalisation factors and the edges' and nodes' factors. -/
def seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v17 main_v24 main_v25 (mulf : (⟨S800000, .f32⟩ : BufTy).Contents (Elt F) → (⟨S800000, .f32⟩ : BufTy).Contents (Elt F) → (⟨S800000, .f32⟩ : BufTy).Contents (Elt F)),
    binary main_v10 main_v10 main_v26 (mulf : (⟨S50000, .f32⟩ : BufTy).Contents (Elt F) → (⟨S50000, .f32⟩ : BufTy).Contents (Elt F) → (⟨S50000, .f32⟩ : BufTy).Contents (Elt F)) ]
/-- The buffers stretch 0 writes. -/
abbrev seg0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26]
set_option maxRecDepth 4096 in
theorem seg0_writes : (seg0 : List (HloOp τ sig (Elt F))).Forall fun op => op.writes ⊆ (seg0_W.map (Proc.devRef (τ := τ) .tc)).toFinset := by
  simp only [seg0, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 0 does not write keeps its contents through it. -/
theorem seg0_keep (W : Valuation τ sig (Elt F)) (r : Ref sig .tc) (h : r ∉ seg0_W) :
    after seg0 W (Proc.devRef .tc r) = W (Proc.devRef .tc r) :=
  after_of_writes_sub seg0 W seg0_writes h

/-- Stretch 1: layer 0. -/
def seg1 : List (HloOp τ sig (Elt F)) :=
  [ unary main_arg3 main_v27 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v27 main_v28 rfl shapeCasts_S1x64x64_S64x64,
    unary main_arg4 main_v29 ((extractStridedSlice S1x64 ![0, 0] · slices_S5x64_S1x64_0_0) : (⟨S5x64, .f32⟩ : BufTy).Contents (Elt F) → (⟨S1x64, .f32⟩ : BufTy).Contents (Elt F)),
    reshape main_v29 main_v30 rfl shapeCasts_S1x64_S64,
    binary main_arg0 main_v28 main_v31 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_5 (constantI S_ 32 0#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v25 main_v39 (broadcastInDim S800000x1 ![0] bcast_S800000_S800000x1_0 : (⟨S800000, .f32⟩ : BufTy).Contents (Elt F) → (⟨S800000x1, .f32⟩ : BufTy).Contents (Elt F)),
    unary main_v39 main_v40 (broadcastInDim S800000x64 ![0, 1] bcast_S800000x1_S800000x64_0_1 : (⟨S800000x1, .f32⟩ : BufTy).Contents (Elt F) → (⟨S800000x64, .f32⟩ : BufTy).Contents (Elt F)),
    binary main_v38 main_v40 main_v41 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v42 (broadcastInDim S50000x64 ![] bcast_S_S50000x64 : (⟨S_, .f32⟩ : BufTy).Contents (Elt F) → (⟨S50000x64, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v26 main_v45 (broadcastInDim S50000x1 ![0] bcast_S50000_S50000x1_0 : (⟨S50000, .f32⟩ : BufTy).Contents (Elt F) → (⟨S50000x1, .f32⟩ : BufTy).Contents (Elt F)),
    unary main_v45 main_v46 (broadcastInDim S50000x64 ![0, 1] bcast_S50000x1_S50000x64_0_1 : (⟨S50000x1, .f32⟩ : BufTy).Contents (Elt F) → (⟨S50000x64, .f32⟩ : BufTy).Contents (Elt F)),
    binary main_v31 main_v46 main_v47 (mulf : (⟨S50000x64, .f32⟩ : BufTy).Contents (Elt F) → (⟨S50000x64, .f32⟩ : BufTy).Contents (Elt F) → (⟨S50000x64, .f32⟩ : BufTy).Contents (Elt F)),
    binary main_v44 main_v47 main_v48 (addf : (⟨S50000x64, .f32⟩ : BufTy).Contents (Elt F) → (⟨S50000x64, .f32⟩ : BufTy).Contents (Elt F) → (⟨S50000x64, .f32⟩ : BufTy).Contents (Elt F)),
    unary main_v30 main_v49 (broadcastInDim S1x64 ![1] bcast_S64_S1x64_1 : (⟨S64, .f32⟩ : BufTy).Contents (Elt F) → (⟨S1x64, .f32⟩ : BufTy).Contents (Elt F)),
    unary main_v49 main_v50 (broadcastInDim S50000x64 ![0, 1] bcast_S1x64_S50000x64_0_1 : (⟨S1x64, .f32⟩ : BufTy).Contents (Elt F) → (⟨S50000x64, .f32⟩ : BufTy).Contents (Elt F)),
    binary main_v48 main_v50 main_v51 (addf : (⟨S50000x64, .f32⟩ : BufTy).Contents (Elt F) → (⟨S50000x64, .f32⟩ : BufTy).Contents (Elt F) → (⟨S50000x64, .f32⟩ : BufTy).Contents (Elt F)) ]
/-- The buffers stretch 1 writes. -/
abbrev seg1_W : List (Ref sig .tc) := [main_v27, main_v28, main_v29, main_v30, main_v31, main_c_5, main_v32, main_v33, main_c_6, main_v34, main_v35, main_v36, main_v37, main_v38, main_v39, main_v40, main_v41, main_cst_7, main_v42, main_v43, main_v44, main_v45, main_v46, main_v47, main_v48, main_v49, main_v50, main_v51]
set_option maxRecDepth 4096 in
theorem seg1_writes : (seg1 : List (HloOp τ sig (Elt F))).Forall fun op => op.writes ⊆ (seg1_W.map (Proc.devRef (τ := τ) .tc)).toFinset := by
  simp only [seg1, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 1 does not write keeps its contents through it. -/
theorem seg1_keep (W : Valuation τ sig (Elt F)) (r : Ref sig .tc) (h : r ∉ seg1_W) :
    after seg1 W (Proc.devRef .tc r) = W (Proc.devRef .tc r) :=
  after_of_writes_sub seg1 W seg1_writes h

/-- Stretch 2: the positive part after layer 0. -/
def seg2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v51) (TRef.of (T := ⟨S50000x64, .f32⟩) main_call0_v0) (TRef.of (T := ⟨S50000x64, .f32⟩) main_v52) maximumf ]
/-- The buffers stretch 2 writes. -/
abbrev seg2_W : List (Ref sig .tc) := [main_call0_cst, main_call0_v0, main_v52]
set_option maxRecDepth 4096 in
theorem seg2_writes : (seg2 : List (HloOp τ sig (Elt F))).Forall fun op => op.writes ⊆ (seg2_W.map (Proc.devRef (τ := τ) .tc)).toFinset := by
  simp only [seg2, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 2 does not write keeps its contents through it. -/
theorem seg2_keep (W : Valuation τ sig (Elt F)) (r : Ref sig .tc) (h : r ∉ seg2_W) :
    after seg2 W (Proc.devRef .tc r) = W (Proc.devRef .tc r) :=
  after_of_writes_sub seg2 W seg2_writes h

/-- Stretch 3: layer 1. -/
def seg3 : List (HloOp τ sig (Elt F)) :=
  [ unary main_arg3 main_v53 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v53 main_v54 rfl shapeCasts_S1x64x64_S64x64,
    unary main_arg4 main_v55 ((extractStridedSlice S1x64 ![1, 0] · slices_S5x64_S1x64_1_0) : (⟨S5x64, .f32⟩ : BufTy).Contents (Elt F) → (⟨S1x64, .f32⟩ : BufTy).Contents (Elt F)),
    reshape main_v55 main_v56 rfl shapeCasts_S1x64_S64,
    binary main_v52 main_v54 main_v57 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_8 (constantI S_ 32 0#32),
    unary main_c_8 main_v58 (broadcastInDim S800000 ![] bcast_S_S800000 : (⟨S_, .i32⟩ : BufTy).Contents (Elt F) → (⟨S800000, .i32⟩ : BufTy).Contents (Elt F)),
    binary main_v1 main_v58 main_v59 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v60 (broadcastInDim S800000 ![] bcast_S_S800000 : (⟨S_, .i32⟩ : BufTy).Contents (Elt F) → (⟨S800000, .i32⟩ : BufTy).Contents (Elt F)),
    binary main_v1 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v25 main_v65 (broadcastInDim S800000x1 ![0] bcast_S800000_S800000x1_0 : (⟨S800000, .f32⟩ : BufTy).Contents (Elt F) → (⟨S800000x1, .f32⟩ : BufTy).Contents (Elt F)),
    unary main_v65 main_v66 (broadcastInDim S800000x64 ![0, 1] bcast_S800000x1_S800000x64_0_1 : (⟨S800000x1, .f32⟩ : BufTy).Contents (Elt F) → (⟨S800000x64, .f32⟩ : BufTy).Contents (Elt F)),
    binary main_v64 main_v66 main_v67 (mulf : (⟨S800000x64, .f32⟩ : BufTy).Contents (Elt F) → (⟨S800000x64, .f32⟩ : BufTy).Contents (Elt F) → (⟨S800000x64, .f32⟩ : BufTy).Contents (Elt F)),
    nullary main_cst_10 (constant S_ .f32 0x00000000#32),
    unary main_cst_10 main_v68 (broadcastInDim S50000x64 ![] bcast_S_S50000x64 : (⟨S_, .f32⟩ : BufTy).Contents (Elt F) → (⟨S50000x64, .f32⟩ : BufTy).Contents (Elt F)),
    unary main_v3 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v26 main_v71 (broadcastInDim S50000x1 ![0] bcast_S50000_S50000x1_0 : (⟨S50000, .f32⟩ : BufTy).Contents (Elt F) → (⟨S50000x1, .f32⟩ : BufTy).Contents (Elt F)),
    unary main_v71 main_v72 (broadcastInDim S50000x64 ![0, 1] bcast_S50000x1_S50000x64_0_1 : (⟨S50000x1, .f32⟩ : BufTy).Contents (Elt F) → (⟨S50000x64, .f32⟩ : BufTy).Contents (Elt F)),
    binary main_v57 main_v72 main_v73 (mulf : (⟨S50000x64, .f32⟩ : BufTy).Contents (Elt F) → (⟨S50000x64, .f32⟩ : BufTy).Contents (Elt F) → (⟨S50000x64, .f32⟩ : BufTy).Contents (Elt F)),
    binary main_v70 main_v73 main_v74 (addf : (⟨S50000x64, .f32⟩ : BufTy).Contents (Elt F) → (⟨S50000x64, .f32⟩ : BufTy).Contents (Elt F) → (⟨S50000x64, .f32⟩ : BufTy).Contents (Elt F)),
    unary main_v56 main_v75 (broadcastInDim S1x64 ![1] bcast_S64_S1x64_1 : (⟨S64, .f32⟩ : BufTy).Contents (Elt F) → (⟨S1x64, .f32⟩ : BufTy).Contents (Elt F)),
    unary main_v75 main_v76 (broadcastInDim S50000x64 ![0, 1] bcast_S1x64_S50000x64_0_1 : (⟨S1x64, .f32⟩ : BufTy).Contents (Elt F) → (⟨S50000x64, .f32⟩ : BufTy).Contents (Elt F)),
    binary main_v74 main_v76 main_v77 (addf : (⟨S50000x64, .f32⟩ : BufTy).Contents (Elt F) → (⟨S50000x64, .f32⟩ : BufTy).Contents (Elt F) → (⟨S50000x64, .f32⟩ : BufTy).Contents (Elt F)) ]
/-- The buffers stretch 3 writes. -/
abbrev seg3_W : List (Ref sig .tc) := [main_v53, main_v54, main_v55, main_v56, main_v57, main_c_8, main_v58, main_v59, main_c_9, main_v60, main_v61, main_v62, main_v63, main_v64, main_v65, main_v66, main_v67, main_cst_10, main_v68, main_v69, main_v70, main_v71, main_v72, main_v73, main_v74, main_v75, main_v76, main_v77]
set_option maxRecDepth 4096 in
theorem seg3_writes : (seg3 : List (HloOp τ sig (Elt F))).Forall fun op => op.writes ⊆ (seg3_W.map (Proc.devRef (τ := τ) .tc)).toFinset := by
  simp only [seg3, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 3 does not write keeps its contents through it. -/
theorem seg3_keep (W : Valuation τ sig (Elt F)) (r : Ref sig .tc) (h : r ∉ seg3_W) :
    after seg3 W (Proc.devRef .tc r) = W (Proc.devRef .tc r) :=
  after_of_writes_sub seg3 W seg3_writes h

/-- Stretch 4: the positive part after layer 1. -/
def seg4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v77) (TRef.of (T := ⟨S50000x64, .f32⟩) main_call1_v0) (TRef.of (T := ⟨S50000x64, .f32⟩) main_v78) maximumf ]
/-- The buffers stretch 4 writes. -/
abbrev seg4_W : List (Ref sig .tc) := [main_call1_cst, main_call1_v0, main_v78]
set_option maxRecDepth 4096 in
theorem seg4_writes : (seg4 : List (HloOp τ sig (Elt F))).Forall fun op => op.writes ⊆ (seg4_W.map (Proc.devRef (τ := τ) .tc)).toFinset := by
  simp only [seg4, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 4 does not write keeps its contents through it. -/
theorem seg4_keep (W : Valuation τ sig (Elt F)) (r : Ref sig .tc) (h : r ∉ seg4_W) :
    after seg4 W (Proc.devRef .tc r) = W (Proc.devRef .tc r) :=
  after_of_writes_sub seg4 W seg4_writes h

/-- Stretch 5: layer 2. -/
def seg5 : List (HloOp τ sig (Elt F)) :=
  [ unary main_arg3 main_v79 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v79 main_v80 rfl shapeCasts_S1x64x64_S64x64,
    unary main_arg4 main_v81 ((extractStridedSlice S1x64 ![2, 0] · slices_S5x64_S1x64_2_0) : (⟨S5x64, .f32⟩ : BufTy).Contents (Elt F) → (⟨S1x64, .f32⟩ : BufTy).Contents (Elt F)),
    reshape main_v81 main_v82 rfl shapeCasts_S1x64_S64,
    binary main_v78 main_v80 main_v83 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_11 (constantI S_ 32 0#32),
    unary main_c_11 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v25 main_v91 (broadcastInDim S800000x1 ![0] bcast_S800000_S800000x1_0 : (⟨S800000, .f32⟩ : BufTy).Contents (Elt F) → (⟨S800000x1, .f32⟩ : BufTy).Contents (Elt F)),
    unary main_v91 main_v92 (broadcastInDim S800000x64 ![0, 1] bcast_S800000x1_S800000x64_0_1 : (⟨S800000x1, .f32⟩ : BufTy).Contents (Elt F) → (⟨S800000x64, .f32⟩ : BufTy).Contents (Elt F)),
    binary main_v90 main_v92 main_v93 (mulf : (⟨S800000x64, .f32⟩ : BufTy).Contents (Elt F) → (⟨S800000x64, .f32⟩ : BufTy).Contents (Elt F) → (⟨S800000x64, .f32⟩ : BufTy).Contents (Elt F)),
    nullary main_cst_13 (constant S_ .f32 0x00000000#32),
    unary main_cst_13 main_v94 (broadcastInDim S50000x64 ![] bcast_S_S50000x64 : (⟨S_, .f32⟩ : BufTy).Contents (Elt F) → (⟨S50000x64, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v26 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x64 ![0, 1] bcast_S50000x1_S50000x64_0_1 : (⟨S50000x1, .f32⟩ : BufTy).Contents (Elt F) → (⟨S50000x64, .f32⟩ : BufTy).Contents (Elt F)),
    binary main_v83 main_v98 main_v99 (mulf : (⟨S50000x64, .f32⟩ : BufTy).Contents (Elt F) → (⟨S50000x64, .f32⟩ : BufTy).Contents (Elt F) → (⟨S50000x64, .f32⟩ : BufTy).Contents (Elt F)),
    binary main_v96 main_v99 main_v100 (addf : (⟨S50000x64, .f32⟩ : BufTy).Contents (Elt F) → (⟨S50000x64, .f32⟩ : BufTy).Contents (Elt F) → (⟨S50000x64, .f32⟩ : BufTy).Contents (Elt F)),
    unary main_v82 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v100 main_v102 main_v103 (addf : (⟨S50000x64, .f32⟩ : BufTy).Contents (Elt F) → (⟨S50000x64, .f32⟩ : BufTy).Contents (Elt F) → (⟨S50000x64, .f32⟩ : BufTy).Contents (Elt F)) ]
/-- The buffers stretch 5 writes. -/
abbrev seg5_W : List (Ref sig .tc) := [main_v79, main_v80, main_v81, main_v82, main_v83, main_c_11, main_v84, main_v85, main_c_12, main_v86, main_v87, main_v88, main_v89, main_v90, main_v91, main_v92, main_v93, main_cst_13, main_v94, main_v95, main_v96, main_v97, main_v98, main_v99, main_v100, main_v101, main_v102, main_v103]
set_option maxRecDepth 4096 in
theorem seg5_writes : (seg5 : List (HloOp τ sig (Elt F))).Forall fun op => op.writes ⊆ (seg5_W.map (Proc.devRef (τ := τ) .tc)).toFinset := by
  simp only [seg5, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 5 does not write keeps its contents through it. -/
theorem seg5_keep (W : Valuation τ sig (Elt F)) (r : Ref sig .tc) (h : r ∉ seg5_W) :
    after seg5 W (Proc.devRef .tc r) = W (Proc.devRef .tc r) :=
  after_of_writes_sub seg5 W seg5_writes h

/-- Stretch 6: the positive part after layer 2. -/
def seg6 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v103) (TRef.of (T := ⟨S50000x64, .f32⟩) main_call2_v0) (TRef.of (T := ⟨S50000x64, .f32⟩) main_v104) maximumf ]
/-- The buffers stretch 6 writes. -/
abbrev seg6_W : List (Ref sig .tc) := [main_call2_cst, main_call2_v0, main_v104]
set_option maxRecDepth 4096 in
theorem seg6_writes : (seg6 : List (HloOp τ sig (Elt F))).Forall fun op => op.writes ⊆ (seg6_W.map (Proc.devRef (τ := τ) .tc)).toFinset := by
  simp only [seg6, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 6 does not write keeps its contents through it. -/
theorem seg6_keep (W : Valuation τ sig (Elt F)) (r : Ref sig .tc) (h : r ∉ seg6_W) :
    after seg6 W (Proc.devRef .tc r) = W (Proc.devRef .tc r) :=
  after_of_writes_sub seg6 W seg6_writes h

/-- Stretch 7: layer 3. -/
def seg7 : List (HloOp τ sig (Elt F)) :=
  [ unary main_arg3 main_v105 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v105 main_v106 rfl shapeCasts_S1x64x64_S64x64,
    unary main_arg4 main_v107 ((extractStridedSlice S1x64 ![3, 0] · slices_S5x64_S1x64_3_0) : (⟨S5x64, .f32⟩ : BufTy).Contents (Elt F) → (⟨S1x64, .f32⟩ : BufTy).Contents (Elt F)),
    reshape main_v107 main_v108 rfl shapeCasts_S1x64_S64,
    binary main_v104 main_v106 main_v109 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_14 (constantI S_ 32 0#32),
    unary main_c_14 main_v110 (broadcastInDim S800000 ![] bcast_S_S800000 : (⟨S_, .i32⟩ : BufTy).Contents (Elt F) → (⟨S800000, .i32⟩ : BufTy).Contents (Elt F)),
    binary main_v1 main_v110 main_v111 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v112 (broadcastInDim S800000 ![] bcast_S_S800000 : (⟨S_, .i32⟩ : BufTy).Contents (Elt F) → (⟨S800000, .i32⟩ : BufTy).Contents (Elt F)),
    binary main_v1 main_v112 main_v113 (addi : (⟨S800000, .i32⟩ : BufTy).Contents (Elt F) → (⟨S800000, .i32⟩ : BufTy).Contents (Elt F) → (⟨S800000, .i32⟩ : BufTy).Contents (Elt F)),
    ternary main_v111 main_v113 main_v1 main_v114 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v114 main_v115 (broadcastInDim S800000x1 ![0] bcast_S800000_S800000x1_0 : (⟨S800000, .i32⟩ : BufTy).Contents (Elt F) → (⟨S800000x1, .i32⟩ : BufTy).Contents (Elt F)),
    binary main_v109 main_v115 main_v116 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v25 main_v117 (broadcastInDim S800000x1 ![0] bcast_S800000_S800000x1_0 : (⟨S800000, .f32⟩ : BufTy).Contents (Elt F) → (⟨S800000x1, .f32⟩ : BufTy).Contents (Elt F)),
    unary main_v117 main_v118 (broadcastInDim S800000x64 ![0, 1] bcast_S800000x1_S800000x64_0_1 : (⟨S800000x1, .f32⟩ : BufTy).Contents (Elt F) → (⟨S800000x64, .f32⟩ : BufTy).Contents (Elt F)),
    binary main_v116 main_v118 main_v119 (mulf : (⟨S800000x64, .f32⟩ : BufTy).Contents (Elt F) → (⟨S800000x64, .f32⟩ : BufTy).Contents (Elt F) → (⟨S800000x64, .f32⟩ : BufTy).Contents (Elt F)),
    nullary main_cst_16 (constant S_ .f32 0x00000000#32),
    unary main_cst_16 main_v120 (broadcastInDim S50000x64 ![] bcast_S_S50000x64 : (⟨S_, .f32⟩ : BufTy).Contents (Elt F) → (⟨S50000x64, .f32⟩ : BufTy).Contents (Elt F)),
    unary main_v3 main_v121 (broadcastInDim S800000x1 ![0] bcast_S800000_S800000x1_0 : (⟨S800000, .i32⟩ : BufTy).Contents (Elt F) → (⟨S800000x1, .i32⟩ : BufTy).Contents (Elt F)),
    ternary main_v120 main_v121 main_v119 main_v122 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v26 main_v123 (broadcastInDim S50000x1 ![0] bcast_S50000_S50000x1_0 : (⟨S50000, .f32⟩ : BufTy).Contents (Elt F) → (⟨S50000x1, .f32⟩ : BufTy).Contents (Elt F)),
    unary main_v123 main_v124 (broadcastInDim S50000x64 ![0, 1] bcast_S50000x1_S50000x64_0_1 : (⟨S50000x1, .f32⟩ : BufTy).Contents (Elt F) → (⟨S50000x64, .f32⟩ : BufTy).Contents (Elt F)),
    binary main_v109 main_v124 main_v125 (mulf : (⟨S50000x64, .f32⟩ : BufTy).Contents (Elt F) → (⟨S50000x64, .f32⟩ : BufTy).Contents (Elt F) → (⟨S50000x64, .f32⟩ : BufTy).Contents (Elt F)),
    binary main_v122 main_v125 main_v126 (addf : (⟨S50000x64, .f32⟩ : BufTy).Contents (Elt F) → (⟨S50000x64, .f32⟩ : BufTy).Contents (Elt F) → (⟨S50000x64, .f32⟩ : BufTy).Contents (Elt F)),
    unary main_v108 main_v127 (broadcastInDim S1x64 ![1] bcast_S64_S1x64_1 : (⟨S64, .f32⟩ : BufTy).Contents (Elt F) → (⟨S1x64, .f32⟩ : BufTy).Contents (Elt F)),
    unary main_v127 main_v128 (broadcastInDim S50000x64 ![0, 1] bcast_S1x64_S50000x64_0_1 : (⟨S1x64, .f32⟩ : BufTy).Contents (Elt F) → (⟨S50000x64, .f32⟩ : BufTy).Contents (Elt F)),
    binary main_v126 main_v128 main_v129 (addf : (⟨S50000x64, .f32⟩ : BufTy).Contents (Elt F) → (⟨S50000x64, .f32⟩ : BufTy).Contents (Elt F) → (⟨S50000x64, .f32⟩ : BufTy).Contents (Elt F)) ]
/-- The buffers stretch 7 writes. -/
abbrev seg7_W : List (Ref sig .tc) := [main_v105, main_v106, main_v107, main_v108, main_v109, main_c_14, main_v110, main_v111, main_c_15, main_v112, main_v113, main_v114, main_v115, main_v116, main_v117, main_v118, main_v119, main_cst_16, main_v120, main_v121, main_v122, main_v123, main_v124, main_v125, main_v126, main_v127, main_v128, main_v129]
set_option maxRecDepth 4096 in
theorem seg7_writes : (seg7 : List (HloOp τ sig (Elt F))).Forall fun op => op.writes ⊆ (seg7_W.map (Proc.devRef (τ := τ) .tc)).toFinset := by
  simp only [seg7, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 7 does not write keeps its contents through it. -/
theorem seg7_keep (W : Valuation τ sig (Elt F)) (r : Ref sig .tc) (h : r ∉ seg7_W) :
    after seg7 W (Proc.devRef .tc r) = W (Proc.devRef .tc r) :=
  after_of_writes_sub seg7 W seg7_writes h

/-- Stretch 8: the positive part after layer 3. -/
def seg8 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v129) (TRef.of (T := ⟨S50000x64, .f32⟩) main_call3_v0) (TRef.of (T := ⟨S50000x64, .f32⟩) main_v130) maximumf ]
/-- The buffers stretch 8 writes. -/
abbrev seg8_W : List (Ref sig .tc) := [main_call3_cst, main_call3_v0, main_v130]
set_option maxRecDepth 4096 in
theorem seg8_writes : (seg8 : List (HloOp τ sig (Elt F))).Forall fun op => op.writes ⊆ (seg8_W.map (Proc.devRef (τ := τ) .tc)).toFinset := by
  simp only [seg8, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 8 does not write keeps its contents through it. -/
theorem seg8_keep (W : Valuation τ sig (Elt F)) (r : Ref sig .tc) (h : r ∉ seg8_W) :
    after seg8 W (Proc.devRef .tc r) = W (Proc.devRef .tc r) :=
  after_of_writes_sub seg8 W seg8_writes h

/-- Stretch 9: layer 4. -/
def seg9 : List (HloOp τ sig (Elt F)) :=
  [ unary main_arg3 main_v131 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v131 main_v132 rfl shapeCasts_S1x64x64_S64x64,
    unary main_arg4 main_v133 ((extractStridedSlice S1x64 ![4, 0] · slices_S5x64_S1x64_4_0) : (⟨S5x64, .f32⟩ : BufTy).Contents (Elt F) → (⟨S1x64, .f32⟩ : BufTy).Contents (Elt F)),
    reshape main_v133 main_v134 rfl shapeCasts_S1x64_S64,
    binary main_v130 main_v132 main_v135 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_17 (constantI S_ 32 0#32),
    unary main_c_17 main_v136 (broadcastInDim S800000 ![] bcast_S_S800000 : (⟨S_, .i32⟩ : BufTy).Contents (Elt F) → (⟨S800000, .i32⟩ : BufTy).Contents (Elt F)),
    binary main_v1 main_v136 main_v137 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v138 (broadcastInDim S800000 ![] bcast_S_S800000 : (⟨S_, .i32⟩ : BufTy).Contents (Elt F) → (⟨S800000, .i32⟩ : BufTy).Contents (Elt F)),
    binary main_v1 main_v138 main_v139 (addi : (⟨S800000, .i32⟩ : BufTy).Contents (Elt F) → (⟨S800000, .i32⟩ : BufTy).Contents (Elt F) → (⟨S800000, .i32⟩ : BufTy).Contents (Elt F)),
    ternary main_v137 main_v139 main_v1 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v140 main_v141 (broadcastInDim S800000x1 ![0] bcast_S800000_S800000x1_0 : (⟨S800000, .i32⟩ : BufTy).Contents (Elt F) → (⟨S800000x1, .i32⟩ : BufTy).Contents (Elt F)),
    binary main_v135 main_v141 main_v142 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v25 main_v143 (broadcastInDim S800000x1 ![0] bcast_S800000_S800000x1_0 : (⟨S800000, .f32⟩ : BufTy).Contents (Elt F) → (⟨S800000x1, .f32⟩ : BufTy).Contents (Elt F)),
    unary main_v143 main_v144 (broadcastInDim S800000x64 ![0, 1] bcast_S800000x1_S800000x64_0_1 : (⟨S800000x1, .f32⟩ : BufTy).Contents (Elt F) → (⟨S800000x64, .f32⟩ : BufTy).Contents (Elt F)),
    binary main_v142 main_v144 main_v145 (mulf : (⟨S800000x64, .f32⟩ : BufTy).Contents (Elt F) → (⟨S800000x64, .f32⟩ : BufTy).Contents (Elt F) → (⟨S800000x64, .f32⟩ : BufTy).Contents (Elt F)),
    nullary main_cst_19 (constant S_ .f32 0x00000000#32),
    unary main_cst_19 main_v146 (broadcastInDim S50000x64 ![] bcast_S_S50000x64 : (⟨S_, .f32⟩ : BufTy).Contents (Elt F) → (⟨S50000x64, .f32⟩ : BufTy).Contents (Elt F)),
    unary main_v3 main_v147 (broadcastInDim S800000x1 ![0] bcast_S800000_S800000x1_0 : (⟨S800000, .i32⟩ : BufTy).Contents (Elt F) → (⟨S800000x1, .i32⟩ : BufTy).Contents (Elt F)),
    ternary main_v146 main_v147 main_v145 main_v148 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v26 main_v149 (broadcastInDim S50000x1 ![0] bcast_S50000_S50000x1_0 : (⟨S50000, .f32⟩ : BufTy).Contents (Elt F) → (⟨S50000x1, .f32⟩ : BufTy).Contents (Elt F)),
    unary main_v149 main_v150 (broadcastInDim S50000x64 ![0, 1] bcast_S50000x1_S50000x64_0_1 : (⟨S50000x1, .f32⟩ : BufTy).Contents (Elt F) → (⟨S50000x64, .f32⟩ : BufTy).Contents (Elt F)),
    binary main_v135 main_v150 main_v151 (mulf : (⟨S50000x64, .f32⟩ : BufTy).Contents (Elt F) → (⟨S50000x64, .f32⟩ : BufTy).Contents (Elt F) → (⟨S50000x64, .f32⟩ : BufTy).Contents (Elt F)),
    binary main_v148 main_v151 main_v152 (addf : (⟨S50000x64, .f32⟩ : BufTy).Contents (Elt F) → (⟨S50000x64, .f32⟩ : BufTy).Contents (Elt F) → (⟨S50000x64, .f32⟩ : BufTy).Contents (Elt F)),
    unary main_v134 main_v153 (broadcastInDim S1x64 ![1] bcast_S64_S1x64_1 : (⟨S64, .f32⟩ : BufTy).Contents (Elt F) → (⟨S1x64, .f32⟩ : BufTy).Contents (Elt F)),
    unary main_v153 main_v154 (broadcastInDim S50000x64 ![0, 1] bcast_S1x64_S50000x64_0_1 : (⟨S1x64, .f32⟩ : BufTy).Contents (Elt F) → (⟨S50000x64, .f32⟩ : BufTy).Contents (Elt F)),
    binary main_v152 main_v154 main_v155 (addf : (⟨S50000x64, .f32⟩ : BufTy).Contents (Elt F) → (⟨S50000x64, .f32⟩ : BufTy).Contents (Elt F) → (⟨S50000x64, .f32⟩ : BufTy).Contents (Elt F)) ]
/-- The buffers stretch 9 writes. -/
abbrev seg9_W : List (Ref sig .tc) := [main_v131, main_v132, main_v133, main_v134, main_v135, main_c_17, main_v136, main_v137, main_c_18, main_v138, main_v139, main_v140, main_v141, main_v142, main_v143, main_v144, main_v145, main_cst_19, main_v146, main_v147, main_v148, main_v149, main_v150, main_v151, main_v152, main_v153, main_v154, main_v155]
set_option maxRecDepth 4096 in
theorem seg9_writes : (seg9 : List (HloOp τ sig (Elt F))).Forall fun op => op.writes ⊆ (seg9_W.map (Proc.devRef (τ := τ) .tc)).toFinset := by
  simp only [seg9, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 9 does not write keeps its contents through it. -/
theorem seg9_keep (W : Valuation τ sig (Elt F)) (r : Ref sig .tc) (h : r ∉ seg9_W) :
    after seg9 W (Proc.devRef .tc r) = W (Proc.devRef .tc r) :=
  after_of_writes_sub seg9 W seg9_writes h

/-- Stretch 10: the pooling and the hidden layer of the read-out. -/
def seg10 : List (HloOp τ sig (Elt F)) :=
  [ nullary main_cst_20 (constant S_ .f32 0x00000000#32),
    unary main_cst_20 main_v156 (broadcastInDim S512x64 ![] bcast_S_S512x64 : (⟨S_, .f32⟩ : BufTy).Contents (Elt F) → (⟨S512x64, .f32⟩ : BufTy).Contents (Elt F)),
    unary main_arg2 main_v157 (broadcastInDim S50000x1 ![0] bcast_S50000_S50000x1_0 : (⟨S50000, .i32⟩ : BufTy).Contents (Elt F) → (⟨S50000x1, .i32⟩ : BufTy).Contents (Elt F)),
    ternary main_v156 main_v157 main_v155 main_v158 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    binary main_v158 main_arg5 main_v159 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg6 main_v160 (broadcastInDim S1x64 ![1] bcast_S64_S1x64_1 : (⟨S64, .f32⟩ : BufTy).Contents (Elt F) → (⟨S1x64, .f32⟩ : BufTy).Contents (Elt F)),
    unary main_v160 main_v161 (broadcastInDim S512x64 ![0, 1] bcast_S1x64_S512x64_0_1 : (⟨S1x64, .f32⟩ : BufTy).Contents (Elt F) → (⟨S512x64, .f32⟩ : BufTy).Contents (Elt F)),
    binary main_v159 main_v161 main_v162 (addf : (⟨S512x64, .f32⟩ : BufTy).Contents (Elt F) → (⟨S512x64, .f32⟩ : BufTy).Contents (Elt F) → (⟨S512x64, .f32⟩ : BufTy).Contents (Elt F)) ]
/-- The buffers stretch 10 writes. -/
abbrev seg10_W : List (Ref sig .tc) := [main_cst_20, main_v156, main_v157, main_v158, main_v159, main_v160, main_v161, main_v162]
set_option maxRecDepth 4096 in
theorem seg10_writes : (seg10 : List (HloOp τ sig (Elt F))).Forall fun op => op.writes ⊆ (seg10_W.map (Proc.devRef (τ := τ) .tc)).toFinset := by
  simp only [seg10, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 10 does not write keeps its contents through it. -/
theorem seg10_keep (W : Valuation τ sig (Elt F)) (r : Ref sig .tc) (h : r ∉ seg10_W) :
    after seg10 W (Proc.devRef .tc r) = W (Proc.devRef .tc r) :=
  after_of_writes_sub seg10 W seg10_writes h

/-- Stretch 11: the positive part of the hidden layer. -/
def seg11 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S512x64, .f32⟩) main_call4_v0) (broadcastInDim S512x64 ![] bcast_S_S512x64),
    TRef.binary (TRef.of (T := ⟨S512x64, .f32⟩) main_v162) (TRef.of (T := ⟨S512x64, .f32⟩) main_call4_v0) (TRef.of (T := ⟨S512x64, .f32⟩) main_v163) maximumf ]
/-- The buffers stretch 11 writes. -/
abbrev seg11_W : List (Ref sig .tc) := [main_call4_cst, main_call4_v0, main_v163]
set_option maxRecDepth 4096 in
theorem seg11_writes : (seg11 : List (HloOp τ sig (Elt F))).Forall fun op => op.writes ⊆ (seg11_W.map (Proc.devRef (τ := τ) .tc)).toFinset := by
  simp only [seg11, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 11 does not write keeps its contents through it. -/
theorem seg11_keep (W : Valuation τ sig (Elt F)) (r : Ref sig .tc) (h : r ∉ seg11_W) :
    after seg11 W (Proc.devRef .tc r) = W (Proc.devRef .tc r) :=
  after_of_writes_sub seg11 W seg11_writes h

/-- Stretch 12: the output column. -/
def seg12 : List (HloOp τ sig (Elt F)) :=
  [ binary main_v163 main_arg7 main_v164 ((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)),
    unary main_arg8 main_v165 (broadcastInDim S1x1 ![1] bcast_S1_S1x1_1 : (⟨S1, .f32⟩ : BufTy).Contents (Elt F) → (⟨S1x1, .f32⟩ : BufTy).Contents (Elt F)),
    unary main_v165 main_v166 (broadcastInDim S512x1 ![0, 1] bcast_S1x1_S512x1_0_1 : (⟨S1x1, .f32⟩ : BufTy).Contents (Elt F) → (⟨S512x1, .f32⟩ : BufTy).Contents (Elt F)),
    binary main_v164 main_v166 main_v167 (addf : (⟨S512x1, .f32⟩ : BufTy).Contents (Elt F) → (⟨S512x1, .f32⟩ : BufTy).Contents (Elt F) → (⟨S512x1, .f32⟩ : BufTy).Contents (Elt F)) ]
/-- The buffers stretch 12 writes. -/
abbrev seg12_W : List (Ref sig .tc) := [main_v164, main_v165, main_v166, main_v167]
set_option maxRecDepth 4096 in
theorem seg12_writes : (seg12 : List (HloOp τ sig (Elt F))).Forall fun op => op.writes ⊆ (seg12_W.map (Proc.devRef (τ := τ) .tc)).toFinset := by
  simp only [seg12, List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 12 does not write keeps its contents through it. -/
theorem seg12_keep (W : Valuation τ sig (Elt F)) (r : Ref sig .tc) (h : r ∉ seg12_W) :
    after seg12 W (Proc.devRef .tc r) = W (Proc.devRef .tc r) :=
  after_of_writes_sub seg12 W seg12_writes h

/-! ## What each stretch writes -/

set_option maxRecDepth 4096 in
theorem seg0_main_v1 (W : Valuation τ sig (Elt F)) :
    after seg0 W (Proc.devRef .tc main_v1) = tV1 (W (Proc.devRef .tc main_arg1)) := by
  unfold seg0
  after_results_simp
  rfl

set_option maxRecDepth 4096 in
theorem seg0_main_v3 (W : Valuation τ sig (Elt F)) :
    after seg0 W (Proc.devRef .tc main_v3) = tV3 (W (Proc.devRef .tc main_arg1)) := by
  unfold seg0
  after_results_simp
  rfl

set_option maxRecDepth 4096 in
theorem seg0_main_v25 (W : Valuation τ sig (Elt F)) :
    after seg0 W (Proc.devRef .tc main_v25) = preV25 (W (Proc.devRef .tc main_arg1)) := by
  unfold seg0
  after_results_simp
  rfl

set_option maxRecDepth 4096 in
theorem seg0_main_v26 (W : Valuation τ sig (Elt F)) :
    after seg0 W (Proc.devRef .tc main_v26) = preV26 (W (Proc.devRef .tc main_arg1)) := by
  unfold seg0
  after_results_simp
  rfl

set_option maxRecDepth 4096 in
theorem seg1_main_v51 (W : Valuation τ sig (Elt F)) :
    after seg1 W (Proc.devRef .tc main_v51) = layerT (W (Proc.devRef .tc main_arg0)) (tW0 (W (Proc.devRef .tc main_arg3))) (tB0 (W (Proc.devRef .tc main_arg4))) (W (Proc.devRef .tc main_v1)) (W (Proc.devRef .tc main_v3)) (W (Proc.devRef .tc main_v25)) (W (Proc.devRef .tc main_v26)) := by
  unfold seg1
  after_results_simp
  rfl

set_option maxRecDepth 4096 in
theorem seg3_main_v77 (W : Valuation τ sig (Elt F)) :
    after seg3 W (Proc.devRef .tc main_v77) = layerT (W (Proc.devRef .tc main_v52)) (tW1 (W (Proc.devRef .tc main_arg3))) (tB1 (W (Proc.devRef .tc main_arg4))) (W (Proc.devRef .tc main_v1)) (W (Proc.devRef .tc main_v3)) (W (Proc.devRef .tc main_v25)) (W (Proc.devRef .tc main_v26)) := by
  unfold seg3
  after_results_simp
  rfl

set_option maxRecDepth 4096 in
theorem seg5_main_v103 (W : Valuation τ sig (Elt F)) :
    after seg5 W (Proc.devRef .tc main_v103) = layerT (W (Proc.devRef .tc main_v78)) (tW2 (W (Proc.devRef .tc main_arg3))) (tB2 (W (Proc.devRef .tc main_arg4))) (W (Proc.devRef .tc main_v1)) (W (Proc.devRef .tc main_v3)) (W (Proc.devRef .tc main_v25)) (W (Proc.devRef .tc main_v26)) := by
  unfold seg5
  after_results_simp
  rfl

set_option maxRecDepth 4096 in
theorem seg7_main_v129 (W : Valuation τ sig (Elt F)) :
    after seg7 W (Proc.devRef .tc main_v129) = layerT (W (Proc.devRef .tc main_v104)) (tW3 (W (Proc.devRef .tc main_arg3))) (tB3 (W (Proc.devRef .tc main_arg4))) (W (Proc.devRef .tc main_v1)) (W (Proc.devRef .tc main_v3)) (W (Proc.devRef .tc main_v25)) (W (Proc.devRef .tc main_v26)) := by
  unfold seg7
  after_results_simp
  rfl

set_option maxRecDepth 4096 in
theorem seg9_main_v155 (W : Valuation τ sig (Elt F)) :
    after seg9 W (Proc.devRef .tc main_v155) = layerT (W (Proc.devRef .tc main_v130)) (tW4 (W (Proc.devRef .tc main_arg3))) (tB4 (W (Proc.devRef .tc main_arg4))) (W (Proc.devRef .tc main_v1)) (W (Proc.devRef .tc main_v3)) (W (Proc.devRef .tc main_v25)) (W (Proc.devRef .tc main_v26)) := by
  unfold seg9
  after_results_simp
  rfl

set_option maxRecDepth 4096 in
theorem seg2_main_v52 (W : Valuation τ sig (Elt F)) :
    after seg2 W (Proc.devRef .tc main_v52) = reluT (W (Proc.devRef .tc main_v51)) := by
  unfold seg2
  after_results_simp
  rfl

set_option maxRecDepth 4096 in
theorem seg4_main_v78 (W : Valuation τ sig (Elt F)) :
    after seg4 W (Proc.devRef .tc main_v78) = reluT (W (Proc.devRef .tc main_v77)) := by
  unfold seg4
  after_results_simp
  rfl

set_option maxRecDepth 4096 in
theorem seg6_main_v104 (W : Valuation τ sig (Elt F)) :
    after seg6 W (Proc.devRef .tc main_v104) = reluT (W (Proc.devRef .tc main_v103)) := by
  unfold seg6
  after_results_simp
  rfl

set_option maxRecDepth 4096 in
theorem seg8_main_v130 (W : Valuation τ sig (Elt F)) :
    after seg8 W (Proc.devRef .tc main_v130) = reluT (W (Proc.devRef .tc main_v129)) := by
  unfold seg8
  after_results_simp
  rfl

set_option maxRecDepth 4096 in
theorem seg10_main_v162 (W : Valuation τ sig (Elt F)) :
    after seg10 W (Proc.devRef .tc main_v162) = tailA (W (Proc.devRef .tc main_v155)) (W (Proc.devRef .tc main_arg2)) (W (Proc.devRef .tc main_arg5)) (W (Proc.devRef .tc main_arg6)) := by
  unfold seg10
  after_results_simp
  rfl

set_option maxRecDepth 4096 in
theorem seg11_main_v163 (W : Valuation τ sig (Elt F)) :
    after seg11 W (Proc.devRef .tc main_v163) = reluG (W (Proc.devRef .tc main_v162)) := by
  unfold seg11
  after_results_simp
  rfl

set_option maxRecDepth 4096 in
theorem seg12_main_v167 (W : Valuation τ sig (Elt F)) :
    after seg12 W (Proc.devRef .tc main_v167) = tailB (W (Proc.devRef .tc main_v163)) (W (Proc.devRef .tc main_arg7)) (W (Proc.devRef .tc main_arg8)) := by
  unfold seg12
  after_results_simp
  rfl

/-! ## The stretches in order are the program -/

set_option maxRecDepth 16384 in
theorem ops_eq : (ops : List (HloOp τ sig (Elt F))) = seg0 ++ seg1 ++ seg2 ++ seg3 ++ seg4 ++ seg5 ++ seg6 ++ seg7 ++ seg8 ++ seg9 ++ seg10 ++ seg11 ++ seg12 := rfl

/-- The result buffer ends at the whole composition of the nine arguments. -/
theorem after_ops_v167 (V : Valuation τ sig (Elt F)) :
    after ops V (Proc.devRef .tc main_v167) = netT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_eq]
  simp only [after_append]
  rw [seg12_main_v167]
  rw [seg11_main_v163]
  rw [seg11_keep _ main_arg7 (by decide)]
  rw [seg11_keep _ main_arg8 (by decide)]
  rw [seg10_main_v162]
  rw [seg10_keep _ main_arg7 (by decide)]
  rw [seg10_keep _ main_arg8 (by decide)]
  rw [seg9_main_v155]
  rw [seg9_keep _ main_arg2 (by decide)]
  rw [seg9_keep _ main_arg5 (by decide)]
  rw [seg9_keep _ main_arg6 (by decide)]
  rw [seg9_keep _ main_arg7 (by decide)]
  rw [seg9_keep _ main_arg8 (by decide)]
  rw [seg8_main_v130]
  rw [seg8_keep _ main_arg3 (by decide)]
  rw [seg8_keep _ main_arg4 (by decide)]
  rw [seg8_keep _ main_v1 (by decide)]
  rw [seg8_keep _ main_v3 (by decide)]
  rw [seg8_keep _ main_v25 (by decide)]
  rw [seg8_keep _ main_v26 (by decide)]
  rw [seg8_keep _ main_arg2 (by decide)]
  rw [seg8_keep _ main_arg5 (by decide)]
  rw [seg8_keep _ main_arg6 (by decide)]
  rw [seg8_keep _ main_arg7 (by decide)]
  rw [seg8_keep _ main_arg8 (by decide)]
  rw [seg7_main_v129]
  rw [seg7_keep _ main_arg3 (by decide)]
  rw [seg7_keep _ main_arg4 (by decide)]
  rw [seg7_keep _ main_v1 (by decide)]
  rw [seg7_keep _ main_v3 (by decide)]
  rw [seg7_keep _ main_v25 (by decide)]
  rw [seg7_keep _ main_v26 (by decide)]
  rw [seg7_keep _ main_arg2 (by decide)]
  rw [seg7_keep _ main_arg5 (by decide)]
  rw [seg7_keep _ main_arg6 (by decide)]
  rw [seg7_keep _ main_arg7 (by decide)]
  rw [seg7_keep _ main_arg8 (by decide)]
  rw [seg6_main_v104]
  rw [seg6_keep _ main_arg3 (by decide)]
  rw [seg6_keep _ main_arg4 (by decide)]
  rw [seg6_keep _ main_v1 (by decide)]
  rw [seg6_keep _ main_v3 (by decide)]
  rw [seg6_keep _ main_v25 (by decide)]
  rw [seg6_keep _ main_v26 (by decide)]
  rw [seg6_keep _ main_arg2 (by decide)]
  rw [seg6_keep _ main_arg5 (by decide)]
  rw [seg6_keep _ main_arg6 (by decide)]
  rw [seg6_keep _ main_arg7 (by decide)]
  rw [seg6_keep _ main_arg8 (by decide)]
  rw [seg5_main_v103]
  rw [seg5_keep _ main_arg3 (by decide)]
  rw [seg5_keep _ main_arg4 (by decide)]
  rw [seg5_keep _ main_v1 (by decide)]
  rw [seg5_keep _ main_v3 (by decide)]
  rw [seg5_keep _ main_v25 (by decide)]
  rw [seg5_keep _ main_v26 (by decide)]
  rw [seg5_keep _ main_arg2 (by decide)]
  rw [seg5_keep _ main_arg5 (by decide)]
  rw [seg5_keep _ main_arg6 (by decide)]
  rw [seg5_keep _ main_arg7 (by decide)]
  rw [seg5_keep _ main_arg8 (by decide)]
  rw [seg4_main_v78]
  rw [seg4_keep _ main_arg3 (by decide)]
  rw [seg4_keep _ main_arg4 (by decide)]
  rw [seg4_keep _ main_v1 (by decide)]
  rw [seg4_keep _ main_v3 (by decide)]
  rw [seg4_keep _ main_v25 (by decide)]
  rw [seg4_keep _ main_v26 (by decide)]
  rw [seg4_keep _ main_arg2 (by decide)]
  rw [seg4_keep _ main_arg5 (by decide)]
  rw [seg4_keep _ main_arg6 (by decide)]
  rw [seg4_keep _ main_arg7 (by decide)]
  rw [seg4_keep _ main_arg8 (by decide)]
  rw [seg3_main_v77]
  rw [seg3_keep _ main_arg3 (by decide)]
  rw [seg3_keep _ main_arg4 (by decide)]
  rw [seg3_keep _ main_v1 (by decide)]
  rw [seg3_keep _ main_v3 (by decide)]
  rw [seg3_keep _ main_v25 (by decide)]
  rw [seg3_keep _ main_v26 (by decide)]
  rw [seg3_keep _ main_arg2 (by decide)]
  rw [seg3_keep _ main_arg5 (by decide)]
  rw [seg3_keep _ main_arg6 (by decide)]
  rw [seg3_keep _ main_arg7 (by decide)]
  rw [seg3_keep _ main_arg8 (by decide)]
  rw [seg2_main_v52]
  rw [seg2_keep _ main_arg3 (by decide)]
  rw [seg2_keep _ main_arg4 (by decide)]
  rw [seg2_keep _ main_v1 (by decide)]
  rw [seg2_keep _ main_v3 (by decide)]
  rw [seg2_keep _ main_v25 (by decide)]
  rw [seg2_keep _ main_v26 (by decide)]
  rw [seg2_keep _ main_arg2 (by decide)]
  rw [seg2_keep _ main_arg5 (by decide)]
  rw [seg2_keep _ main_arg6 (by decide)]
  rw [seg2_keep _ main_arg7 (by decide)]
  rw [seg2_keep _ main_arg8 (by decide)]
  rw [seg1_main_v51]
  rw [seg1_keep _ main_arg3 (by decide)]
  rw [seg1_keep _ main_arg4 (by decide)]
  rw [seg1_keep _ main_v1 (by decide)]
  rw [seg1_keep _ main_v3 (by decide)]
  rw [seg1_keep _ main_v25 (by decide)]
  rw [seg1_keep _ main_v26 (by decide)]
  rw [seg1_keep _ main_arg2 (by decide)]
  rw [seg1_keep _ main_arg5 (by decide)]
  rw [seg1_keep _ main_arg6 (by decide)]
  rw [seg1_keep _ main_arg7 (by decide)]
  rw [seg1_keep _ main_arg8 (by decide)]
  rw [seg0_keep _ main_arg0 (by decide)]
  rw [seg0_keep _ main_arg3 (by decide)]
  rw [seg0_keep _ main_arg4 (by decide)]
  rw [seg0_main_v1]
  rw [seg0_main_v3]
  rw [seg0_main_v25]
  rw [seg0_main_v26]
  rw [seg0_keep _ main_arg2 (by decide)]
  rw [seg0_keep _ main_arg5 (by decide)]
  rw [seg0_keep _ main_arg6 (by decide)]
  rw [seg0_keep _ main_arg7 (by decide)]
  rw [seg0_keep _ main_arg8 (by decide)]
  rfl

/-- No operation writes argument 0. -/
theorem after_ops_arg0 (V : Valuation τ sig (Elt F)) :
    after ops V (Proc.devRef .tc main_arg0) = V (Proc.devRef .tc main_arg0) := by
  rw [ops_eq]
  simp only [after_append]
  rw [seg12_keep _ main_arg0 (by decide), seg11_keep _ main_arg0 (by decide), seg10_keep _ main_arg0 (by decide), seg9_keep _ main_arg0 (by decide), seg8_keep _ main_arg0 (by decide), seg7_keep _ main_arg0 (by decide), seg6_keep _ main_arg0 (by decide), seg5_keep _ main_arg0 (by decide), seg4_keep _ main_arg0 (by decide), seg3_keep _ main_arg0 (by decide), seg2_keep _ main_arg0 (by decide), seg1_keep _ main_arg0 (by decide), seg0_keep _ main_arg0 (by decide)]

/-- No operation writes argument 1. -/
theorem after_ops_arg1 (V : Valuation τ sig (Elt F)) :
    after ops V (Proc.devRef .tc main_arg1) = V (Proc.devRef .tc main_arg1) := by
  rw [ops_eq]
  simp only [after_append]
  rw [seg12_keep _ main_arg1 (by decide), seg11_keep _ main_arg1 (by decide), seg10_keep _ main_arg1 (by decide), seg9_keep _ main_arg1 (by decide), seg8_keep _ main_arg1 (by decide), seg7_keep _ main_arg1 (by decide), seg6_keep _ main_arg1 (by decide), seg5_keep _ main_arg1 (by decide), seg4_keep _ main_arg1 (by decide), seg3_keep _ main_arg1 (by decide), seg2_keep _ main_arg1 (by decide), seg1_keep _ main_arg1 (by decide), seg0_keep _ main_arg1 (by decide)]

/-- No operation writes argument 2. -/
theorem after_ops_arg2 (V : Valuation τ sig (Elt F)) :
    after ops V (Proc.devRef .tc main_arg2) = V (Proc.devRef .tc main_arg2) := by
  rw [ops_eq]
  simp only [after_append]
  rw [seg12_keep _ main_arg2 (by decide), seg11_keep _ main_arg2 (by decide), seg10_keep _ main_arg2 (by decide), seg9_keep _ main_arg2 (by decide), seg8_keep _ main_arg2 (by decide), seg7_keep _ main_arg2 (by decide), seg6_keep _ main_arg2 (by decide), seg5_keep _ main_arg2 (by decide), seg4_keep _ main_arg2 (by decide), seg3_keep _ main_arg2 (by decide), seg2_keep _ main_arg2 (by decide), seg1_keep _ main_arg2 (by decide), seg0_keep _ main_arg2 (by decide)]

/-- No operation writes argument 3. -/
theorem after_ops_arg3 (V : Valuation τ sig (Elt F)) :
    after ops V (Proc.devRef .tc main_arg3) = V (Proc.devRef .tc main_arg3) := by
  rw [ops_eq]
  simp only [after_append]
  rw [seg12_keep _ main_arg3 (by decide), seg11_keep _ main_arg3 (by decide), seg10_keep _ main_arg3 (by decide), seg9_keep _ main_arg3 (by decide), seg8_keep _ main_arg3 (by decide), seg7_keep _ main_arg3 (by decide), seg6_keep _ main_arg3 (by decide), seg5_keep _ main_arg3 (by decide), seg4_keep _ main_arg3 (by decide), seg3_keep _ main_arg3 (by decide), seg2_keep _ main_arg3 (by decide), seg1_keep _ main_arg3 (by decide), seg0_keep _ main_arg3 (by decide)]

/-- No operation writes argument 4. -/
theorem after_ops_arg4 (V : Valuation τ sig (Elt F)) :
    after ops V (Proc.devRef .tc main_arg4) = V (Proc.devRef .tc main_arg4) := by
  rw [ops_eq]
  simp only [after_append]
  rw [seg12_keep _ main_arg4 (by decide), seg11_keep _ main_arg4 (by decide), seg10_keep _ main_arg4 (by decide), seg9_keep _ main_arg4 (by decide), seg8_keep _ main_arg4 (by decide), seg7_keep _ main_arg4 (by decide), seg6_keep _ main_arg4 (by decide), seg5_keep _ main_arg4 (by decide), seg4_keep _ main_arg4 (by decide), seg3_keep _ main_arg4 (by decide), seg2_keep _ main_arg4 (by decide), seg1_keep _ main_arg4 (by decide), seg0_keep _ main_arg4 (by decide)]

/-- No operation writes argument 5. -/
theorem after_ops_arg5 (V : Valuation τ sig (Elt F)) :
    after ops V (Proc.devRef .tc main_arg5) = V (Proc.devRef .tc main_arg5) := by
  rw [ops_eq]
  simp only [after_append]
  rw [seg12_keep _ main_arg5 (by decide), seg11_keep _ main_arg5 (by decide), seg10_keep _ main_arg5 (by decide), seg9_keep _ main_arg5 (by decide), seg8_keep _ main_arg5 (by decide), seg7_keep _ main_arg5 (by decide), seg6_keep _ main_arg5 (by decide), seg5_keep _ main_arg5 (by decide), seg4_keep _ main_arg5 (by decide), seg3_keep _ main_arg5 (by decide), seg2_keep _ main_arg5 (by decide), seg1_keep _ main_arg5 (by decide), seg0_keep _ main_arg5 (by decide)]

/-- No operation writes argument 6. -/
theorem after_ops_arg6 (V : Valuation τ sig (Elt F)) :
    after ops V (Proc.devRef .tc main_arg6) = V (Proc.devRef .tc main_arg6) := by
  rw [ops_eq]
  simp only [after_append]
  rw [seg12_keep _ main_arg6 (by decide), seg11_keep _ main_arg6 (by decide), seg10_keep _ main_arg6 (by decide), seg9_keep _ main_arg6 (by decide), seg8_keep _ main_arg6 (by decide), seg7_keep _ main_arg6 (by decide), seg6_keep _ main_arg6 (by decide), seg5_keep _ main_arg6 (by decide), seg4_keep _ main_arg6 (by decide), seg3_keep _ main_arg6 (by decide), seg2_keep _ main_arg6 (by decide), seg1_keep _ main_arg6 (by decide), seg0_keep _ main_arg6 (by decide)]

/-- No operation writes argument 7. -/
theorem after_ops_arg7 (V : Valuation τ sig (Elt F)) :
    after ops V (Proc.devRef .tc main_arg7) = V (Proc.devRef .tc main_arg7) := by
  rw [ops_eq]
  simp only [after_append]
  rw [seg12_keep _ main_arg7 (by decide), seg11_keep _ main_arg7 (by decide), seg10_keep _ main_arg7 (by decide), seg9_keep _ main_arg7 (by decide), seg8_keep _ main_arg7 (by decide), seg7_keep _ main_arg7 (by decide), seg6_keep _ main_arg7 (by decide), seg5_keep _ main_arg7 (by decide), seg4_keep _ main_arg7 (by decide), seg3_keep _ main_arg7 (by decide), seg2_keep _ main_arg7 (by decide), seg1_keep _ main_arg7 (by decide), seg0_keep _ main_arg7 (by decide)]

/-- No operation writes argument 8. -/
theorem after_ops_arg8 (V : Valuation τ sig (Elt F)) :
    after ops V (Proc.devRef .tc main_arg8) = V (Proc.devRef .tc main_arg8) := by
  rw [ops_eq]
  simp only [after_append]
  rw [seg12_keep _ main_arg8 (by decide), seg11_keep _ main_arg8 (by decide), seg10_keep _ main_arg8 (by decide), seg9_keep _ main_arg8 (by decide), seg8_keep _ main_arg8 (by decide), seg7_keep _ main_arg8 (by decide), seg6_keep _ main_arg8 (by decide), seg5_keep _ main_arg8 (by decide), seg4_keep _ main_arg8 (by decide), seg3_keep _ main_arg8 (by decide), seg2_keep _ main_arg8 (by decide), seg1_keep _ main_arg8 (by decide), seg0_keep _ main_arg8 (by decide)]

end Cert.ReferenceIdeal.Hand

end
-- ==== Proof.LibGatherVec.lean ====
/-
  Reading a vector gather at an index.

  `x[idx]` of a vector `x : [N]` at an integer vector `idx : [E]` lowers to a gather with the start indices
  laid out as `[E, 1]`: no offset axis, collapsed axis 0, the start index map `[0]`, slices of one element.
  The element `e` of the result is the operand's element `r`, where `r` is the start index `idx[e, 0]` read as
  a signed integer and clamped into `[0, N - 1]`: the same row that a row gather at these start indices selects.
-/
import Idealize.ShloMosaic.Lib.ValueIdx
import proofs.«143766_j20229295964422_2_alg».proof.Proof.LibGatherRows

noncomputable section

namespace Idealize.ShloMosaic.GatherVec

open Idealize.ShloMosaic Idealize.ShloMosaic.ValueIdx

variable {α : Type}

/-- The dimension numbers of an element gather: operand `[N]`, start indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the only operand axis the slice starts at the clamped start index. -/
theorem vecDims_start {N E w : Nat}
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).start (ix1 e) idx (0 : Fin 1) = min (idx (ix2 e (0 : Fin 1))).toInt.toNat (N - 1) := by
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The operand index of result element `e` is the row `rowOf e`. -/
theorem vecDims_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx = ix1 (GatherRows.rowOf hN idx e) := by
  funext a
  obtain rfl : a = 0 := Subsingleton.elim _ _
  refine Fin.ext ?_
  show (vecDims N E wf).start (ix1 e) idx (0 : Fin 1) + (vecDims N E wf).batchCoord (ix1 e) (0 : Fin 1)
    + (vecDims N E wf).offCoord (ix1 e) (0 : Fin 1) = min (idx (ix2 e (0 : Fin 1))).toInt.toNat (N - 1)
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero, vecDims_start]

/-- THE ELEMENT GATHER READ AT `e`: the operand's element `rowOf e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (GatherRows.rowOf hN idx e)) := by
  unfold Host.gather
  rw [vecDims_operandIdx hN wf idx e]

end Idealize.ShloMosaic.GatherVec

end
-- ==== Proof.RefMath.lean ====
/-
  The reference program's stages read at an index over the extended reals, and the whole result as the five-layer
  network's output: the edge words are the rows of the edge array; the normalisation factor of a node is the
  reciprocal square root of one plus its in-degree; an edge's factor is the product of its end nodes' factors (each
  index word wrapped and clamped); a layer is the neighbour sum of the scaled projected source rows plus the node's own
  scaled projection plus the bias; the pooling adds the rows of each graph; the read-out is a hidden layer with
  positive part and one output column.
-/
import Idealize.ShloMosaic.Lib.IdealHost
import Idealize.ShloMosaic.Lib.Pipeline.Value
import proofs.«143766_j20229295964422_2_alg».proof.Proof.RefStages
import proofs.«143766_j20229295964422_2_alg».proof.Proof.Spec
import proofs.«143766_j20229295964422_2_alg».proof.Proof.LibScatterRows
import proofs.«143766_j20229295964422_2_alg».proof.Proof.LibGatherRows
import proofs.«143766_j20229295964422_2_alg».proof.Proof.LibGatherVec
import proofs.«143766_j20229295964422_2_alg».proof.Proof.LibPlainDot

noncomputable section

open scoped BigOperators

namespace Cert.ReferenceIdeal.Hand

open Cert.ReferenceIdeal Cert.ReferenceIdeal.Gen Idealize.ShloMosaic Idealize.ShloMosaic.ValueIdx

/-! ## Layout operations at an index -/

/-- A broadcast zero reads zero. -/
theorem zeros_apply {T : Shape} (h : S_.BroadcastsInDim T ![]) (j : T.Idx) :
    broadcastInDim T ![] h (constant (F := Ideal) S_ .f32 0x00000000#32) j = (0 : EReal) :=
  (broadcastInDim_scalar_apply h _ j).trans Ideal.ofBits_zero_f32

/-- A broadcast one reads one. -/
theorem ones_apply {T : Shape} (h : S_.BroadcastsInDim T ![]) (j : T.Idx) :
    broadcastInDim T ![] h (constant (F := Ideal) S_ .f32 0x3F800000#32) j = (1 : EReal) :=
  (broadcastInDim_scalar_apply h _ j).trans Ideal.ofBits_one_f32

/-- A vector laid out as a column reads the vector. -/
theorem bcastCol_apply {α : Type} {n : Nat} (hn : n ≠ 1)
    (h : (⟨1, ![n]⟩ : Shape).BroadcastsInDim ⟨2, ![n, 1]⟩ ![0]) (x : (⟨1, ![n]⟩ : Shape).Idx → α) (e : Fin n) (z : Fin 1) :
    broadcastInDim ⟨2, ![n, 1]⟩ ![0] h x (ix2 e z) = x (ix1 e) :=
  broadcastInDim_apply _ h x _ (ix1 e) (fun a => match a with
    | ⟨0, _⟩ => by show e.val = if n = 1 then 0 else e.val; rw [if_neg hn])

/-- A column repeated along the rows' second axis reads the column. -/
theorem bcastRows_apply {α : Type} {n c : Nat} (hn : n ≠ 1)
    (h : (⟨2, ![n, 1]⟩ : Shape).BroadcastsInDim ⟨2, ![n, c]⟩ ![0, 1]) (x : (⟨2, ![n, 1]⟩ : Shape).Idx → α) (i : Fin n) (k : Fin c) :
    broadcastInDim ⟨2, ![n, c]⟩ ![0, 1] h x (ix2 i k) = x (ix2 i (0 : Fin 1)) :=
  broadcastInDim_apply _ h x _ (ix2 i (0 : Fin 1)) (fun a => match a with
    | ⟨0, _⟩ => by show i.val = if n = 1 then 0 else i.val; rw [if_neg hn]
    | ⟨1, _⟩ => by show (0 : ℕ) = if (1 : ℕ) = 1 then 0 else k.val; rw [if_pos rfl])

/-- A row repeated along the first axis reads the row. -/
theorem bcastBias_apply {α : Type} {m c : Nat} (hc : c ≠ 1)
    (h : (⟨2, ![1, c]⟩ : Shape).BroadcastsInDim ⟨2, ![m, c]⟩ ![0, 1]) (x : (⟨2, ![1, c]⟩ : Shape).Idx → α) (i : Fin m) (k : Fin c) :
    broadcastInDim ⟨2, ![m, c]⟩ ![0, 1] h x (ix2 i k) = x (ix2 (0 : Fin 1) k) :=
  broadcastInDim_apply _ h x _ (ix2 (0 : Fin 1) k) (fun a => match a with
    | ⟨0, _⟩ => by show (0 : ℕ) = if (1 : ℕ) = 1 then 0 else i.val; rw [if_pos rfl]
    | ⟨1, _⟩ => by show k.val = if c = 1 then 0 else k.val; rw [if_neg hc])

/-- A single entry repeated along the first axis reads the entry. -/
theorem bcast11_apply {α : Type} {m : Nat}
    (h : (⟨2, ![1, 1]⟩ : Shape).BroadcastsInDim ⟨2, ![m, 1]⟩ ![0, 1]) (x : (⟨2, ![1, 1]⟩ : Shape).Idx → α) (i : Fin m) (z : Fin 1) :
    broadcastInDim ⟨2, ![m, 1]⟩ ![0, 1] h x (ix2 i z) = x (ix2 (0 : Fin 1) (0 : Fin 1)) :=
  broadcastInDim_apply _ h x _ (ix2 (0 : Fin 1) (0 : Fin 1)) (fun a => match a with
    | ⟨0, _⟩ => by show (0 : ℕ) = if (1 : ℕ) = 1 then 0 else i.val; rw [if_pos rfl]
    | ⟨1, _⟩ => by show (0 : ℕ) = if (1 : ℕ) = 1 then 0 else z.val; rw [if_pos rfl])

/-- A vector laid out as a row reads the vector. -/
theorem bcastRow1_apply {α : Type} {c : Nat} (hc : c ≠ 1)
    (h : (⟨1, ![c]⟩ : Shape).BroadcastsInDim ⟨2, ![1, c]⟩ ![1]) (x : (⟨1, ![c]⟩ : Shape).Idx → α) (z : Fin 1) (q : Fin c) :
    broadcastInDim ⟨2, ![1, c]⟩ ![1] h x (ix2 z q) = x (ix1 q) :=
  broadcastInDim_apply _ h x _ (ix1 q) (fun a => match a with
    | ⟨0, _⟩ => by show q.val = if c = 1 then 0 else q.val; rw [if_neg hc])

/-- A one-entry vector laid out as a one-by-one array reads its entry. -/
theorem bcast1_apply {α : Type}
    (h : (⟨1, ![1]⟩ : Shape).BroadcastsInDim ⟨2, ![1, 1]⟩ ![1]) (x : (⟨1, ![1]⟩ : Shape).Idx → α) (z q : Fin 1) :
    broadcastInDim ⟨2, ![1, 1]⟩ ![1] h x (ix2 z q) = x (ix1 (0 : Fin 1)) :=
  broadcastInDim_apply _ h x _ (ix1 (0 : Fin 1)) (fun a => match a with
    | ⟨0, _⟩ => by show (0 : ℕ) = if (1 : ℕ) = 1 then 0 else q.val; rw [if_pos rfl])

/-- A plain matrix product at an entry is the sum over the middle coordinate. -/
theorem dot_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) (a : Fin M) (b : Fin N) :
    Host.dotGeneral d none l r (ix2 a b) = ∑ q : Fin K, l (ix2 a q) * r (ix2 q b) :=
  (Ideal.dotGeneral_apply d none .single l r (ix2 a b)).trans
    (Cert.LibPlainDot.plain_sum d hlc hrc hln hrn hlb hrb (fun x y => l x * r y) a b)

theorem dotNC_apply (l : FVec Ideal S50000x64 .f32) (r : FVec Ideal S64x64 .f32) (a : Fin 50000) (b : Fin 64) :
    Host.dotGeneral dot_S50000x64_S64x64_S50000x64_1_0_0_1_n_n none l r (ix2 a b) = ∑ q : Fin 64, l (ix2 a q) * r (ix2 q b) :=
  dot_apply _ rfl rfl rfl rfl rfl rfl l r a b

theorem dotGC_apply (l : FVec Ideal S512x64 .f32) (r : FVec Ideal S64x64 .f32) (a : Fin 512) (b : Fin 64) :
    Host.dotGeneral dot_S512x64_S64x64_S512x64_1_0_0_1_n_n none l r (ix2 a b) = ∑ q : Fin 64, l (ix2 a q) * r (ix2 q b) :=
  dot_apply _ rfl rfl rfl rfl rfl rfl l r a b

theorem dotG1_apply (l : FVec Ideal S512x64 .f32) (r : FVec Ideal S64x1 .f32) (a : Fin 512) (b : Fin 1) :
    Host.dotGeneral dot_S512x64_S64x1_S512x1_1_0_0_1_n_n none l r (ix2 a b) = ∑ q : Fin 64, l (ix2 a q) * r (ix2 q b) :=
  dot_apply _ rfl rfl rfl rfl rfl rfl l r a b

/-! ## The index words -/

/-- The program's compare / add / select on an index word is the wrap of that word. -/
theorem wrap_apply (v : IVec S800000 32) (e : Fin 800000) :
    select (cmpi .slt v (broadcastInDim S800000 ![] bcast_S_S800000 (constantI S_ 32 0#32)))
      (addi v (broadcastInDim S800000 ![] bcast_S_S800000 (constantI S_ 32 50000#32))) v (ix1 e)
      = Cert.Gcn.wrapW (v (ix1 e)) := by
  have h0 : broadcastInDim S800000 ![] bcast_S_S800000 (constantI S_ 32 0#32) (ix1 e) = 0#32 :=
    broadcastInDim_scalar_apply _ _ _
  have h1 : broadcastInDim S800000 ![] bcast_S_S800000 (constantI S_ 32 50000#32) (ix1 e) = 50000#32 :=
    broadcastInDim_scalar_apply _ _ _
  unfold Cert.Gcn.wrapW
  show Scalar.select (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 50000#32) (ix1 e))) (v (ix1 e)) = _
  rw [h0, h1]

/-- The row a gather reads through a wrapped index column is the wrapped, clamped word. -/
theorem rowOf_wrap (hN : 0 < 50000) (v : IVec S800000 32) (e : Fin 800000) :
    GatherRows.rowOf (N := 50000) hN (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v)) e
      = Cert.Gcn.rowW (Cert.Gcn.wrapW (v (ix1 e))) := by
  refine Fin.ext ?_
  dsimp only [GatherRows.rowOf, Cert.Gcn.rowW]
  rw [bcastCol_apply (show (800000 : ℕ) ≠ 1 by decide), wrap_apply]

/-- The source words: row 0 of the edge array. -/
theorem tV1_apply (a1 : IVec S2x800000 32) (e : Fin 800000) : tV1 (F := Ideal) a1 (ix1 e) = a1 (ix2 (0 : Fin 2) e) := by
  unfold tV1
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![0, 0] a1 slices_S2x800000_S1x800000_0_0 (ix2 (0 : Fin 1) e) (ix2 (0 : Fin 2) e)
      (fun a => match a with
        | ⟨0, _⟩ => by show (0 : ℕ) = 0 + 0; rfl
        | ⟨1, _⟩ => by show e.val = 0 + e.val; omega)

/-- The destination words: row 1 of the edge array. -/
theorem tV3_apply (a1 : IVec S2x800000 32) (e : Fin 800000) : tV3 (F := Ideal) a1 (ix1 e) = a1 (ix2 (1 : Fin 2) e) := by
  unfold tV3
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![1, 0] a1 slices_S2x800000_S1x800000_1_0 (ix2 (0 : Fin 1) e) (ix2 (1 : Fin 2) e)
      (fun a => match a with
        | ⟨0, _⟩ => by show (1 : ℕ) = 1 + 0; rfl
        | ⟨1, _⟩ => by show e.val = 0 + e.val; omega)

/-- Weight matrix 0 of the stack, entry by entry. -/
theorem tW0_apply (a3 : FVec Ideal S5x64x64 .f32) (q c : Fin 64) :
    tW0 (F := Ideal) a3 (ix2 q c) = a3 (ix3 (0 : Fin 5) q c) := by
  unfold tW0
  refine (shapeCast_apply _ shapeCasts_S1x64x64_S64x64 (ix2 q c) (ix3 (0 : Fin 1) q c) ?_).trans ?_
  · rewrite [Shape.rowMajor_val_three, Shape.rowMajor_val_two]
    show (0 * 64 + q.val) * 64 + c.val = q.val * 64 + c.val
    omega
  · exact extractStridedSlice_apply ![0, 0, 0] a3 slices_S5x64x64_S1x64x64_0_0_0 (ix3 (0 : Fin 1) q c) (ix3 (0 : Fin 5) q c)
      (fun a => match a with
        | ⟨0, _⟩ => by show (0 : ℕ) = 0 + 0; rfl
        | ⟨1, _⟩ => by show q.val = 0 + q.val; omega
        | ⟨2, _⟩ => by show c.val = 0 + c.val; omega)

/-- Bias row 0 of the stack, entry by entry. -/
theorem tB0_apply (a4 : FVec Ideal S5x64 .f32) (c : Fin 64) :
    tB0 (F := Ideal) a4 (ix1 c) = a4 (ix2 (0 : Fin 5) c) := by
  unfold tB0
  refine (shapeCast_apply _ shapeCasts_S1x64_S64 (ix1 c) (ix2 (0 : Fin 1) c) ?_).trans ?_
  · rewrite [Shape.rowMajor_val_two, Shape.rowMajor_val_one]
    show 0 * 64 + c.val = c.val
    omega
  · exact extractStridedSlice_apply ![0, 0] a4 slices_S5x64_S1x64_0_0 (ix2 (0 : Fin 1) c) (ix2 (0 : Fin 5) c)
      (fun a => match a with
        | ⟨0, _⟩ => by show (0 : ℕ) = 0 + 0; rfl
        | ⟨1, _⟩ => by show c.val = 0 + c.val; omega)

/-- Weight matrix 1 of the stack, entry by entry. -/
theorem tW1_apply (a3 : FVec Ideal S5x64x64 .f32) (q c : Fin 64) :
    tW1 (F := Ideal) a3 (ix2 q c) = a3 (ix3 (1 : Fin 5) q c) := by
  unfold tW1
  refine (shapeCast_apply _ shapeCasts_S1x64x64_S64x64 (ix2 q c) (ix3 (0 : Fin 1) q c) ?_).trans ?_
  · rewrite [Shape.rowMajor_val_three, Shape.rowMajor_val_two]
    show (0 * 64 + q.val) * 64 + c.val = q.val * 64 + c.val
    omega
  · exact extractStridedSlice_apply ![1, 0, 0] a3 slices_S5x64x64_S1x64x64_1_0_0 (ix3 (0 : Fin 1) q c) (ix3 (1 : Fin 5) q c)
      (fun a => match a with
        | ⟨0, _⟩ => by show (1 : ℕ) = 1 + 0; rfl
        | ⟨1, _⟩ => by show q.val = 0 + q.val; omega
        | ⟨2, _⟩ => by show c.val = 0 + c.val; omega)

/-- Bias row 1 of the stack, entry by entry. -/
theorem tB1_apply (a4 : FVec Ideal S5x64 .f32) (c : Fin 64) :
    tB1 (F := Ideal) a4 (ix1 c) = a4 (ix2 (1 : Fin 5) c) := by
  unfold tB1
  refine (shapeCast_apply _ shapeCasts_S1x64_S64 (ix1 c) (ix2 (0 : Fin 1) c) ?_).trans ?_
  · rewrite [Shape.rowMajor_val_two, Shape.rowMajor_val_one]
    show 0 * 64 + c.val = c.val
    omega
  · exact extractStridedSlice_apply ![1, 0] a4 slices_S5x64_S1x64_1_0 (ix2 (0 : Fin 1) c) (ix2 (1 : Fin 5) c)
      (fun a => match a with
        | ⟨0, _⟩ => by show (1 : ℕ) = 1 + 0; rfl
        | ⟨1, _⟩ => by show c.val = 0 + c.val; omega)

/-- Weight matrix 2 of the stack, entry by entry. -/
theorem tW2_apply (a3 : FVec Ideal S5x64x64 .f32) (q c : Fin 64) :
    tW2 (F := Ideal) a3 (ix2 q c) = a3 (ix3 (2 : Fin 5) q c) := by
  unfold tW2
  refine (shapeCast_apply _ shapeCasts_S1x64x64_S64x64 (ix2 q c) (ix3 (0 : Fin 1) q c) ?_).trans ?_
  · rewrite [Shape.rowMajor_val_three, Shape.rowMajor_val_two]
    show (0 * 64 + q.val) * 64 + c.val = q.val * 64 + c.val
    omega
  · exact extractStridedSlice_apply ![2, 0, 0] a3 slices_S5x64x64_S1x64x64_2_0_0 (ix3 (0 : Fin 1) q c) (ix3 (2 : Fin 5) q c)
      (fun a => match a with
        | ⟨0, _⟩ => by show (2 : ℕ) = 2 + 0; rfl
        | ⟨1, _⟩ => by show q.val = 0 + q.val; omega
        | ⟨2, _⟩ => by show c.val = 0 + c.val; omega)

/-- Bias row 2 of the stack, entry by entry. -/
theorem tB2_apply (a4 : FVec Ideal S5x64 .f32) (c : Fin 64) :
    tB2 (F := Ideal) a4 (ix1 c) = a4 (ix2 (2 : Fin 5) c) := by
  unfold tB2
  refine (shapeCast_apply _ shapeCasts_S1x64_S64 (ix1 c) (ix2 (0 : Fin 1) c) ?_).trans ?_
  · rewrite [Shape.rowMajor_val_two, Shape.rowMajor_val_one]
    show 0 * 64 + c.val = c.val
    omega
  · exact extractStridedSlice_apply ![2, 0] a4 slices_S5x64_S1x64_2_0 (ix2 (0 : Fin 1) c) (ix2 (2 : Fin 5) c)
      (fun a => match a with
        | ⟨0, _⟩ => by show (2 : ℕ) = 2 + 0; rfl
        | ⟨1, _⟩ => by show c.val = 0 + c.val; omega)

/-- Weight matrix 3 of the stack, entry by entry. -/
theorem tW3_apply (a3 : FVec Ideal S5x64x64 .f32) (q c : Fin 64) :
    tW3 (F := Ideal) a3 (ix2 q c) = a3 (ix3 (3 : Fin 5) q c) := by
  unfold tW3
  refine (shapeCast_apply _ shapeCasts_S1x64x64_S64x64 (ix2 q c) (ix3 (0 : Fin 1) q c) ?_).trans ?_
  · rewrite [Shape.rowMajor_val_three, Shape.rowMajor_val_two]
    show (0 * 64 + q.val) * 64 + c.val = q.val * 64 + c.val
    omega
  · exact extractStridedSlice_apply ![3, 0, 0] a3 slices_S5x64x64_S1x64x64_3_0_0 (ix3 (0 : Fin 1) q c) (ix3 (3 : Fin 5) q c)
      (fun a => match a with
        | ⟨0, _⟩ => by show (3 : ℕ) = 3 + 0; rfl
        | ⟨1, _⟩ => by show q.val = 0 + q.val; omega
        | ⟨2, _⟩ => by show c.val = 0 + c.val; omega)

/-- Bias row 3 of the stack, entry by entry. -/
theorem tB3_apply (a4 : FVec Ideal S5x64 .f32) (c : Fin 64) :
    tB3 (F := Ideal) a4 (ix1 c) = a4 (ix2 (3 : Fin 5) c) := by
  unfold tB3
  refine (shapeCast_apply _ shapeCasts_S1x64_S64 (ix1 c) (ix2 (0 : Fin 1) c) ?_).trans ?_
  · rewrite [Shape.rowMajor_val_two, Shape.rowMajor_val_one]
    show 0 * 64 + c.val = c.val
    omega
  · exact extractStridedSlice_apply ![3, 0] a4 slices_S5x64_S1x64_3_0 (ix2 (0 : Fin 1) c) (ix2 (3 : Fin 5) c)
      (fun a => match a with
        | ⟨0, _⟩ => by show (3 : ℕ) = 3 + 0; rfl
        | ⟨1, _⟩ => by show c.val = 0 + c.val; omega)

/-- Weight matrix 4 of the stack, entry by entry. -/
theorem tW4_apply (a3 : FVec Ideal S5x64x64 .f32) (q c : Fin 64) :
    tW4 (F := Ideal) a3 (ix2 q c) = a3 (ix3 (4 : Fin 5) q c) := by
  unfold tW4
  refine (shapeCast_apply _ shapeCasts_S1x64x64_S64x64 (ix2 q c) (ix3 (0 : Fin 1) q c) ?_).trans ?_
  · rewrite [Shape.rowMajor_val_three, Shape.rowMajor_val_two]
    show (0 * 64 + q.val) * 64 + c.val = q.val * 64 + c.val
    omega
  · exact extractStridedSlice_apply ![4, 0, 0] a3 slices_S5x64x64_S1x64x64_4_0_0 (ix3 (0 : Fin 1) q c) (ix3 (4 : Fin 5) q c)
      (fun a => match a with
        | ⟨0, _⟩ => by show (4 : ℕ) = 4 + 0; rfl
        | ⟨1, _⟩ => by show q.val = 0 + q.val; omega
        | ⟨2, _⟩ => by show c.val = 0 + c.val; omega)

/-- Bias row 4 of the stack, entry by entry. -/
theorem tB4_apply (a4 : FVec Ideal S5x64 .f32) (c : Fin 64) :
    tB4 (F := Ideal) a4 (ix1 c) = a4 (ix2 (4 : Fin 5) c) := by
  unfold tB4
  refine (shapeCast_apply _ shapeCasts_S1x64_S64 (ix1 c) (ix2 (0 : Fin 1) c) ?_).trans ?_
  · rewrite [Shape.rowMajor_val_two, Shape.rowMajor_val_one]
    show 0 * 64 + c.val = c.val
    omega
  · exact extractStridedSlice_apply ![4, 0] a4 slices_S5x64_S1x64_4_0 (ix2 (0 : Fin 1) c) (ix2 (4 : Fin 5) c)
      (fun a => match a with
        | ⟨0, _⟩ => by show (4 : ℕ) = 4 + 0; rfl
        | ⟨1, _⟩ => by show c.val = 0 + c.val; omega)

/-! ## The normalisation factors -/

theorem hostRsqrt_apply {s : Shape} (x : FVec Ideal s .f32) (j : s.Idx) : Host.rsqrt x j = Ideal.rsqrt (x j) := rfl

/-- A node's factor: the reciprocal square root of zero, plus a one per edge into it, plus one. -/
theorem tV10_apply (v3 : IVec S800000 32) (i : Fin 50000) :
    tV10 (F := Ideal) v3 (ix1 i) = Cert.Gcn.dinv (fun e => v3 (ix1 e)) i := by
  have hd : scatter_S50000_S800000x1_S800000_n_0_0_1
      = ScatterRows.vecDims 50000 800000 scatter_S50000_S800000x1_S800000_n_0_0_1_wf := rfl
  unfold tV10 Cert.Gcn.dinv Cert.Gcn.deg Cert.Gcn.inE
  beta_reduce
  have hone : broadcastInDim S800000 ![] bcast_S_S800000 (constant (F := Ideal) S_ .f32 0x3F800000#32) = fun _ => (1 : EReal) :=
    funext (ones_apply _)
  rw [hostRsqrt_apply, addf_apply, hd, ScatterRows.scatterAdd_vec_apply, zeros_apply, ones_apply, hone]
  simp only [bcastCol_apply (show (800000 : ℕ) ≠ 1 by decide)]

/-- An edge's factor: the factors of its two end nodes, each index word wrapped and clamped. -/
theorem tV25_apply (v1 v3 : IVec S800000 32) (v10 : FVec Ideal S50000 .f32) (e : Fin 800000) :
    tV25 (F := Ideal) v1 v3 v10 (ix1 e)
      = v10 (ix1 (Cert.Gcn.rowW (Cert.Gcn.wrapW (v1 (ix1 e))))) * v10 (ix1 (Cert.Gcn.rowW (Cert.Gcn.wrapW (v3 (ix1 e))))) := by
  have hg : gather_S50000_S800000x1_S800000_n_0_n_n_0_1_1
      = GatherVec.vecDims 50000 800000 gather_S50000_S800000x1_S800000_n_0_n_n_0_1_1_wf := rfl
  unfold tV25
  beta_reduce
  rw [mulf_apply, hg, GatherVec.gather_vec_apply (show 0 < 50000 by decide),
    GatherVec.gather_vec_apply (show 0 < 50000 by decide), rowOf_wrap, rowOf_wrap]

/-- The edges' factors from the edge array. -/
theorem preV25_apply (a1 : IVec S2x800000 32) (e : Fin 800000) :
    preV25 (F := Ideal) a1 (ix1 e)
      = Cert.Gcn.dinv (fun e => a1 (ix2 (1 : Fin 2) e)) (Cert.Gcn.rowW (Cert.Gcn.wrapW (a1 (ix2 (0 : Fin 2) e))))
        * Cert.Gcn.dinv (fun e => a1 (ix2 (1 : Fin 2) e)) (Cert.Gcn.rowW (Cert.Gcn.wrapW (a1 (ix2 (1 : Fin 2) e)))) := by
  have hd : (fun e => tV3 (F := Ideal) a1 (ix1 e)) = fun e => a1 (ix2 (1 : Fin 2) e) := funext fun e => tV3_apply a1 e
  unfold preV25
  rw [tV25_apply, tV10_apply, tV10_apply, tV1_apply, tV3_apply, hd]

/-- The nodes' own factors from the edge array. -/
theorem preV26_apply (a1 : IVec S2x800000 32) (i : Fin 50000) :
    preV26 (F := Ideal) a1 (ix1 i)
      = Cert.Gcn.dinv (fun e => a1 (ix2 (1 : Fin 2) e)) i * Cert.Gcn.dinv (fun e => a1 (ix2 (1 : Fin 2) e)) i := by
  have hd : (fun e => tV3 (F := Ideal) a1 (ix1 e)) = fun e => a1 (ix2 (1 : Fin 2) e) := funext fun e => tV3_apply a1 e
  unfold preV26 tV26
  rw [mulf_apply, tV10_apply, hd]

/-! ## One layer -/

/-- A layer at a node and a feature: zero, plus over the edges whose destination word is the node the projected
    source row times the edge's factor, plus the node's own projection times its own factor, plus the bias. -/
theorem layerT_apply (h : FVec Ideal S50000x64 .f32) (Wk : FVec Ideal S64x64 .f32) (bk : FVec Ideal S64 .f32)
    (v1 v3 : IVec S800000 32) (v25 : FVec Ideal S800000 .f32) (v26 : FVec Ideal S50000 .f32) (i : Fin 50000) (k : Fin 64) :
    layerT (F := Ideal) h Wk bk v1 v3 v25 v26 (ix2 i k)
      = ((0 + ∑ e ∈ Finset.univ.filter (fun e : Fin 800000 => (v3 (ix1 e)).toInt = (i.val : ℤ)),
            (∑ q : Fin 64, h (ix2 (Cert.Gcn.rowW (Cert.Gcn.wrapW (v1 (ix1 e)))) q) * Wk (ix2 q k)) * v25 (ix1 e))
          + (∑ q : Fin 64, h (ix2 i q) * Wk (ix2 q k)) * v26 (ix1 i)) + bk (ix1 k) := by
  have hs : scatter_S50000x64_S800000x1_S800000x64_1_0_0_1
      = ScatterRows.rowDims 50000 800000 64 scatter_S50000x64_S800000x1_S800000x64_1_0_0_1_wf := rfl
  have hg : gather_S50000x64_S800000x1_S800000x64_1_0_n_n_0_1_164
      = GatherRows.rowDims 50000 800000 64 gather_S50000x64_S800000x1_S800000x64_1_0_n_n_0_1_164_wf := rfl
  unfold layerT
  beta_reduce
  rw [addf_apply, addf_apply, hs, ScatterRows.scatterAdd_rows_apply, hg]
  have hrow : GatherRows.rowOf (N := 50000) (show 0 < 50000 by decide) (broadcastInDim S800000x1 ![0] bcast_S800000_S800000x1_0
      (select (cmpi .slt v1 (broadcastInDim S800000 ![] bcast_S_S800000 (constantI S_ 32 0#32)))
        (addi v1 (broadcastInDim S800000 ![] bcast_S_S800000 (constantI S_ 32 50000#32))) v1))
      = fun e => Cert.Gcn.rowW (Cert.Gcn.wrapW (v1 (ix1 e))) := funext (rowOf_wrap _ v1)
  simp only [mulf_apply, GatherRows.gather_rows_apply (show 0 < 50000 by decide), dotNC_apply,
    bcastCol_apply (show (800000 : ℕ) ≠ 1 by decide), bcastCol_apply (show (50000 : ℕ) ≠ 1 by decide),
    bcastRows_apply (show (800000 : ℕ) ≠ 1 by decide), bcastRows_apply (show (50000 : ℕ) ≠ 1 by decide),
    bcastBias_apply (show (64 : ℕ) ≠ 1 by decide), bcastRow1_apply (show (64 : ℕ) ≠ 1 by decide)]
  rw [zeros_apply, hrow]

/-- The positive part of the node features, entry by entry. -/
theorem reluT_apply (x : FVec Ideal S50000x64 .f32) (j : S50000x64.Idx) : reluT (F := Ideal) x j = max (x j) (0 : EReal) := by
  unfold reluT
  rw [maximumf_apply, zeros_apply]

/-- The positive part of the per-graph features, entry by entry. -/
theorem reluG_apply (x : FVec Ideal S512x64 .f32) (j : S512x64.Idx) : reluG (F := Ideal) x j = max (x j) (0 : EReal) := by
  unfold reluG
  rw [maximumf_apply, zeros_apply]

/-! ## The pooling and the read-out -/

/-- The hidden layer of the read-out before its positive part: the pooled features times the weights, plus the bias. -/
theorem tailA_apply (h : FVec Ideal S50000x64 .f32) (a2 : IVec S50000 32) (a5 : FVec Ideal S64x64 .f32) (a6 : FVec Ideal S64 .f32)
    (g : Fin 512) (q : Fin 64) :
    tailA (F := Ideal) h a2 a5 a6 (ix2 g q)
      = (∑ r : Fin 64, (0 + ∑ n ∈ Finset.univ.filter (fun n : Fin 50000 => (a2 (ix1 n)).toInt = (g.val : ℤ)), h (ix2 n r))
          * a5 (ix2 r q)) + a6 (ix1 q) := by
  have hs : scatter_S512x64_S50000x1_S50000x64_1_0_0_1
      = ScatterRows.rowDims 512 50000 64 scatter_S512x64_S50000x1_S50000x64_1_0_0_1_wf := rfl
  unfold tailA
  beta_reduce
  have hz : broadcastInDim S512x64 ![] bcast_S_S512x64 (constant (F := Ideal) S_ .f32 0x00000000#32) = fun _ => (0 : EReal) :=
    funext (zeros_apply _)
  rw [addf_apply, dotGC_apply, hs, hz]
  simp only [ScatterRows.scatterAdd_rows_apply, bcastCol_apply (show (50000 : ℕ) ≠ 1 by decide),
    bcastBias_apply (show (64 : ℕ) ≠ 1 by decide), bcastRow1_apply (show (64 : ℕ) ≠ 1 by decide)]

/-- The output column: the hidden features times the output weights, plus the output bias. -/
theorem tailB_apply (x : FVec Ideal S512x64 .f32) (a7 : FVec Ideal S64x1 .f32) (a8 : FVec Ideal S1 .f32) (g : Fin 512) (z : Fin 1) :
    tailB (F := Ideal) x a7 a8 (ix2 g z) = (∑ q : Fin 64, x (ix2 g q) * a7 (ix2 q z)) + a8 (ix1 (0 : Fin 1)) := by
  unfold tailB
  beta_reduce
  rw [addf_apply, dotG1_apply, bcast11_apply, bcast1_apply]

/-! ## The layers composed -/

/-- A layer over the program's own edge words and factors is the reference layer on plain index functions. -/
theorem lay_apply (h : FVec Ideal S50000x64 .f32) (hF : Cert.Gcn.Feat) (hh : ∀ i q, h (ix2 i q) = hF i q)
    (Wk : FVec Ideal S64x64 .f32) (WF : Fin 64 → Fin 64 → EReal) (hW : ∀ q c, Wk (ix2 q c) = WF q c)
    (bk : FVec Ideal S64 .f32) (bF : Fin 64 → EReal) (hb : ∀ c, bk (ix1 c) = bF c)
    (a1 : IVec S2x800000 32) (i : Fin 50000) (k : Fin 64) :
    layerT (F := Ideal) h Wk bk (tV1 a1) (tV3 a1) (preV25 a1) (preV26 a1) (ix2 i k)
      = Cert.Gcn.layerRef (Cert.Gcn.srcOf a1) (Cert.Gcn.dstwOf a1) hF WF bF i k := by
  show _ = Cert.Gcn.layerRef (fun e => Cert.Gcn.rowW (Cert.Gcn.wrapW (a1 (ix2 (0 : Fin 2) e)))) (fun e => a1 (ix2 (1 : Fin 2) e)) hF WF bF i k
  rw [layerT_apply]
  unfold Cert.Gcn.layerRef Cert.Gcn.convRef Cert.Gcn.proj Cert.Gcn.inE
  simp only [tV3_apply, tV1_apply, preV26_apply, hh, hW, hb]
  have key : ∀ S S' T b : EReal, S = S' → 0 + S + T + b = 0 + S' + T + b := fun _ _ _ _ hS => by rw [hS]
  refine key _ _ _ _ (Finset.sum_congr rfl fun e he => ?_)
  rw [preV25_apply, Cert.Gcn.rowW_wrapW_of_toInt _ i (Finset.mem_filter.mp he).2]

/-- The node features after the five layers are the reference network's. -/
theorem featT_apply (a0 : FVec Ideal S50000x64 .f32) (a1 : IVec S2x800000 32) (a3 : FVec Ideal S5x64x64 .f32)
    (a4 : FVec Ideal S5x64 .f32) (i : Fin 50000) (k : Fin 64) :
    featT (F := Ideal) a0 a1 a3 a4 (ix2 i k)
      = Cert.Gcn.netRef (Cert.Gcn.srcOf a1) (Cert.Gcn.dstwOf a1) (fun i q => a0 (ix2 i q)) (fun l q c => a3 (ix3 l q c))
          (fun l c => a4 (ix2 l c)) i k := by
  unfold featT Cert.Gcn.netRef
  refine lay_apply _ _ (fun i q => ?_) _ _ (fun q c => tW4_apply a3 q c) _ _ (fun c => tB4_apply a4 c) a1 i k
  rw [reluT_apply]
  refine congrArg (fun x => max x (0 : EReal)) ?_
  refine lay_apply _ _ (fun i q => ?_) _ _ (fun q c => tW3_apply a3 q c) _ _ (fun c => tB3_apply a4 c) a1 i q
  rw [reluT_apply]
  refine congrArg (fun x => max x (0 : EReal)) ?_
  refine lay_apply _ _ (fun i q => ?_) _ _ (fun q c => tW2_apply a3 q c) _ _ (fun c => tB2_apply a4 c) a1 i q
  rw [reluT_apply]
  refine congrArg (fun x => max x (0 : EReal)) ?_
  refine lay_apply _ _ (fun i q => ?_) _ _ (fun q c => tW1_apply a3 q c) _ _ (fun c => tB1_apply a4 c) a1 i q
  rw [reluT_apply]
  refine congrArg (fun x => max x (0 : EReal)) ?_
  exact lay_apply _ _ (fun i q => rfl) _ _ (fun q c => tW0_apply a3 q c) _ _ (fun c => tB0_apply a4 c) a1 i q

/-! ## The whole result -/

/-- The program's result, as a term of its nine arguments, is the network's output. -/
theorem netT_eq (a0 : FVec Ideal S50000x64 .f32) (a1 : IVec S2x800000 32) (a2 : IVec S50000 32) (a3 : FVec Ideal S5x64x64 .f32)
    (a4 : FVec Ideal S5x64 .f32) (a5 : FVec Ideal S64x64 .f32) (a6 : FVec Ideal S64 .f32) (a7 : FVec Ideal S64x1 .f32)
    (a8 : FVec Ideal S1 .f32) :
    netT (F := Ideal) a0 a1 a2 a3 a4 a5 a6 a7 a8 = Cert.Gcn.netOut a0 a1 a2 a3 a4 a5 a6 a7 a8 := by
  funext j
  obtain ⟨g, rfl⟩ : ∃ g : Fin 512, j = ix2 g (0 : Fin 1) :=
    ⟨j 0, funext fun a => match a with
      | ⟨0, _⟩ => rfl
      | ⟨1, _⟩ => Fin.ext (by have h1 : (j 1).val < 1 := (j 1).isLt; show (j 1).val = 0; omega)⟩
  show _ = Cert.Gcn.readout
    (Cert.Gcn.pool (fun n => a2 (ix1 n))
      (Cert.Gcn.netRef (Cert.Gcn.srcOf a1) (Cert.Gcn.dstwOf a1) (fun i q => a0 (ix2 i q)) (fun l q c => a3 (ix3 l q c)) (fun l c => a4 (ix2 l c))))
    (fun r q => a5 (ix2 r q)) (fun q => a6 (ix1 q)) (fun q => a7 (ix2 q (0 : Fin 1))) (a8 (ix1 (0 : Fin 1))) g
  unfold netT Cert.Gcn.readout Cert.Gcn.pool
  rw [tailB_apply]
  simp only [reluG_apply, tailA_apply, featT_apply]

end Cert.ReferenceIdeal.Hand

end
-- ==== Proof.RefValue.lean ====
/-
  The reference program's run and value: every weakly fair execution of @main at the ideal instance terminates with
  the result buffer at the five-layer network's output of the nine arguments' launch contents, and the nine
  arguments unchanged.
-/
import proofs.«143766_j20229295964422_2_alg».proof.Proof.RefSeg
import proofs.«143766_j20229295964422_2_alg».proof.Proof.RefMath

noncomputable section

namespace Cert.ReferenceIdeal.Hand

open Cert.ReferenceIdeal Cert.ReferenceIdeal.Gen Idealize.ShloMosaic Idealize.ShloMosaic.TcCoe Idealize.SL.Sem Idealize.ShloMosaic.StableHlo

/-- On every device, from any memory with zero counters: every weakly fair execution of @main terminates with the
    result buffer at the network's output of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v167)
        = Cert.Gcn.netOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v167).trans ((after_ops_v167 (launchContents m c)).trans (netT_eq _ _ _ _ _ _ _ _ _)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c))⟩)
    (run_after m ρ)

end Cert.ReferenceIdeal.Hand

end
-- ==== Proof.lean ====
/-
  A five-layer graph convolution network with a sum-pooled read-out: the kernel against its reference, over the
  extended reals.

  The reference forms, per layer, `Σ_{e into i} (h·W)(src e) · (dinv(src e) · dinv i) + (h·W) i · (dinv i · dinv i) + b`
  with `dinv i = (1 + #in-edges of i)^(-1/2)`. The kernel scales the projected features by `dinv` on chip, sums the
  scaled rows of the in-neighbours on the host, and scales the sum (plus the node's own scaled row) by `dinv i`
  again on chip, fusing the positive part and the next layer's projection into the same stage. Both are the same
  function of the arguments because `dinv i` is a nonnegative REAL, and multiplying by a finite nonnegative factor
  distributes over any finite sum of extended reals (`Cert.Gcn.conv_eq`). Format changes to bf16 before the matrix
  products are the identity on the extended reals, and a matrix product accumulated into zero is the plain sum
  over the contracted axis on both sides. Pooling (a sum over each graph's nodes) and the two-layer read-out are
  the same operations on both sides.

  `Cert.Gcn.netOut` (Spec.lean) is that function, on plain index functions of the nine argument arrays. The kernel's
  run ends with its result buffer at `netOut` of the arguments (KerChain.lean: the seven on-chip stages' closed
  forms, the host stretches between them read for any contents, chained boundary by boundary); the reference's
  run ends at the same (RefValue.lean). The frames of the two kernel programs are the generated ones; the
  reference's frame is its run with the result dropped; no rewrite was applied when the kernel was idealized.
-/
import proofs.«143766_j20229295964422_2_alg».proof.Defs
import proofs.«143766_j20229295964422_2_alg».proof.Proof.Gen.Kernel
import proofs.«143766_j20229295964422_2_alg».proof.Proof.Gen.Kernel.Skeleton
import proofs.«143766_j20229295964422_2_alg».proof.Proof.Gen.Kernel.Launch
import proofs.«143766_j20229295964422_2_alg».proof.Proof.Gen.Kernel.Points
import proofs.«143766_j20229295964422_2_alg».proof.Proof.Gen.Kernel.Frame
import proofs.«143766_j20229295964422_2_alg».proof.Proof.Gen.KernelIdeal
import proofs.«143766_j20229295964422_2_alg».proof.Proof.Gen.KernelIdeal.Skeleton
import proofs.«143766_j20229295964422_2_alg».proof.Proof.Gen.KernelIdeal.Launch
import proofs.«143766_j20229295964422_2_alg».proof.Proof.Gen.KernelIdeal.Points
import proofs.«143766_j20229295964422_2_alg».proof.Proof.Gen.KernelIdeal.Frame
import proofs.«143766_j20229295964422_2_alg».proof.Proof.Gen.ReferenceIdeal
import proofs.«143766_j20229295964422_2_alg».proof.Proof.Gen.Pre_finite_inputs
import proofs.«143766_j20229295964422_2_alg».proof.Proof.KerChain
import proofs.«143766_j20229295964422_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The idealized kernel's run: the result buffer ends at the network of the arguments, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v98)
          = Cert.Gcn.netOut (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun _ h c => ⟨(h c).1.trans (Cert.KernelIdeal.Hand.result_val m ρ c), (h c).2⟩)
    (Cert.KernelIdeal.GenP.frame_val m ρ)

/-- From memories agreeing on the arguments both programs end with the same result: each is the network of its
    arguments, and the arguments agree. -/
theorem algebraic : Cert.algebraic_KernelIdeal_ReferenceIdeal := by
  intro m ρ m' ρ' _ hagree
  refine ⟨fun c => Cert.Gcn.netOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    kernel_run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
